-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  main_v53

def fn_part2 {F : FTy → Type} [FloatOps F] (main_arg9 : FVec F S64 .f32) (main_arg10 : FVec F S64 .f32) (main_arg11 : FVec F S64x8 .f32) (main_arg12 : FVec F S8 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x8 .f32 := Host.absf main_arg11
  let main_cst_16 : FVec F S_ .f32 := constant S_ .f32 0x7F800000#32
  let main_v45 : FVec F S64x8 .f32 := broadcastInDim S64x8 ![] bcast_S_S64x8 main_cst_16
  let main_v46 : IVec S64x8 1 := cmpf .olt main_v44 main_v45
  let main_c_17 : IVec S_ 1 := constantI S_ 1 1#1
  let main_v47 : IVec S_ 1 := (fun x v => Host.reduce IntOp.andi x v reducesTo_S64x8_S_d0_1 h_S_) main_v46 main_c_17
  let main_v48 : IVec S_ 1 := andi main_v43 main_v47
  let main_v49 : FVec F S8 .f32 := Host.absf main_arg12
  let main_cst_18 : FVec F S_ .f32 := constant S_ .f32 0x7F800000#32
  let main_v50 : FVec F S8 .f32 := broadcastInDim S8 ![] bcast_S_S8 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_arg11 : FVec F S64x8 .f32) (main_arg12 : FVec F S8 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S64x8 .f32) (main_arg12 : FVec F S8 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S5000x64 : Shape := ⟨2, ![5000, 64]⟩
abbrev S1600000x64 : Shape := ⟨2, ![1600000, 64]⟩
abbrev S100000x1 : Shape := ⟨2, ![100000, 1]⟩
abbrev S1x64 : Shape := ⟨2, ![1, 64]⟩
abbrev S64x1 : Shape := ⟨2, ![64, 1]⟩
abbrev S1x8 : Shape := ⟨2, ![1, 8]⟩

abbrev nBuf : Space → Nat
  | .hbm => 181
  | .vmem => 48
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S64x8, .f32⟩
  | 12 => ⟨S8, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S100000, .f32⟩
  | 47 => ⟨S100000x64, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x64, .f32⟩
  | 57 => ⟨S1600000x1, .f32⟩
  | 58 => ⟨S1600000x64, .f32⟩
  | 59 => ⟨S1600000x64, .f32⟩
  | 60 => ⟨S_, .f32⟩
  | 61 => ⟨S100000x64, .f32⟩
  | 62 => ⟨S1600000x1, .i32⟩
  | 63 => ⟨S100000x64, .f32⟩
  | 64 => ⟨S100000x1, .f32⟩
  | 65 => ⟨S100000x64, .f32⟩
  | 66 => ⟨S100000x64, .f32⟩
  | 67 => ⟨S1x64, .f32⟩
  | 68 => ⟨S100000x64, .f32⟩
  | 69 => ⟨S_, .f32⟩
  | 70 => ⟨S64, .f32⟩
  | 71 => ⟨S_, .f32⟩
  | 72 => ⟨S64, .f32⟩
  | 73 => ⟨S64, .f32⟩
  | 74 => ⟨S1x64, .f32⟩
  | 75 => ⟨S100000x64, .f32⟩
  | 76 => ⟨S100000x64, .f32⟩
  | 77 => ⟨S100000x64, .f32⟩
  | 78 => ⟨S_, .f32⟩
  | 79 => ⟨S64, .f32⟩
  | 80 => ⟨S_, .f32⟩
  | 81 => ⟨S64, .f32⟩
  | 82 => ⟨S64, .f32⟩
  | 83 => ⟨S_, .f32⟩
  | 84 => ⟨S64, .f32⟩
  | 85 => ⟨S64, .f32⟩
  | 86 => ⟨S64, .f32⟩
  | 87 => ⟨S64, .f32⟩
  | 88 => ⟨S64, .f32⟩
  | 89 => ⟨S64, .f32⟩
  | 90 => ⟨S1x64, .f32⟩
  | 91 => ⟨S1x64, .f32⟩
  | 92 => ⟨S100000x64, .f32⟩
  | 93 => ⟨S100000x64, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x64, .f32⟩
  | 103 => ⟨S1600000x1, .f32⟩
  | 104 => ⟨S1600000x64, .f32⟩
  | 105 => ⟨S1600000x64, .f32⟩
  | 106 => ⟨S_, .f32⟩
  | 107 => ⟨S100000x64, .f32⟩
  | 108 => ⟨S1600000x1, .i32⟩
  | 109 => ⟨S100000x64, .f32⟩
  | 110 => ⟨S100000x1, .f32⟩
  | 111 => ⟨S100000x64, .f32⟩
  | 112 => ⟨S100000x64, .f32⟩
  | 113 => ⟨S1x64, .f32⟩
  | 114 => ⟨S100000x64, .f32⟩
  | 115 => ⟨S_, .f32⟩
  | 116 => ⟨S64, .f32⟩
  | 117 => ⟨S_, .f32⟩
  | 118 => ⟨S64, .f32⟩
  | 119 => ⟨S64, .f32⟩
  | 120 => ⟨S1x64, .f32⟩
  | 121 => ⟨S100000x64, .f32⟩
  | 122 => ⟨S100000x64, .f32⟩
  | 123 => ⟨S100000x64, .f32⟩
  | 124 => ⟨S_, .f32⟩
  | 125 => ⟨S64, .f32⟩
  | 126 => ⟨S_, .f32⟩
  | 127 => ⟨S64, .f32⟩
  | _ => ⟨S100000x64, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S64, .f32⟩
  | 5 => ⟨S64, .f32⟩
  | 6 => ⟨S64, .f32⟩
  | 7 => ⟨S64, .f32⟩
  | 8 => ⟨S1x64, .f32⟩
  | 9 => ⟨S1x64, .f32⟩
  | 10 => ⟨S100000x64, .f32⟩
  | 11 => ⟨S100000x64, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x64, .f32⟩
  | 21 => ⟨S1600000x1, .f32⟩
  | 22 => ⟨S1600000x64, .f32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S100000x1, .f32⟩
  | 29 => ⟨S100000x64, .f32⟩
  | 30 => ⟨S100000x64, .f32⟩
  | 31 => ⟨S1x64, .f32⟩
  | 32 => ⟨S100000x64, .f32⟩
  | 33 => ⟨S_, .f32⟩
  | 34 => ⟨S64x64, .f32⟩
  | 35 => ⟨S100000x1, .i32⟩
  | 36 => ⟨S64x64, .f32⟩
  | 37 => ⟨S_, .f32⟩
  | 38 => ⟨S100000, .f32⟩
  | 39 => ⟨S_, .f32⟩
  | 40 => ⟨S64, .f32⟩
  | 41 => ⟨S100000x1, .i32⟩
  | 42 => ⟨S64, .f32⟩
  | 43 => ⟨S_, .f32⟩
  | 44 => ⟨S64, .f32⟩
  | 45 => ⟨S64, .f32⟩
  | 46 => ⟨S64x1, .f32⟩
  | 47 => ⟨S64x64, .f32⟩
  | 48 => ⟨S64x64, .f32⟩
  | 49 => ⟨S64x8, .f32⟩
  | 50 => ⟨S1x8, .f32⟩
  | 51 => ⟨S64x8, .f32⟩
  | 52 => ⟨S64x8, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_16 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_18 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_v93 : Ref sig .tc := ⟨.hbm, 128, rfl⟩
abbrev main_cst_20 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_21 : Ref sig .tc := ⟨.hbm, 140, rfl⟩
abbrev main_v104 : Ref sig .tc := ⟨.hbm, 141, rfl⟩
abbrev main_v105 : Ref sig .tc := ⟨.hbm, 142, rfl⟩
abbrev main_c_22 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_23 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_24 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_25 : Ref sig .tc := ⟨.hbm, 165, rfl⟩
abbrev main_v125 : Ref sig .tc := ⟨.hbm, 166, rfl⟩
abbrev main_cst_26 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_27 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x8_S64x8_1_0_0_1_n_n_wf : DotDims.WF S64x64 S64x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S100000x64.size a
  hwx7_3 : ∀ i : grid7.Coords, EltTy.bits .f32 = 32 ∨ (Rect.block (s := S100000x64) S5000x64.size (cc7_transform_3 i) (hinb7_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x8_S64x8_1_0_0_1_n_n : DotDims S64x64 S64x8 S64x8 where
  lhsContracting := [1]
  rhsContracting := [0]
  lhsNonContracting := [0]
  rhsNonContracting := [1]
  lhsBatch := []
  rhsBatch := []
  wf := dot_S64x64_S64x8_S64x8_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v64) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v78) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v82) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v83) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v100) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v101) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v102) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v102) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v103) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v116) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v119) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v120) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v121) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S64x1 : Shape := ⟨2, ![64, 1]⟩
abbrev S1x8 : Shape := ⟨2, ![1, 8]⟩

abbrev nBuf : Space → Nat
  | .hbm => 248
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S64x8, .f32⟩
  | 12 => ⟨S8, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S100000x64, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S1600000x1, .f32⟩
  | 57 => ⟨S1600000x64, .f32⟩
  | 58 => ⟨S1600000x64, .f32⟩
  | 59 => ⟨S_, .f32⟩
  | 60 => ⟨S100000x64, .f32⟩
  | 61 => ⟨S1600000x1, .i32⟩
  | 62 => ⟨S100000x64, .f32⟩
  | 63 => ⟨S100000, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S_, .f32⟩
  | 75 => ⟨S64, .f32⟩
  | 76 => ⟨S_, .f32⟩
  | 77 => ⟨S64, .f32⟩
  | 78 => ⟨S64, .f32⟩
  | 79 => ⟨S1x64, .f32⟩
  | 80 => ⟨S100000x64, .f32⟩
  | 81 => ⟨S100000x64, .f32⟩
  | 82 => ⟨S100000x64, .f32⟩
  | 83 => ⟨S_, .f32⟩
  | 84 => ⟨S64, .f32⟩
  | 85 => ⟨S_, .f32⟩
  | 86 => ⟨S64, .f32⟩
  | 87 => ⟨S64, .f32⟩
  | 88 => ⟨S1x64, .f32⟩
  | 89 => ⟨S100000x64, .f32⟩
  | 90 => ⟨S100000x64, .f32⟩
  | 91 => ⟨S_, .f32⟩
  | 92 => ⟨S64, .f32⟩
  | 93 => ⟨S64, .f32⟩
  | 94 => ⟨S64, .f32⟩
  | 95 => ⟨S1x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S100000x64, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000, .f32⟩
  | 123 => ⟨S1600000, .f32⟩
  | 124 => ⟨S_, .i32⟩
  | 125 => ⟨S1600000, .i32⟩
  | 126 => ⟨S1600000, .i1⟩
  | 127 => ⟨S_, .i32⟩
  | _ => ⟨S100000x64, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x64, .f32⟩
  | 5 => ⟨S1600000x1, .f32⟩
  | 6 => ⟨S1600000x64, .f32⟩
  | 7 => ⟨S1600000x64, .f32⟩
  | 8 => ⟨S_, .f32⟩
  | 9 => ⟨S100000x64, .f32⟩
  | 10 => ⟨S1600000x1, .i32⟩
  | 11 => ⟨S100000x64, .f32⟩
  | 12 => ⟨S100000, .f32⟩
  | 13 => ⟨S100000x1, .f32⟩
  | 14 => ⟨S100000x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S_, .f32⟩
  | 24 => ⟨S64, .f32⟩
  | 25 => ⟨S_, .f32⟩
  | 26 => ⟨S64, .f32⟩
  | 27 => ⟨S64, .f32⟩
  | 28 => ⟨S1x64, .f32⟩
  | 29 => ⟨S100000x64, .f32⟩
  | 30 => ⟨S100000x64, .f32⟩
  | 31 => ⟨S100000x64, .f32⟩
  | 32 => ⟨S_, .f32⟩
  | 33 => ⟨S64, .f32⟩
  | 34 => ⟨S_, .f32⟩
  | 35 => ⟨S64, .f32⟩
  | 36 => ⟨S64, .f32⟩
  | 37 => ⟨S1x64, .f32⟩
  | 38 => ⟨S100000x64, .f32⟩
  | 39 => ⟨S100000x64, .f32⟩
  | 40 => ⟨S_, .f32⟩
  | 41 => ⟨S64, .f32⟩
  | 42 => ⟨S64, .f32⟩
  | 43 => ⟨S64, .f32⟩
  | 44 => ⟨S1x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S100000x64, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000, .f32⟩
  | 72 => ⟨S1600000, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S1600000x1, .f32⟩
  | 83 => ⟨S1600000x64, .f32⟩
  | 84 => ⟨S1600000x64, .f32⟩
  | 85 => ⟨S_, .f32⟩
  | 86 => ⟨S100000x64, .f32⟩
  | 87 => ⟨S1600000x1, .i32⟩
  | 88 => ⟨S100000x64, .f32⟩
  | 89 => ⟨S100000, .f32⟩
  | 90 => ⟨S100000x1, .f32⟩
  | 91 => ⟨S100000x64, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S_, .f32⟩
  | 101 => ⟨S64x64, .f32⟩
  | 102 => ⟨S100000x1, .i32⟩
  | 103 => ⟨S64x64, .f32⟩
  | 104 => ⟨S_, .f32⟩
  | 105 => ⟨S100000, .f32⟩
  | 106 => ⟨S_, .f32⟩
  | 107 => ⟨S64, .f32⟩
  | 108 => ⟨S100000x1, .i32⟩
  | 109 => ⟨S64, .f32⟩
  | 110 => ⟨S_, .f32⟩
  | 111 => ⟨S64, .f32⟩
  | 112 => ⟨S64, .f32⟩
  | 113 => ⟨S64x1, .f32⟩
  | 114 => ⟨S64x64, .f32⟩
  | 115 => ⟨S64x64, .f32⟩
  | 116 => ⟨S64x8, .f32⟩
  | 117 => ⟨S1x8, .f32⟩
  | 118 => ⟨S64x8, .f32⟩
  | 119 => ⟨S64x8, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_12 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_13 : Ref sig .tc := ⟨.hbm, 105, rfl⟩
abbrev main_v75 : Ref sig .tc := ⟨.hbm, 106, rfl⟩
abbrev main_v76 : Ref sig .tc := ⟨.hbm, 107, rfl⟩
abbrev main_c_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_15 : Ref sig .tc := ⟨.hbm, 114, rfl⟩
abbrev main_v82 : Ref sig .tc := ⟨.hbm, 115, rfl⟩
abbrev main_v83 : Ref sig .tc := ⟨.hbm, 116, rfl⟩
abbrev main_c_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_17 : Ref sig .tc := ⟨.hbm, 124, rfl⟩
abbrev main_v90 : Ref sig .tc := ⟨.hbm, 125, rfl⟩
abbrev main_v91 : Ref sig .tc := ⟨.hbm, 126, rfl⟩
abbrev main_c_18 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_19 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_call1_cst : Ref sig .tc := ⟨.hbm, 148, rfl⟩
abbrev main_call1_v0 : Ref sig .tc := ⟨.hbm, 149, rfl⟩
abbrev main_v111 : Ref sig .tc := ⟨.hbm, 150, rfl⟩
abbrev main_cst_20 : Ref sig .tc := ⟨.hbm, 151, rfl⟩
abbrev main_v112 : Ref sig .tc := ⟨.hbm, 152, rfl⟩
abbrev main_cst_21 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_22 : Ref sig .tc := ⟨.hbm, 160, rfl⟩
abbrev main_v119 : Ref sig .tc := ⟨.hbm, 161, rfl⟩
abbrev main_cst_23 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_24 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_c_25 : Ref sig .tc := ⟨.hbm, 182, rfl⟩
abbrev main_v138 : Ref sig .tc := ⟨.hbm, 183, rfl⟩
abbrev main_v139 : Ref sig .tc := ⟨.hbm, 184, rfl⟩
abbrev main_c_26 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_c_27 : Ref sig .tc := ⟨.hbm, 191, rfl⟩
abbrev main_v145 : Ref sig .tc := ⟨.hbm, 192, rfl⟩
abbrev main_v146 : Ref sig .tc := ⟨.hbm, 193, rfl⟩
abbrev main_c_28 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_c_29 : Ref sig .tc := ⟨.hbm, 201, rfl⟩
abbrev main_v153 : Ref sig .tc := ⟨.hbm, 202, rfl⟩
abbrev main_v154 : Ref sig .tc := ⟨.hbm, 203, rfl⟩
abbrev main_c_30 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_cst_31 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_call2_cst : Ref sig .tc := ⟨.hbm, 225, rfl⟩
abbrev main_call2_v0 : Ref sig .tc := ⟨.hbm, 226, rfl⟩
abbrev main_v174 : Ref sig .tc := ⟨.hbm, 227, rfl⟩
abbrev main_cst_32 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_cst_33 : Ref sig .tc := ⟨.hbm, 232, rfl⟩
abbrev main_v178 : Ref sig .tc := ⟨.hbm, 233, rfl⟩
abbrev main_cst_34 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_cst_35 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x8_S64x8_1_0_0_1_n_n_wf : DotDims.WF S64x64 S64x8 S64x8 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x8_S64x8_1_0_0_1_n_n : DotDims S64x64 S64x8 S64x8 where
  lhsContracting := [1]
  rhsContracting := [0]
  lhsNonContracting := [0]
  rhsNonContracting := [1]
  lhsBatch := []
  rhsBatch := []
  wf := dot_S64x64_S64x8_S64x8_1_0_0_1_n_n_wf

class Facts : Prop extends Facts₀ where

variable [Facts]
-- ==== Proof.KRun.lean ====
/-
  The kernel program's run, with its result named. The program is eight Pallas regions among stretches of host
  operations; its run is the chain of its fifteen segments, and at the return every unscoped buffer of a core holds
  the contents of the last segment boundary (the fold `W15` of the generated frame module: a stretch's operations
  applied to the boundary before it, a region's arrays at what its write-backs leave). The frame claim keeps only the
  argument arrays of that final state; here the result buffer is kept as well: it ends at `W15` read at the result's
  buffer, which the later modules read back through the fifteen boundaries.
-/
import proofs.«122425_j82325933130190_1_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the argument arrays as launched: the several-region launch theorem over the program's
    segments, the final state read against the last thread state buffer by buffer. -/
theorem run : θ_run defs (onTc (τ := τ) (main (F := F))) ⟨m, fun _ => 0, ρ⟩ (fun r => ∀ c : Dev nD,
      r.2.mem ((c.tc : Thread nD τ).loc main_v137) = W15 m ρ c (Proc.devRef .tc main_v137)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v137 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c)⟩)

end Cert.KernelIdeal.RunVal

end
-- ==== Proof.KKeep.lean ====
/-
  Buffers that cross segment boundaries untouched. The kernel program's run is a chain of fifteen segments — seven
  stretches of host operations and eight Pallas regions —, and the contents of a core's buffers at the boundary after
  segment j is the fold `Wj`. A stretch changes only the buffers its operations write; a region changes only its
  output window's array (an input window's array is read back as it was, every other buffer is not touched at all).
  So the edge lists (source and destination rows), the edge weights and the squared inverse degrees computed once in
  the first stretch, and the argument arrays, reach every later segment that reads them with the contents they had:
  each lemma below walks one buffer across the boundaries between where it is made and where it is read.
-/
import proofs.«122425_j82325933130190_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- A buffer that no operation of a stretch writes holds after the stretch what it held before: the stretch's
    operations are listed, each one's written buffer is compared with the buffer in question. -/
macro "host_keeps " ops:ident : term => `(StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-! ## One buffer across a run of boundaries -/

theorem keep_arg0_0_1 (c : Dev nD) : W1 m ρ c (Proc.devRef .tc main_arg0) = W0 m ρ c (Proc.devRef .tc main_arg0) :=
  calc W1 m ρ c (Proc.devRef .tc main_arg0)
    _ = W0 m ρ c (Proc.devRef .tc main_arg0) := host_keeps hostOps0

theorem keep_arg3_0_1 (c : Dev nD) : W1 m ρ c (Proc.devRef .tc main_arg3) = W0 m ρ c (Proc.devRef .tc main_arg3) :=
  calc W1 m ρ c (Proc.devRef .tc main_arg3)
    _ = W0 m ρ c (Proc.devRef .tc main_arg3) := host_keeps hostOps0

theorem keep_arg4_0_2 (c : Dev nD) : W2 m ρ c (Proc.devRef .tc main_arg4) = W0 m ρ c (Proc.devRef .tc main_arg4) :=
  calc W2 m ρ c (Proc.devRef .tc main_arg4)
    _ = W1 m ρ c (Proc.devRef .tc main_arg4) := W2_of_ne m ρ c main_arg4 (by decide)
    _ = W0 m ρ c (Proc.devRef .tc main_arg4) := host_keeps hostOps0

theorem keep_v1_1_2 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem keep_v3_1_2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem keep_v25_1_2 (c : Dev nD) : W2 m ρ c (Proc.devRef .tc main_v25) = W1 m ρ c (Proc.devRef .tc main_v25) :=
  calc W2 m ρ c (Proc.devRef .tc main_v25)
    _ = W1 m ρ c (Proc.devRef .tc main_v25) := W2_of_ne m ρ c main_v25 (by decide)

theorem keep_v26_1_2 (c : Dev nD) : W2 m ρ c (Proc.devRef .tc main_v26) = W1 m ρ c (Proc.devRef .tc main_v26) :=
  calc W2 m ρ c (Proc.devRef .tc main_v26)
    _ = W1 m ρ c (Proc.devRef .tc main_v26) := W2_of_ne m ρ c main_v26 (by decide)

theorem keep_arg9_0_4 (c : Dev nD) : W4 m ρ c (Proc.devRef .tc main_arg9) = W0 m ρ c (Proc.devRef .tc main_arg9) :=
  calc W4 m ρ c (Proc.devRef .tc main_arg9)
    _ = W3 m ρ c (Proc.devRef .tc main_arg9) := W4_of_ne m ρ c main_arg9 (by decide)
    _ = W2 m ρ c (Proc.devRef .tc main_arg9) := host_keeps hostOps1
    _ = W1 m ρ c (Proc.devRef .tc main_arg9) := W2_of_ne m ρ c main_arg9 (by decide)
    _ = W0 m ρ c (Proc.devRef .tc main_arg9) := host_keeps hostOps0

theorem keep_arg10_0_4 (c : Dev nD) : W4 m ρ c (Proc.devRef .tc main_arg10) = W0 m ρ c (Proc.devRef .tc main_arg10) :=
  calc W4 m ρ c (Proc.devRef .tc main_arg10)
    _ = W3 m ρ c (Proc.devRef .tc main_arg10) := W4_of_ne m ρ c main_arg10 (by decide)
    _ = W2 m ρ c (Proc.devRef .tc main_arg10) := host_keeps hostOps1
    _ = W1 m ρ c (Proc.devRef .tc main_arg10) := W2_of_ne m ρ c main_arg10 (by decide)
    _ = W0 m ρ c (Proc.devRef .tc main_arg10) := host_keeps hostOps0

theorem keep_v45_4_5 (c : Dev nD) : W5 m ρ c (Proc.devRef .tc main_v45) = W4 m ρ c (Proc.devRef .tc main_v45) :=
  calc W5 m ρ c (Proc.devRef .tc main_v45)
    _ = W4 m ρ c (Proc.devRef .tc main_v45) := host_keeps hostOps2

theorem keep_arg5_0_6 (c : Dev nD) : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := host_keeps hostOps2
    _ = W3 m ρ c (Proc.devRef .tc main_arg5) := W4_of_ne m ρ c main_arg5 (by decide)
    _ = W2 m ρ c (Proc.devRef .tc main_arg5) := host_keeps hostOps1
    _ = W1 m ρ c (Proc.devRef .tc main_arg5) := W2_of_ne m ρ c main_arg5 (by decide)
    _ = W0 m ρ c (Proc.devRef .tc main_arg5) := host_keeps hostOps0

theorem keep_v1_1_7 (c : Dev nD) : W7 m ρ c (Proc.devRef .tc main_v1) = W1 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := host_keeps hostOps2
    _ = W3 m ρ c (Proc.devRef .tc main_v1) := W4_of_ne m ρ c main_v1 (by decide)
    _ = W2 m ρ c (Proc.devRef .tc main_v1) := host_keeps hostOps1
    _ = W1 m ρ c (Proc.devRef .tc main_v1) := W2_of_ne m ρ c main_v1 (by decide)

theorem keep_v3_1_7 (c : Dev nD) : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := host_keeps hostOps2
    _ = W3 m ρ c (Proc.devRef .tc main_v3) := W4_of_ne m ρ c main_v3 (by decide)
    _ = W2 m ρ c (Proc.devRef .tc main_v3) := host_keeps hostOps1
    _ = W1 m ρ c (Proc.devRef .tc main_v3) := W2_of_ne m ρ c main_v3 (by decide)

theorem keep_v25_1_7 (c : Dev nD) : W7 m ρ c (Proc.devRef .tc main_v25) = W1 m ρ c (Proc.devRef .tc main_v25) :=
  calc W7 m ρ c (Proc.devRef .tc main_v25)
    _ = W6 m ρ c (Proc.devRef .tc main_v25) := W7_of_ne m ρ c main_v25 (by decide)
    _ = W5 m ρ c (Proc.devRef .tc main_v25) := W6_of_ne m ρ c main_v25 (by decide)
    _ = W4 m ρ c (Proc.devRef .tc main_v25) := host_keeps hostOps2
    _ = W3 m ρ c (Proc.devRef .tc main_v25) := W4_of_ne m ρ c main_v25 (by decide)
    _ = W2 m ρ c (Proc.devRef .tc main_v25) := host_keeps hostOps1
    _ = W1 m ρ c (Proc.devRef .tc main_v25) := W2_of_ne m ρ c main_v25 (by decide)

theorem keep_v26_1_7 (c : Dev nD) : W7 m ρ c (Proc.devRef .tc main_v26) = W1 m ρ c (Proc.devRef .tc main_v26) :=
  calc W7 m ρ c (Proc.devRef .tc main_v26)
    _ = W6 m ρ c (Proc.devRef .tc main_v26) := W7_of_ne m ρ c main_v26 (by decide)
    _ = W5 m ρ c (Proc.devRef .tc main_v26) := W6_of_ne m ρ c main_v26 (by decide)
    _ = W4 m ρ c (Proc.devRef .tc main_v26) := host_keeps hostOps2
    _ = W3 m ρ c (Proc.devRef .tc main_v26) := W4_of_ne m ρ c main_v26 (by decide)
    _ = W2 m ρ c (Proc.devRef .tc main_v26) := host_keeps hostOps1
    _ = W1 m ρ c (Proc.devRef .tc main_v26) := W2_of_ne m ρ c main_v26 (by decide)

theorem keep_arg6_0_7 (c : Dev nD) : W7 m ρ c (Proc.devRef .tc main_arg6) = W0 m ρ c (Proc.devRef .tc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := host_keeps hostOps2
    _ = W3 m ρ c (Proc.devRef .tc main_arg6) := W4_of_ne m ρ c main_arg6 (by decide)
    _ = W2 m ρ c (Proc.devRef .tc main_arg6) := host_keeps hostOps1
    _ = W1 m ρ c (Proc.devRef .tc main_arg6) := W2_of_ne m ρ c main_arg6 (by decide)
    _ = W0 m ρ c (Proc.devRef .tc main_arg6) := host_keeps hostOps0

theorem keep_arg9_9_15 (c : Dev nD) : W15 m ρ c (Proc.devRef .tc main_arg9) = W9 m ρ c (Proc.devRef .tc main_arg9) :=
  calc W15 m ρ c (Proc.devRef .tc main_arg9)
    _ = W14 m ρ c (Proc.devRef .tc main_arg9) := host_keeps hostOps8
    _ = W13 m ρ c (Proc.devRef .tc main_arg9) := W14_of_ne m ρ c main_arg9 (by decide)
    _ = W12 m ρ c (Proc.devRef .tc main_arg9) := host_keeps hostOps7
    _ = W11 m ρ c (Proc.devRef .tc main_arg9) := W12_of_ne m ρ c main_arg9 (by decide)
    _ = W10 m ρ c (Proc.devRef .tc main_arg9) := W11_of_ne m ρ c main_arg9 (by decide)
    _ = W9 m ρ c (Proc.devRef .tc main_arg9) := host_keeps hostOps5

theorem keep_arg10_9_15 (c : Dev nD) : W15 m ρ c (Proc.devRef .tc main_arg10) = W9 m ρ c (Proc.devRef .tc main_arg10) :=
  calc W15 m ρ c (Proc.devRef .tc main_arg10)
    _ = W14 m ρ c (Proc.devRef .tc main_arg10) := host_keeps hostOps8
    _ = W13 m ρ c (Proc.devRef .tc main_arg10) := W14_of_ne m ρ c main_arg10 (by decide)
    _ = W12 m ρ c (Proc.devRef .tc main_arg10) := host_keeps hostOps7
    _ = W11 m ρ c (Proc.devRef .tc main_arg10) := W12_of_ne m ρ c main_arg10 (by decide)
    _ = W10 m ρ c (Proc.devRef .tc main_arg10) := W11_of_ne m ρ c main_arg10 (by decide)
    _ = W9 m ρ c (Proc.devRef .tc main_arg10) := host_keeps hostOps5

theorem keep_v83_9_10 (c : Dev nD) : W10 m ρ c (Proc.devRef .tc main_v83) = W9 m ρ c (Proc.devRef .tc main_v83) :=
  calc W10 m ρ c (Proc.devRef .tc main_v83)
    _ = W9 m ρ c (Proc.devRef .tc main_v83) := host_keeps hostOps5

theorem keep_arg7_11_15 (c : Dev nD) : W15 m ρ c (Proc.devRef .tc main_arg7) = W11 m ρ c (Proc.devRef .tc main_arg7) :=
  calc W15 m ρ c (Proc.devRef .tc main_arg7)
    _ = W14 m ρ c (Proc.devRef .tc main_arg7) := host_keeps hostOps8
    _ = W13 m ρ c (Proc.devRef .tc main_arg7) := W14_of_ne m ρ c main_arg7 (by decide)
    _ = W12 m ρ c (Proc.devRef .tc main_arg7) := host_keeps hostOps7
    _ = W11 m ρ c (Proc.devRef .tc main_arg7) := (W12_arr m ρ c 1).trans (((dat6 (V11 m ρ) c).arrAt_in 1 rfl _).trans (A_eq6 (V11 m ρ) c 1))

theorem keep_v1_1_12 (c : Dev nD) : W12 m ρ c (Proc.devRef .tc main_v1) = W1 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := W11_of_ne m ρ c main_v1 (by decide)
    _ = W9 m ρ c (Proc.devRef .tc main_v1) := host_keeps hostOps5
    _ = W8 m ρ c (Proc.devRef .tc main_v1) := W9_of_ne m ρ c main_v1 (by decide)
    _ = W7 m ρ c (Proc.devRef .tc main_v1) := host_keeps hostOps4
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := host_keeps hostOps2
    _ = W3 m ρ c (Proc.devRef .tc main_v1) := W4_of_ne m ρ c main_v1 (by decide)
    _ = W2 m ρ c (Proc.devRef .tc main_v1) := host_keeps hostOps1
    _ = W1 m ρ c (Proc.devRef .tc main_v1) := W2_of_ne m ρ c main_v1 (by decide)

theorem keep_v3_1_12 (c : Dev nD) : W12 m ρ c (Proc.devRef .tc main_v3) = W1 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := host_keeps hostOps5
    _ = W8 m ρ c (Proc.devRef .tc main_v3) := W9_of_ne m ρ c main_v3 (by decide)
    _ = W7 m ρ c (Proc.devRef .tc main_v3) := host_keeps hostOps4
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := host_keeps hostOps2
    _ = W3 m ρ c (Proc.devRef .tc main_v3) := W4_of_ne m ρ c main_v3 (by decide)
    _ = W2 m ρ c (Proc.devRef .tc main_v3) := host_keeps hostOps1
    _ = W1 m ρ c (Proc.devRef .tc main_v3) := W2_of_ne m ρ c main_v3 (by decide)

theorem keep_v25_1_12 (c : Dev nD) : W12 m ρ c (Proc.devRef .tc main_v25) = W1 m ρ c (Proc.devRef .tc main_v25) :=
  calc W12 m ρ c (Proc.devRef .tc main_v25)
    _ = W11 m ρ c (Proc.devRef .tc main_v25) := W12_of_ne m ρ c main_v25 (by decide)
    _ = W10 m ρ c (Proc.devRef .tc main_v25) := W11_of_ne m ρ c main_v25 (by decide)
    _ = W9 m ρ c (Proc.devRef .tc main_v25) := host_keeps hostOps5
    _ = W8 m ρ c (Proc.devRef .tc main_v25) := W9_of_ne m ρ c main_v25 (by decide)
    _ = W7 m ρ c (Proc.devRef .tc main_v25) := host_keeps hostOps4
    _ = W6 m ρ c (Proc.devRef .tc main_v25) := W7_of_ne m ρ c main_v25 (by decide)
    _ = W5 m ρ c (Proc.devRef .tc main_v25) := W6_of_ne m ρ c main_v25 (by decide)
    _ = W4 m ρ c (Proc.devRef .tc main_v25) := host_keeps hostOps2
    _ = W3 m ρ c (Proc.devRef .tc main_v25) := W4_of_ne m ρ c main_v25 (by decide)
    _ = W2 m ρ c (Proc.devRef .tc main_v25) := host_keeps hostOps1
    _ = W1 m ρ c (Proc.devRef .tc main_v25) := W2_of_ne m ρ c main_v25 (by decide)

theorem keep_v26_1_12 (c : Dev nD) : W12 m ρ c (Proc.devRef .tc main_v26) = W1 m ρ c (Proc.devRef .tc main_v26) :=
  calc W12 m ρ c (Proc.devRef .tc main_v26)
    _ = W11 m ρ c (Proc.devRef .tc main_v26) := W12_of_ne m ρ c main_v26 (by decide)
    _ = W10 m ρ c (Proc.devRef .tc main_v26) := W11_of_ne m ρ c main_v26 (by decide)
    _ = W9 m ρ c (Proc.devRef .tc main_v26) := host_keeps hostOps5
    _ = W8 m ρ c (Proc.devRef .tc main_v26) := W9_of_ne m ρ c main_v26 (by decide)
    _ = W7 m ρ c (Proc.devRef .tc main_v26) := host_keeps hostOps4
    _ = W6 m ρ c (Proc.devRef .tc main_v26) := W7_of_ne m ρ c main_v26 (by decide)
    _ = W5 m ρ c (Proc.devRef .tc main_v26) := W6_of_ne m ρ c main_v26 (by decide)
    _ = W4 m ρ c (Proc.devRef .tc main_v26) := host_keeps hostOps2
    _ = W3 m ρ c (Proc.devRef .tc main_v26) := W4_of_ne m ρ c main_v26 (by decide)
    _ = W2 m ρ c (Proc.devRef .tc main_v26) := host_keeps hostOps1
    _ = W1 m ρ c (Proc.devRef .tc main_v26) := W2_of_ne m ρ c main_v26 (by decide)

theorem keep_arg8_12_15 (c : Dev nD) : W15 m ρ c (Proc.devRef .tc main_arg8) = W12 m ρ c (Proc.devRef .tc main_arg8) :=
  calc W15 m ρ c (Proc.devRef .tc main_arg8)
    _ = W14 m ρ c (Proc.devRef .tc main_arg8) := host_keeps hostOps8
    _ = W13 m ρ c (Proc.devRef .tc main_arg8) := W14_of_ne m ρ c main_arg8 (by decide)
    _ = W12 m ρ c (Proc.devRef .tc main_arg8) := host_keeps hostOps7

theorem keep_arg2_14_15 (c : Dev nD) : W15 m ρ c (Proc.devRef .tc main_arg2) = W14 m ρ c (Proc.devRef .tc main_arg2) :=
  calc W15 m ρ c (Proc.devRef .tc main_arg2)
    _ = W14 m ρ c (Proc.devRef .tc main_arg2) := host_keeps hostOps8

theorem keep_arg11_14_15 (c : Dev nD) : W15 m ρ c (Proc.devRef .tc main_arg11) = W14 m ρ c (Proc.devRef .tc main_arg11) :=
  calc W15 m ρ c (Proc.devRef .tc main_arg11)
    _ = W14 m ρ c (Proc.devRef .tc main_arg11) := host_keeps hostOps8

theorem keep_arg12_14_15 (c : Dev nD) : W15 m ρ c (Proc.devRef .tc main_arg12) = W14 m ρ c (Proc.devRef .tc main_arg12) :=
  calc W15 m ρ c (Proc.devRef .tc main_arg12)
    _ = W14 m ρ c (Proc.devRef .tc main_arg12) := host_keeps hostOps8

/-! ## The argument arrays at the boundaries where they are read -/

theorem at_arg0_1 (c : Dev nD) : W1 m ρ c (Proc.devRef .tc main_arg0) = m ((c : Thread nD τ).loc main_arg0) :=
  (keep_arg0_0_1 m ρ c).trans rfl

theorem at_arg3_1 (c : Dev nD) : W1 m ρ c (Proc.devRef .tc main_arg3) = m ((c : Thread nD τ).loc main_arg3) :=
  (keep_arg3_0_1 m ρ c).trans rfl

theorem at_arg4_2 (c : Dev nD) : W2 m ρ c (Proc.devRef .tc main_arg4) = m ((c : Thread nD τ).loc main_arg4) :=
  (keep_arg4_0_2 m ρ c).trans rfl

theorem at_arg9_4 (c : Dev nD) : W4 m ρ c (Proc.devRef .tc main_arg9) = m ((c : Thread nD τ).loc main_arg9) :=
  (keep_arg9_0_4 m ρ c).trans rfl

theorem at_arg10_4 (c : Dev nD) : W4 m ρ c (Proc.devRef .tc main_arg10) = m ((c : Thread nD τ).loc main_arg10) :=
  (keep_arg10_0_4 m ρ c).trans rfl

theorem at_arg5_6 (c : Dev nD) : W6 m ρ c (Proc.devRef .tc main_arg5) = m ((c : Thread nD τ).loc main_arg5) :=
  (keep_arg5_0_6 m ρ c).trans rfl

theorem at_arg6_7 (c : Dev nD) : W7 m ρ c (Proc.devRef .tc main_arg6) = m ((c : Thread nD τ).loc main_arg6) :=
  (keep_arg6_0_7 m ρ c).trans rfl

theorem at_arg9_9 (c : Dev nD) : W9 m ρ c (Proc.devRef .tc main_arg9) = m ((c : Thread nD τ).loc main_arg9) :=
  (keep_arg9_9_15 m ρ c).symm.trans (W15_main_arg9 m ρ c)

theorem at_arg10_9 (c : Dev nD) : W9 m ρ c (Proc.devRef .tc main_arg10) = m ((c : Thread nD τ).loc main_arg10) :=
  (keep_arg10_9_15 m ρ c).symm.trans (W15_main_arg10 m ρ c)

theorem at_arg7_11 (c : Dev nD) : W11 m ρ c (Proc.devRef .tc main_arg7) = m ((c : Thread nD τ).loc main_arg7) :=
  (keep_arg7_11_15 m ρ c).symm.trans (W15_main_arg7 m ρ c)

theorem at_arg8_12 (c : Dev nD) : W12 m ρ c (Proc.devRef .tc main_arg8) = m ((c : Thread nD τ).loc main_arg8) :=
  (keep_arg8_12_15 m ρ c).symm.trans (W15_main_arg8 m ρ c)

theorem at_arg2_14 (c : Dev nD) : W14 m ρ c (Proc.devRef .tc main_arg2) = m ((c : Thread nD τ).loc main_arg2) :=
  (keep_arg2_14_15 m ρ c).symm.trans (W15_main_arg2 m ρ c)

theorem at_arg11_14 (c : Dev nD) : W14 m ρ c (Proc.devRef .tc main_arg11) = m ((c : Thread nD τ).loc main_arg11) :=
  (keep_arg11_14_15 m ρ c).symm.trans (W15_main_arg11 m ρ c)

theorem at_arg12_14 (c : Dev nD) : W14 m ρ c (Proc.devRef .tc main_arg12) = m ((c : Thread nD τ).loc main_arg12) :=
  (keep_arg12_14_15 m ρ c).symm.trans (W15_main_arg12 m ρ c)

end Cert.KernelIdeal.Fold

end
-- ==== Proof.KHost.lean ====
/-
  The kernel program's stretches of host operations, read against the reference's stages. Between its Pallas regions
  the kernel program does on the host what the reference does on the host — the edge lists cut out of the edge index,
  the inverse square-root degrees, the edge weights, the gather / weigh / scatter-add of a layer's messages, the column
  statistics of a normalisation, the pooling and the classifier — with the same operations on the same operands. So the
  contents a stretch leaves in a buffer, as a function of the contents it found, is the reference's stage of the same
  name applied to the same arrays: once the buffers a stretch reads are known to hold reference stages of the argument
  arrays, the buffer it writes holds the next stage, by unfolding both sides' definitions (they are the same tree of
  operations). The stretches are stated for an arbitrary valuation of the buffers, so that each can be used at the
  boundary where its segment starts.
-/
import proofs.«122425_j82325933130190_1_alg».proof.Proof.Gen.KernelIdeal.Frame
import proofs.«122425_j82325933130190_1_alg».proof.Proof.RefRead
import proofs.«122425_j82325933130190_1_alg».proof.Proof.KKeep

set_option maxRecDepth 16384

noncomputable section

namespace Cert.KernelIdeal.Fold

open Cert.KernelIdeal Cert.KernelIdeal.Gen
open Idealize.ShloMosaic Idealize.ShloMosaic.TcCoe Idealize.ShloMosaic.Tactic Idealize.ShloMosaic.StableHlo
open Idealize.SL Idealize.SL.Sem

variable (V : Valuation τ sig (Elt Ideal))
variable {a0 : (⟨S100000x64, .f32⟩ : BufTy).Contents (Elt Ideal)} {a1 : (⟨S2x1600000, .i32⟩ : BufTy).Contents (Elt Ideal)}
  {a2 : (⟨S100000, .i32⟩ : BufTy).Contents (Elt Ideal)}
  {a3 a5 a7 : (⟨S64x64, .f32⟩ : BufTy).Contents (Elt Ideal)} {a4 a6 a8 a9 a10 : (⟨S64, .f32⟩ : BufTy).Contents (Elt Ideal)}
  {a11 : (⟨S64x8, .f32⟩ : BufTy).Contents (Elt Ideal)} {a12 : (⟨S8, .f32⟩ : BufTy).Contents (Elt Ideal)}

/-! ### The first stretch: the edge lists, the edge weights, the squared inverse degrees -/

theorem hostOps0_src : StableHlo.after hostOps0 V (Proc.devRef .tc main_v1) = Cert.ReferenceIdeal.ReadP.val_main_v1 (F := Ideal) (V (Proc.devRef .tc main_arg1)) := by
  simp only [hostOps0]; after_results_simp; rfl
theorem hostOps0_dst : StableHlo.after hostOps0 V (Proc.devRef .tc main_v3) = Cert.ReferenceIdeal.ReadP.val_main_v3 (F := Ideal) (V (Proc.devRef .tc main_arg1)) := by
  simp only [hostOps0]; after_results_simp; rfl
theorem hostOps0_norm : StableHlo.after hostOps0 V (Proc.devRef .tc main_v25) = Cert.ReferenceIdeal.ReadP.val_main_v26 (F := Ideal) (V (Proc.devRef .tc main_arg1)) := by
  simp only [hostOps0]; after_results_simp; rfl
theorem hostOps0_dinv2 : StableHlo.after hostOps0 V (Proc.devRef .tc main_v26) = Cert.ReferenceIdeal.ReadP.val_main_v40 (F := Ideal) (V (Proc.devRef .tc main_arg1)) := by
  simp only [hostOps0]; after_results_simp; rfl

/-! ### The stretch before the first layer's combine: gather the product's rows along the edges, weigh, scatter-add
    them to the destination rows; the product's rows scaled by the squared inverse degrees; the bias as a row -/

theorem hostOps1_agg (h1 : V (Proc.devRef .tc main_v1) = Cert.ReferenceIdeal.ReadP.val_main_v1 (F := Ideal) a1) (h3 : V (Proc.devRef .tc main_v3) = Cert.ReferenceIdeal.ReadP.val_main_v3 (F := Ideal) a1)
    (h25 : V (Proc.devRef .tc main_v25) = Cert.ReferenceIdeal.ReadP.val_main_v26 (F := Ideal) a1) (h26 : V (Proc.devRef .tc main_v26) = Cert.ReferenceIdeal.ReadP.val_main_v40 (F := Ideal) a1)
    (hh : V (Proc.devRef .tc main_v27) = Cert.ReferenceIdeal.ReadP.val_main_v11 (F := Ideal) a0 a3) :
    StableHlo.after hostOps1 V (Proc.devRef .tc main_v40) = Cert.ReferenceIdeal.ReadP.val_main_v39 (F := Ideal) a0 a1 a3 := by
  simp only [hostOps1]; after_results_simp; rw [h1, h3, h25, hh]; rfl

theorem hostOps1_self (h1 : V (Proc.devRef .tc main_v1) = Cert.ReferenceIdeal.ReadP.val_main_v1 (F := Ideal) a1) (h3 : V (Proc.devRef .tc main_v3) = Cert.ReferenceIdeal.ReadP.val_main_v3 (F := Ideal) a1)
    (h25 : V (Proc.devRef .tc main_v25) = Cert.ReferenceIdeal.ReadP.val_main_v26 (F := Ideal) a1) (h26 : V (Proc.devRef .tc main_v26) = Cert.ReferenceIdeal.ReadP.val_main_v40 (F := Ideal) a1)
    (hh : V (Proc.devRef .tc main_v27) = Cert.ReferenceIdeal.ReadP.val_main_v11 (F := Ideal) a0 a3) :
    StableHlo.after hostOps1 V (Proc.devRef .tc main_v43) = Cert.ReferenceIdeal.ReadP.val_main_v43 (F := Ideal) a0 a1 a3 := by
  simp only [hostOps1]; after_results_simp; rw [h26, hh]; rfl

theorem hostOps1_bias (hb : V (Proc.devRef .tc main_arg4) = a4) :
    StableHlo.after hostOps1 V (Proc.devRef .tc main_v44) = shapeCast S1x64 a4 shapeCasts_S64_S1x64 := by
  simp only [hostOps1]; after_results_simp; rw [hb]; rfl

/-! ### The stretch before the first normalisation: the column means and variances of the layer's output, and from
    them the per-column scale γ·rsqrt(var + ε) and shift β − mean·scale, each as a row -/

theorem hostOps2_scale (ho : V (Proc.devRef .tc main_v45) = Cert.ReferenceIdeal.ReadP.val_main_v48 (F := Ideal) a0 a1 a3 a4) (h9 : V (Proc.devRef .tc main_arg9) = a9) :
    StableHlo.after hostOps2 V (Proc.devRef .tc main_v62) = (shapeCast S1x64 (mulf (F := Ideal) (φ := .f32) a9 (Cert.ReferenceIdeal.ReadP.val_main_v64 (F := Ideal) a0 a1 a3 a4)) shapeCasts_S64_S1x64 : Vec Ideal S1x64 .f32) := by
  simp only [hostOps2]; after_results_simp; rw [ho, h9]; rfl

theorem hostOps2_shift (ho : V (Proc.devRef .tc main_v45) = Cert.ReferenceIdeal.ReadP.val_main_v48 (F := Ideal) a0 a1 a3 a4) (h9 : V (Proc.devRef .tc main_arg9) = a9) (h10 : V (Proc.devRef .tc main_arg10) = a10) :
    StableHlo.after hostOps2 V (Proc.devRef .tc main_v63) = (shapeCast S1x64 (subf (F := Ideal) (φ := .f32) a10 (mulf (F := Ideal) (φ := .f32) (Cert.ReferenceIdeal.ReadP.val_main_v51 (F := Ideal) a0 a1 a3 a4) (mulf (F := Ideal) (φ := .f32) a9 (Cert.ReferenceIdeal.ReadP.val_main_v64 (F := Ideal) a0 a1 a3 a4)))) shapeCasts_S64_S1x64 : Vec Ideal S1x64 .f32) := by
  simp only [hostOps2]; after_results_simp; rw [ho, h9, h10]; rfl

theorem hostOps2_keeps_out : StableHlo.after hostOps2 V (Proc.devRef .tc main_v45) = V (Proc.devRef .tc main_v45) := host_keeps hostOps2

/-! ### The stretch before the second layer's combine: gather the product's rows along the edges, weigh, scatter-add
    them to the destination rows; the product's rows scaled by the squared inverse degrees; the bias as a row -/

theorem hostOps4_agg (h1 : V (Proc.devRef .tc main_v1) = Cert.ReferenceIdeal.ReadP.val_main_v1 (F := Ideal) a1) (h3 : V (Proc.devRef .tc main_v3) = Cert.ReferenceIdeal.ReadP.val_main_v3 (F := Ideal) a1)
    (h25 : V (Proc.devRef .tc main_v25) = Cert.ReferenceIdeal.ReadP.val_main_v26 (F := Ideal) a1) (h26 : V (Proc.devRef .tc main_v26) = Cert.ReferenceIdeal.ReadP.val_main_v40 (F := Ideal) a1)
    (hh : V (Proc.devRef .tc main_v65) = Cert.ReferenceIdeal.ReadP.val_main_v74 (F := Ideal) a0 a1 a3 a4 a5 a9 a10) :
    StableHlo.after hostOps4 V (Proc.devRef .tc main_v78) = Cert.ReferenceIdeal.ReadP.val_main_v102 (F := Ideal) a0 a1 a3 a4 a5 a9 a10 := by
  simp only [hostOps4]; after_results_simp; rw [h1, h3, h25, hh]; rfl

theorem hostOps4_self (h1 : V (Proc.devRef .tc main_v1) = Cert.ReferenceIdeal.ReadP.val_main_v1 (F := Ideal) a1) (h3 : V (Proc.devRef .tc main_v3) = Cert.ReferenceIdeal.ReadP.val_main_v3 (F := Ideal) a1)
    (h25 : V (Proc.devRef .tc main_v25) = Cert.ReferenceIdeal.ReadP.val_main_v26 (F := Ideal) a1) (h26 : V (Proc.devRef .tc main_v26) = Cert.ReferenceIdeal.ReadP.val_main_v40 (F := Ideal) a1)
    (hh : V (Proc.devRef .tc main_v65) = Cert.ReferenceIdeal.ReadP.val_main_v74 (F := Ideal) a0 a1 a3 a4 a5 a9 a10) :
    StableHlo.after hostOps4 V (Proc.devRef .tc main_v81) = Cert.ReferenceIdeal.ReadP.val_main_v106 (F := Ideal) a0 a1 a3 a4 a5 a9 a10 := by
  simp only [hostOps4]; after_results_simp; rw [h26, hh]; rfl

theorem hostOps4_bias (hb : V (Proc.devRef .tc main_arg6) = a6) :
    StableHlo.after hostOps4 V (Proc.devRef .tc main_v82) = shapeCast S1x64 a6 shapeCasts_S64_S1x64 := by
  simp only [hostOps4]; after_results_simp; rw [hb]; rfl

/-! ### The stretch before the second normalisation: the column means and variances of the layer's output, and from
    them the per-column scale γ·rsqrt(var + ε) and shift β − mean·scale, each as a row -/

theorem hostOps5_scale (ho : V (Proc.devRef .tc main_v83) = Cert.ReferenceIdeal.ReadP.val_main_v111 (F := Ideal) a0 a1 a3 a4 a5 a6 a9 a10) (h9 : V (Proc.devRef .tc main_arg9) = a9) :
    StableHlo.after hostOps5 V (Proc.devRef .tc main_v100) = (shapeCast S1x64 (mulf (F := Ideal) (φ := .f32) a9 (Cert.ReferenceIdeal.ReadP.val_main_v127 (F := Ideal) a0 a1 a3 a4 a5 a6 a9 a10)) shapeCasts_S64_S1x64 : Vec Ideal S1x64 .f32) := by
  simp only [hostOps5]; after_results_simp; rw [ho, h9]; rfl

theorem hostOps5_shift (ho : V (Proc.devRef .tc main_v83) = Cert.ReferenceIdeal.ReadP.val_main_v111 (F := Ideal) a0 a1 a3 a4 a5 a6 a9 a10) (h9 : V (Proc.devRef .tc main_arg9) = a9) (h10 : V (Proc.devRef .tc main_arg10) = a10) :
    StableHlo.after hostOps5 V (Proc.devRef .tc main_v101) = (shapeCast S1x64 (subf (F := Ideal) (φ := .f32) a10 (mulf (F := Ideal) (φ := .f32) (Cert.ReferenceIdeal.ReadP.val_main_v114 (F := Ideal) a0 a1 a3 a4 a5 a6 a9 a10) (mulf (F := Ideal) (φ := .f32) a9 (Cert.ReferenceIdeal.ReadP.val_main_v127 (F := Ideal) a0 a1 a3 a4 a5 a6 a9 a10)))) shapeCasts_S64_S1x64 : Vec Ideal S1x64 .f32) := by
  simp only [hostOps5]; after_results_simp; rw [ho, h9, h10]; rfl

theorem hostOps5_keeps_out : StableHlo.after hostOps5 V (Proc.devRef .tc main_v83) = V (Proc.devRef .tc main_v83) := host_keeps hostOps5

/-! ### The stretch before the third layer's combine: gather the product's rows along the edges, weigh, scatter-add
    them to the destination rows; the product's rows scaled by the squared inverse degrees; the bias as a row -/

theorem hostOps7_agg (h1 : V (Proc.devRef .tc main_v1) = Cert.ReferenceIdeal.ReadP.val_main_v1 (F := Ideal) a1) (h3 : V (Proc.devRef .tc main_v3) = Cert.ReferenceIdeal.ReadP.val_main_v3 (F := Ideal) a1)
    (h25 : V (Proc.devRef .tc main_v25) = Cert.ReferenceIdeal.ReadP.val_main_v26 (F := Ideal) a1) (h26 : V (Proc.devRef .tc main_v26) = Cert.ReferenceIdeal.ReadP.val_main_v40 (F := Ideal) a1)
    (hh : V (Proc.devRef .tc main_v103) = Cert.ReferenceIdeal.ReadP.val_main_v137 (F := Ideal) a0 a1 a3 a4 a5 a6 a7 a9 a10) :
    StableHlo.after hostOps7 V (Proc.devRef .tc main_v116) = Cert.ReferenceIdeal.ReadP.val_main_v165 (F := Ideal) a0 a1 a3 a4 a5 a6 a7 a9 a10 := by
  simp only [hostOps7]; after_results_simp; rw [h1, h3, h25, hh]; rfl

theorem hostOps7_self (h1 : V (Proc.devRef .tc main_v1) = Cert.ReferenceIdeal.ReadP.val_main_v1 (F := Ideal) a1) (h3 : V (Proc.devRef .tc main_v3) = Cert.ReferenceIdeal.ReadP.val_main_v3 (F := Ideal) a1)
    (h25 : V (Proc.devRef .tc main_v25) = Cert.ReferenceIdeal.ReadP.val_main_v26 (F := Ideal) a1) (h26 : V (Proc.devRef .tc main_v26) = Cert.ReferenceIdeal.ReadP.val_main_v40 (F := Ideal) a1)
    (hh : V (Proc.devRef .tc main_v103) = Cert.ReferenceIdeal.ReadP.val_main_v137 (F := Ideal) a0 a1 a3 a4 a5 a6 a7 a9 a10) :
    StableHlo.after hostOps7 V (Proc.devRef .tc main_v119) = Cert.ReferenceIdeal.ReadP.val_main_v169 (F := Ideal) a0 a1 a3 a4 a5 a6 a7 a9 a10 := by
  simp only [hostOps7]; after_results_simp; rw [h26, hh]; rfl

theorem hostOps7_bias (hb : V (Proc.devRef .tc main_arg8) = a8) :
    StableHlo.after hostOps7 V (Proc.devRef .tc main_v120) = shapeCast S1x64 a8 shapeCasts_S64_S1x64 := by
  simp only [hostOps7]; after_results_simp; rw [hb]; rfl

/-! ### The last stretch: the per-graph sums and counts, the mean pool, the classifier -/

theorem hostOps8_out (hh : V (Proc.devRef .tc main_v121) = Cert.ReferenceIdeal.ReadP.val_main_v174 (F := Ideal) a0 a1 a3 a4 a5 a6 a7 a8 a9 a10) (h2 : V (Proc.devRef .tc main_arg2) = a2)
    (h11 : V (Proc.devRef .tc main_arg11) = a11) (h12 : V (Proc.devRef .tc main_arg12) = a12) :
    StableHlo.after hostOps8 V (Proc.devRef .tc main_v137) = Cert.ReferenceIdeal.ReadP.val_main_v190 (F := Ideal) a0 a1 a2 a3 a4 a5 a6 a7 a8 a9 a10 a11 a12 := by
  simp only [hostOps8]; after_results_simp; rw [hh, h2, h11, h12]; rfl

end Cert.KernelIdeal.Fold

end
-- ==== Proof.RegIdx.lean ====
/-
  The three whole-array functions the graph network's Pallas regions compute, over typed arrays of extended reals,
  and the index constructors they are written with: an entry (row, column) of an [N, 64] array, the row/column pair a
  matrix product's k-th term reads, and the single row of a [1, 64] array that a bias (or a per-column scale or
  shift) is spread from.
-/
import proofs.«122425_j82325933130190_1_alg».proof.KernelIdeal
import Idealize.ShloMosaic.PureOps.Ideal

noncomputable section

namespace Cert.KernelIdeal.RegVal

open Cert.KernelIdeal Idealize.ShloMosaic

/-- The k-th term of entry `i` of a product `X · W` reads `X` at (row of `i`, k). -/
abbrev lrow (i : S100000x64.Idx) (k : Fin 64) : S100000x64.Idx := fun a => match a with
  | ⟨0, _⟩ => ⟨(i 0).val, (i 0).isLt⟩
  | ⟨1, _⟩ => ⟨k.val, k.isLt⟩

/-- The k-th term of entry `i` of a product `X · W` reads `W` at (k, column of `i`). -/
abbrev rcol (i : S100000x64.Idx) (k : Fin 64) : S64x64.Idx := fun a => match a with
  | ⟨0, _⟩ => ⟨k.val, k.isLt⟩
  | ⟨1, _⟩ => ⟨(i 1).val, (i 1).isLt⟩

/-- Entry `i` of an [N, 64] array meets a [1, 64] row vector at (0, column of `i`). -/
abbrev brow (i : S100000x64.Idx) : S1x64.Idx := fun a => match a with
  | ⟨0, _⟩ => ⟨0, Nat.one_pos⟩
  | ⟨1, _⟩ => ⟨(i 1).val, (i 1).isLt⟩

/-- The plain matrix product of node features with a weight matrix: entry (r, q) is the sum over k of
    `X (r, k) · W (k, q)`. -/
abbrev matProd (X : Vec Ideal S100000x64 .f32) (W : Vec Ideal S64x64 .f32) : Vec Ideal S100000x64 .f32 :=
  fun i => ∑ k : Fin 64, X (lrow i k) * W (rcol i k)

/-- A convolution layer's combine: aggregated messages plus the self-loop term plus the bias row, cut off below at
    zero. -/
abbrev combine (A S : Vec Ideal S100000x64 .f32) (b : Vec Ideal S1x64 .f32) : Vec Ideal S100000x64 .f32 :=
  fun i => max ((A i + S i) + b (brow i)) (0 : EReal)

/-- A per-column affine map: every entry times its column's scale plus its column's shift. -/
abbrev affine (X : Vec Ideal S100000x64 .f32) (sc sh : Vec Ideal S1x64 .f32) : Vec Ideal S100000x64 .f32 :=
  fun i => X i * sc (brow i) + sh (brow i)

end Cert.KernelIdeal.RegVal

end
-- ==== Proof.LibBnLaw.lean ====
import Idealize.ShloMosaic.PureOps.Ideal

/-!
# The batch-normalisation law on the extended reals

A column of values `x_k` is normalised with its mean `μ = (∑ x_k) / n`, its variance
`v = (∑ (x_k - μ)²) / n` and `r = 1 / √(v + ε)`. Two spellings of the affine map that follows,

  `((x - μ) · r) · γ + β`   and   `x · (γ · r) + (β - μ · (γ · r))`,

are equal over the reals by distributivity. On the extended reals `[-∞, +∞]` distributivity
fails in general (`(⊤ - ⊤) · c` is not `⊤ · c - ⊤ · c`), so the two are not equal for arbitrary
entries. They are equal when every `x_k` is nonnegative (possibly `⊤`) and `γ` is a real number:

* if some `x_k = ⊤` then `μ = ⊤`, every `x_k - μ = ⊥`, the variance is `⊤`, and `r = 0`, so both
  sides collapse to `β`;
* otherwise `μ` is a real number and so is `r`, and the one distributive step needed,
  `(x - a) · σ = x · σ - a · σ` for real `a`, `σ`, holds for every extended real `x`.
-/

open Idealize.ShloMosaic
open scoped BigOperators

namespace Cert.BnLaw

/-- The square of an extended real is nonnegative: both factors have the same sign, and
    `⊥ · ⊥ = ⊤ · ⊤ = ⊤`. -/
theorem zero_le_mul_self (y : EReal) : 0 ≤ y * y := by
  rcases le_total 0 y with h | h
  · exact EReal.mul_nonneg_iff.mpr (Or.inl ⟨h, h⟩)
  · exact EReal.mul_nonneg_iff.mpr (Or.inr ⟨h, h⟩)

/-- Dividing a nonnegative extended real by a positive real keeps it nonnegative: the division
    is the product with the positive real `1 / c`. -/
theorem div_nonneg_of_pos {s : EReal} (hs : 0 ≤ s) {c : ℝ} (hc : 0 < c) :
    0 ≤ Ideal.div s (c : EReal) := by
  rw [Ideal.div_coe hc.ne']
  exact EReal.mul_nonneg hs (EReal.coe_nonneg.mpr (one_div_pos.mpr hc).le)

/-- `⊤` divided by a positive real is `⊤`. -/
theorem top_div_of_pos {c : ℝ} (hc : 0 < c) : Ideal.div ⊤ (c : EReal) = ⊤ := by
  rw [Ideal.div_coe hc.ne']
  exact EReal.top_mul_coe_of_pos (one_div_pos.mpr hc)

/-- The one distributive step that survives on the extended reals: for REAL `a` and `σ` and
    any extended real `x`, `(x - a) · σ = x · σ - a · σ`. For real `x` it is the real identity;
    for `x = ±∞` both sides are the infinity of the sign of `±σ` (or `0` when `σ = 0`), because
    subtracting a real from an infinity does not change it. -/
theorem sub_coe_mul_coe (x : EReal) (a s : ℝ) :
    (x - (a : EReal)) * (s : EReal) = x * (s : EReal) - (a : EReal) * (s : EReal) := by
  induction x using EReal.rec with
  | bot =>
    rw [EReal.bot_sub]
    rcases lt_trichotomy s 0 with h | h | h
    · rw [EReal.bot_mul_coe_of_neg h, ← EReal.coe_mul, EReal.top_sub_coe]
    · subst h; simp
    · rw [EReal.bot_mul_coe_of_pos h, EReal.bot_sub]
  | coe x =>
    rw [← EReal.coe_sub, ← EReal.coe_mul, ← EReal.coe_mul, ← EReal.coe_mul, ← EReal.coe_sub, sub_mul]
  | top =>
    rw [EReal.top_sub_coe]
    rcases lt_trichotomy s 0 with h | h | h
    · rw [EReal.top_mul_coe_of_neg h, EReal.bot_sub]
    · subst h; simp
    · rw [EReal.top_mul_coe_of_pos h, ← EReal.coe_mul, EReal.top_sub_coe]

/-- The affine law when the mean `a` and the scale `ρ` are real numbers: for every extended
    real `x` and `β`, `((x - a) · ρ) · γ + β = x · (γ · ρ) + (β - a · (γ · ρ))`. With `σ = γ · ρ`
    real, the left side is `(x - a) · σ + β = (x · σ - a · σ) + β` by the step above, and moving
    `- a · σ` next to `β` uses only associativity and commutativity of `+`. -/
theorem affine_of_real (x beta : EReal) (a rho g : ℝ) :
    (x - (a : EReal)) * (rho : EReal) * (g : EReal) + beta
      = x * ((g : EReal) * (rho : EReal)) + (beta - (a : EReal) * ((g : EReal) * (rho : EReal))) := by
  rw [mul_assoc, mul_comm (rho : EReal) (g : EReal), ← EReal.coe_mul, sub_coe_mul_coe,
    sub_eq_add_neg, sub_eq_add_neg, add_assoc, add_comm (-_) beta]

/-- The affine law when the scale is `0`: both sides are `β`, whatever the mean. -/
theorem affine_of_zero (x beta mu : EReal) (g : ℝ) :
    (x - mu) * 0 * (g : EReal) + beta
      = x * ((g : EReal) * 0) + (beta - mu * ((g : EReal) * 0)) := by
  simp

/-- For a nonnegative extended real `v` and a positive real `ε`, `1 / √(v + ε)` is a real number:
    `0` when `v = ⊤`, and `(√(v + ε))⁻¹` when `v` is real (then `v + ε > 0`). -/
theorem rsqrt_add_pos_real {v : EReal} (hv : 0 ≤ v) {eps : ℝ} (heps : 0 < eps) :
    ∃ rho : ℝ, Ideal.rsqrt (v + (eps : EReal)) = (rho : EReal) := by
  induction v using EReal.rec with
  | bot => exact absurd hv (by simp)
  | coe v =>
    have hv' : 0 ≤ v := EReal.coe_nonneg.mp hv
    have hpos : 0 < v + eps := by linarith
    refine ⟨(Real.sqrt (v + eps))⁻¹, ?_⟩
    rw [← EReal.coe_add, Ideal.rsqrt_coe, if_neg (not_lt.mpr hpos.le), if_neg hpos.ne']
  | top => exact ⟨0, by rw [EReal.top_add_coe, Ideal.rsqrt_top, EReal.coe_zero]⟩

/-- **Batch normalisation of a nonnegative column, two spellings.** Let `out k ≥ 0` be extended
    reals (some may be `⊤`), `μ = (∑ out k) / n`, `v = (∑ (out k - μ)²) / n`, `r = 1 / √(v + ε)` with
    `n, ε > 0` real, and `γ` real, `β` any extended real. Then
    `((out i - μ) · r) · γ + β = out i · (γ · r) + (β - μ · (γ · r))`.
    If `μ = ⊤`: every `out k - μ = ⊥`, so every square is `⊤`, `v = ⊤`, `r = 0` and both sides are
    `β`. Otherwise `μ` is real (it is nonnegative, so not `⊥`), `v ≥ 0` makes `r` real, and the
    real-coefficient law `affine_of_real` applies. -/
theorem bn_column {N : ℕ} (out : Fin N → EReal) (hout : ∀ k, 0 ≤ out k) (cN eps g : ℝ) (hc : 0 < cN) (heps : 0 < eps) (beta : EReal)
    (mu var r : EReal)
    (hmu : mu = Ideal.div (∑ k, out k) (cN : EReal))
    (hvar : var = Ideal.div (∑ k, (out k - mu) * (out k - mu)) (cN : EReal))
    (hr : r = Ideal.rsqrt (var + (eps : EReal)))
    (i : Fin N) :
    (out i - mu) * r * (g : EReal) + beta = out i * ((g : EReal) * r) + (beta - mu * ((g : EReal) * r)) := by
  have hmu0 : 0 ≤ mu := by
    rw [hmu]; exact div_nonneg_of_pos (Finset.sum_nonneg (fun k _ => hout k)) hc
  have hvar0 : 0 ≤ var := by
    rw [hvar]; exact div_nonneg_of_pos (Finset.sum_nonneg (fun k _ => zero_le_mul_self _)) hc
  rcases eq_or_ne mu ⊤ with hmt | hmt
  · -- the mean is ⊤: the variance is ⊤ and the scale is 0
    have hsum : (∑ k, (out k - mu) * (out k - mu)) = ⊤ := by
      apply top_le_iff.mp
      have hi : (out i - mu) * (out i - mu) = ⊤ := by
        rw [hmt, EReal.sub_top, EReal.bot_mul_bot]
      rw [← hi]
      exact Finset.single_le_sum (f := fun k => (out k - mu) * (out k - mu))
        (fun k _ => zero_le_mul_self _) (Finset.mem_univ i)
    have hr0 : r = 0 := by
      rw [hr, hvar, hsum, top_div_of_pos hc, EReal.top_add_coe, Ideal.rsqrt_top]
    rw [hr0]
    exact affine_of_zero _ _ _ _
  · -- the mean is a real number, and so is the scale
    have hmb : mu ≠ ⊥ := fun h => absurd (h ▸ hmu0) (by simp)
    obtain ⟨a, ha⟩ : ∃ a : ℝ, mu = (a : EReal) := ⟨mu.toReal, (EReal.coe_toReal hmt hmb).symm⟩
    obtain ⟨rho, hrho⟩ := rsqrt_add_pos_real hvar0 heps
    rw [hr, hrho, ha]
    exact affine_of_real _ _ _ _ _

end Cert.BnLaw
-- ==== Proof.Bridge.lean ====
/-
  The three Pallas region functions against the reference's stages, as whole arrays of extended reals.
  * A region's matrix product, entry by entry a sum of 64 products, is the reference's contraction of the same two
    arrays: both are the plain sum over k of X (r, k) · W (k, q).
  * A region's combine — aggregated messages plus self-loop term plus the bias spread over the rows, cut off below at
    zero — is the reference's two additions, its two broadcasts of the bias and its relu, read at an entry.
  * A region's per-column affine map with scale γ·r and shift β − mean·(γ·r) is the reference's normalisation
    ((x − mean)·r)·γ + β. On the extended reals this is not an identity of arbitrary values (distributivity fails at
    the infinities); it holds here because the normalised array is a relu's output (no entry negative) and γ is real.
-/
import proofs.«122425_j82325933130190_1_alg».proof.Proof.RegIdx
import proofs.«122425_j82325933130190_1_alg».proof.Proof.Gen.KernelIdeal
import proofs.«122425_j82325933130190_1_alg».proof.Proof.RefRead
import proofs.«122425_j82325933130190_1_alg».proof.Proof.LibBnLaw
import Idealize.ShloMosaic.Lib.Pipeline.Value
import Idealize.ShloMosaic.PureOps.Ideal.Laws

set_option maxRecDepth 16384

noncomputable section

namespace Cert.Bridge

open Cert.KernelIdeal Cert.KernelIdeal.Gen Cert.KernelIdeal.RegVal Idealize.ShloMosaic

variable (a0 : Vec Ideal S100000x64 .f32) (a1 : (⟨S2x1600000, .i32⟩ : BufTy).Contents (Elt Ideal))
  (a3 : Vec Ideal S64x64 .f32) (a4 : Vec Ideal S64 .f32) (a5 : Vec Ideal S64x64 .f32) (a6 : Vec Ideal S64 .f32)
  (a7 : Vec Ideal S64x64 .f32) (a8 a9 a10 : Vec Ideal S64 .f32)
variable {cN e : ℝ}

/-- The column of an entry of an [N, 64] array, as an index of a [64] vector. -/
abbrev colOf (i : S100000x64.Idx) : S64.Idx := fun a => match a with
  | ⟨0, _⟩ => ⟨(i 1).val, (i 1).isLt⟩

/-- A [64] vector viewed as a [1, 64] row and read at the row entry under `i` is the vector's entry at `i`'s column. -/
theorem row_read (w : Vec Ideal S64 .f32) (i : S100000x64.Idx) :
    shapeCast S1x64 w shapeCasts_S64_S1x64 (brow i) = w (colOf i) :=
  shapeCast_apply w _ _ _ ((Shape.rowMajor_val_one _).trans
    (Eq.trans (by show (i 1).val = 0 * 64 + (i 1).val; omega) (Shape.rowMajor_val_two _).symm))

/-! ### The matrix product -/

theorem matProd_eq (X : Vec Ideal S100000x64 .f32) (W : Vec Ideal S64x64 .f32) :
    matProd X W = Cert.ReferenceIdeal.ReadP.val_main_v11 (F := Ideal) X W := by
  funext i
  exact (show matProd X W i = ∑ k : Fin 64, X (Cert.ReferenceIdeal.ReadP.lidx_main_v11 i k) * W (Cert.ReferenceIdeal.ReadP.ridx_main_v11 i k) from rfl).trans
    (Cert.ReferenceIdeal.ReadP.val_main_v11_apply X W i).symm

/-! ### The combine -/

theorem combine_eq (A S : Vec Ideal S100000x64 .f32) (b : Vec Ideal S64 .f32) :
    combine A S (shapeCast S1x64 b shapeCasts_S64_S1x64)
      = maximumf (F := Ideal) (φ := .f32) (addf (F := Ideal) (φ := .f32) (addf (F := Ideal) (φ := .f32) A S) (Cert.ReferenceIdeal.ReadP.val_main_v46 (F := Ideal) b)) (Cert.ReferenceIdeal.ReadP.val_main_call0_v0 (F := Ideal)) := by
  funext i
  have hb : Cert.ReferenceIdeal.ReadP.val_main_v46 (F := Ideal) b i = b (colOf i) := by
    rw [Cert.ReferenceIdeal.ReadP.val_main_v46_apply, Cert.ReferenceIdeal.ReadP.val_main_v45_apply]; rfl
  have hz : Cert.ReferenceIdeal.ReadP.val_main_call0_v0 (F := Ideal) i = (0 : EReal) := by
    rw [Cert.ReferenceIdeal.ReadP.val_main_call0_v0_apply, Cert.ReferenceIdeal.ReadP.val_main_call0_cst_apply]
    simp only [Ideal.ofBits_def, Ideal.ofBits_zero_f32]
  show max ((A i + S i) + shapeCast S1x64 b shapeCasts_S64_S1x64 (brow i)) (0 : EReal)
      = max ((A i + S i) + Cert.ReferenceIdeal.ReadP.val_main_v46 (F := Ideal) b i) (Cert.ReferenceIdeal.ReadP.val_main_call0_v0 (F := Ideal) i)
  rw [row_read, hb, hz]

/-! ### The 1 normalisation -/

/-- The layer's output is a relu: no entry is negative. -/
theorem out1_nonneg (i : S100000x64.Idx) : (0 : EReal) ≤ Cert.ReferenceIdeal.ReadP.val_main_v48 (F := Ideal) a0 a1 a3 a4 i := by
  rw [Cert.ReferenceIdeal.ReadP.val_main_v48_apply, Cert.ReferenceIdeal.ReadP.val_main_call0_v0_apply, Cert.ReferenceIdeal.ReadP.val_main_call0_cst_apply]
  simp only [Ideal.maximumf_def, Ideal.ofBits_def, Ideal.ofBits_zero_f32]
  exact le_max_right _ _

/-- Column `j`'s mean is the column's sum over the row count. -/
theorem mean1_eq (hN : Ideal.ofBits .f32 0x47C35000#32 = ((cN : ℝ) : EReal)) (j : S64.Idx) :
    Cert.ReferenceIdeal.ReadP.val_main_v51 (F := Ideal) a0 a1 a3 a4 j = Ideal.div (∑ k : Fin 100000, Cert.ReferenceIdeal.ReadP.val_main_v48 (F := Ideal) a0 a1 a3 a4 (Cert.ReferenceIdeal.ReadP.idx_main_v49 j k)) ((cN : ℝ) : EReal) := by
  rw [Cert.ReferenceIdeal.ReadP.val_main_v51_apply, Cert.ReferenceIdeal.ReadP.val_main_v49_apply, Cert.ReferenceIdeal.ReadP.val_main_v50_apply, Cert.ReferenceIdeal.ReadP.val_main_cst_9_apply, Cert.ReferenceIdeal.ReadP.val_main_cst_8_apply]
  simp only [Ideal.hostDivf_def, Ideal.ofBits_def, Ideal.ofBits_zero_f32, zero_add, hN]

/-- Column `j`'s variance is the sum of the squared deviations from the column's mean over the row count. -/
theorem var1_eq (hN : Ideal.ofBits .f32 0x47C35000#32 = ((cN : ℝ) : EReal)) (j : S64.Idx) :
    Cert.ReferenceIdeal.ReadP.val_main_v58 (F := Ideal) a0 a1 a3 a4 j = Ideal.div (∑ k : Fin 100000, (Cert.ReferenceIdeal.ReadP.val_main_v48 (F := Ideal) a0 a1 a3 a4 (Cert.ReferenceIdeal.ReadP.idx_main_v49 j k) - Cert.ReferenceIdeal.ReadP.val_main_v51 (F := Ideal) a0 a1 a3 a4 j) * (Cert.ReferenceIdeal.ReadP.val_main_v48 (F := Ideal) a0 a1 a3 a4 (Cert.ReferenceIdeal.ReadP.idx_main_v49 j k) - Cert.ReferenceIdeal.ReadP.val_main_v51 (F := Ideal) a0 a1 a3 a4 j)) ((cN : ℝ) : EReal) := by
  have hfun : (fun k : Fin 100000 => Cert.ReferenceIdeal.ReadP.val_main_v55 (F := Ideal) a0 a1 a3 a4 (Cert.ReferenceIdeal.ReadP.idx_main_v56 j k))
      = fun k => (Cert.ReferenceIdeal.ReadP.val_main_v48 (F := Ideal) a0 a1 a3 a4 (Cert.ReferenceIdeal.ReadP.idx_main_v49 j k) - Cert.ReferenceIdeal.ReadP.val_main_v51 (F := Ideal) a0 a1 a3 a4 j) * (Cert.ReferenceIdeal.ReadP.val_main_v48 (F := Ideal) a0 a1 a3 a4 (Cert.ReferenceIdeal.ReadP.idx_main_v49 j k) - Cert.ReferenceIdeal.ReadP.val_main_v51 (F := Ideal) a0 a1 a3 a4 j) := by
    funext k
    rw [Cert.ReferenceIdeal.ReadP.val_main_v55_apply, Cert.ReferenceIdeal.ReadP.val_main_v54_apply, Cert.ReferenceIdeal.ReadP.val_main_v53_apply, Cert.ReferenceIdeal.ReadP.val_main_v52_apply]
    have hj : Cert.ReferenceIdeal.ReadP.idx_main_v52 (Cert.ReferenceIdeal.ReadP.idx_main_v53 (Cert.ReferenceIdeal.ReadP.idx_main_v56 j k)) = j := funext fun a => by match a with | ⟨0, _⟩ => rfl
    rw [hj]; rfl
  rw [Cert.ReferenceIdeal.ReadP.val_main_v58_apply, Cert.ReferenceIdeal.ReadP.val_main_v56_apply, Cert.ReferenceIdeal.ReadP.val_main_v57_apply, Cert.ReferenceIdeal.ReadP.val_main_cst_11_apply, Cert.ReferenceIdeal.ReadP.val_main_cst_10_apply, hfun]
  simp only [Ideal.hostDivf_def, Ideal.ofBits_def, Ideal.ofBits_zero_f32, zero_add, hN]

/-- Column `j`'s reciprocal standard deviation is rsqrt(variance + ε). -/
theorem rs1_eq (he : Ideal.ofBits .f32 0x3727C5AC#32 = ((e : ℝ) : EReal)) (j : S64.Idx) :
    Cert.ReferenceIdeal.ReadP.val_main_v64 (F := Ideal) a0 a1 a3 a4 j = Ideal.rsqrt (Cert.ReferenceIdeal.ReadP.val_main_v58 (F := Ideal) a0 a1 a3 a4 j + ((e : ℝ) : EReal)) := by
  rw [Cert.ReferenceIdeal.ReadP.val_main_v64_apply, Cert.ReferenceIdeal.ReadP.val_main_v63_apply, Cert.ReferenceIdeal.ReadP.val_main_v62_apply, Cert.ReferenceIdeal.ReadP.val_main_cst_12_apply]
  simp only [Ideal.hostUnary_rsqrt_def, Ideal.addf_def, Ideal.ofBits_def, he]

/-- THE 1 NORMALISATION, both spellings: every entry times its column's scale γ·r plus its column's shift
    β − mean·(γ·r) (the kernel's), against ((entry − mean)·r)·γ + β (the reference's), with r = rsqrt(variance + ε) of the
    entry's column. The column's entries are nonnegative (a relu's output) and γ is a real number: the law of the
    extended reals proved for exactly this case joins the two. -/
theorem bn1_eq (hN : Ideal.ofBits .f32 0x47C35000#32 = ((cN : ℝ) : EReal)) (hcN : 0 < cN)
    (he : Ideal.ofBits .f32 0x3727C5AC#32 = ((e : ℝ) : EReal)) (hepos : 0 < e)
    (hg : ∀ j : S64.Idx, ∃ g : ℝ, a9 j = (g : EReal)) :
    affine (Cert.ReferenceIdeal.ReadP.val_main_v48 (F := Ideal) a0 a1 a3 a4)
      (shapeCast S1x64 (mulf (F := Ideal) (φ := .f32) a9 (Cert.ReferenceIdeal.ReadP.val_main_v64 (F := Ideal) a0 a1 a3 a4)) shapeCasts_S64_S1x64 : Vec Ideal S1x64 .f32)
      (shapeCast S1x64 (subf (F := Ideal) (φ := .f32) a10 (mulf (F := Ideal) (φ := .f32) (Cert.ReferenceIdeal.ReadP.val_main_v51 (F := Ideal) a0 a1 a3 a4) (mulf (F := Ideal) (φ := .f32) a9 (Cert.ReferenceIdeal.ReadP.val_main_v64 (F := Ideal) a0 a1 a3 a4)))) shapeCasts_S64_S1x64 : Vec Ideal S1x64 .f32)
      = Cert.ReferenceIdeal.ReadP.val_main_v73 (F := Ideal) a0 a1 a3 a4 a9 a10 := by
  funext i
  have hrow (w : Vec Ideal S64 .f32) : shapeCast S1x64 w shapeCasts_S64_S1x64 (brow i) = w (colOf i) := row_read w i
  obtain ⟨g, hgj⟩ := hg (colOf i)
  have hR : Cert.ReferenceIdeal.ReadP.val_main_v73 (F := Ideal) a0 a1 a3 a4 a9 a10 i
      = ((Cert.ReferenceIdeal.ReadP.val_main_v48 (F := Ideal) a0 a1 a3 a4 i - Cert.ReferenceIdeal.ReadP.val_main_v51 (F := Ideal) a0 a1 a3 a4 (colOf i)) * Cert.ReferenceIdeal.ReadP.val_main_v64 (F := Ideal) a0 a1 a3 a4 (colOf i)) * a9 (colOf i) + a10 (colOf i) := by
    rw [Cert.ReferenceIdeal.ReadP.val_main_v73_apply, Cert.ReferenceIdeal.ReadP.val_main_v70_apply, Cert.ReferenceIdeal.ReadP.val_main_v67_apply, Cert.ReferenceIdeal.ReadP.val_main_v61_apply, Cert.ReferenceIdeal.ReadP.val_main_v72_apply, Cert.ReferenceIdeal.ReadP.val_main_v71_apply, Cert.ReferenceIdeal.ReadP.val_main_v69_apply, Cert.ReferenceIdeal.ReadP.val_main_v68_apply,
      Cert.ReferenceIdeal.ReadP.val_main_v66_apply, Cert.ReferenceIdeal.ReadP.val_main_v65_apply, Cert.ReferenceIdeal.ReadP.val_main_v60_apply, Cert.ReferenceIdeal.ReadP.val_main_v59_apply]
    rfl
  have hi : i = Cert.ReferenceIdeal.ReadP.idx_main_v49 (colOf i) ⟨(i 0).val, (i 0).isLt⟩ := funext fun a => by match a with | ⟨0, _⟩ => rfl | ⟨1, _⟩ => rfl
  rw [hR]
  show Cert.ReferenceIdeal.ReadP.val_main_v48 (F := Ideal) a0 a1 a3 a4 i * (shapeCast S1x64 (mulf (F := Ideal) (φ := .f32) a9 (Cert.ReferenceIdeal.ReadP.val_main_v64 (F := Ideal) a0 a1 a3 a4)) shapeCasts_S64_S1x64 (brow i))
      + (shapeCast S1x64 (subf (F := Ideal) (φ := .f32) a10 (mulf (F := Ideal) (φ := .f32) (Cert.ReferenceIdeal.ReadP.val_main_v51 (F := Ideal) a0 a1 a3 a4) (mulf (F := Ideal) (φ := .f32) a9 (Cert.ReferenceIdeal.ReadP.val_main_v64 (F := Ideal) a0 a1 a3 a4)))) shapeCasts_S64_S1x64 (brow i)) = _
  rw [hrow, hrow]
  show Cert.ReferenceIdeal.ReadP.val_main_v48 (F := Ideal) a0 a1 a3 a4 i * (a9 (colOf i) * Cert.ReferenceIdeal.ReadP.val_main_v64 (F := Ideal) a0 a1 a3 a4 (colOf i))
      + (a10 (colOf i) - Cert.ReferenceIdeal.ReadP.val_main_v51 (F := Ideal) a0 a1 a3 a4 (colOf i) * (a9 (colOf i) * Cert.ReferenceIdeal.ReadP.val_main_v64 (F := Ideal) a0 a1 a3 a4 (colOf i))) = _
  rw [hgj]
  conv_lhs => rw [hi]
  conv_rhs => rw [hi]
  exact (Cert.BnLaw.bn_column (fun k => Cert.ReferenceIdeal.ReadP.val_main_v48 (F := Ideal) a0 a1 a3 a4 (Cert.ReferenceIdeal.ReadP.idx_main_v49 (colOf i) k)) (fun k => out1_nonneg a0 a1 a3 a4 _) cN e g hcN hepos
    (a10 (colOf i)) _ _ _ (mean1_eq a0 a1 a3 a4 hN (colOf i)) (var1_eq a0 a1 a3 a4 hN (colOf i)) (rs1_eq a0 a1 a3 a4 he (colOf i)) ⟨(i 0).val, (i 0).isLt⟩).symm

/-! ### The 2 normalisation -/

/-- The layer's output is a relu: no entry is negative. -/
theorem out2_nonneg (i : S100000x64.Idx) : (0 : EReal) ≤ Cert.ReferenceIdeal.ReadP.val_main_v111 (F := Ideal) a0 a1 a3 a4 a5 a6 a9 a10 i := by
  rw [Cert.ReferenceIdeal.ReadP.val_main_v111_apply, Cert.ReferenceIdeal.ReadP.val_main_call1_v0_apply, Cert.ReferenceIdeal.ReadP.val_main_call1_cst_apply]
  simp only [Ideal.maximumf_def, Ideal.ofBits_def, Ideal.ofBits_zero_f32]
  exact le_max_right _ _

/-- Column `j`'s mean is the column's sum over the row count. -/
theorem mean2_eq (hN : Ideal.ofBits .f32 0x47C35000#32 = ((cN : ℝ) : EReal)) (j : S64.Idx) :
    Cert.ReferenceIdeal.ReadP.val_main_v114 (F := Ideal) a0 a1 a3 a4 a5 a6 a9 a10 j = Ideal.div (∑ k : Fin 100000, Cert.ReferenceIdeal.ReadP.val_main_v111 (F := Ideal) a0 a1 a3 a4 a5 a6 a9 a10 (Cert.ReferenceIdeal.ReadP.idx_main_v112 j k)) ((cN : ℝ) : EReal) := by
  rw [Cert.ReferenceIdeal.ReadP.val_main_v114_apply, Cert.ReferenceIdeal.ReadP.val_main_v112_apply, Cert.ReferenceIdeal.ReadP.val_main_v113_apply, Cert.ReferenceIdeal.ReadP.val_main_cst_21_apply, Cert.ReferenceIdeal.ReadP.val_main_cst_20_apply]
  simp only [Ideal.hostDivf_def, Ideal.ofBits_def, Ideal.ofBits_zero_f32, zero_add, hN]

/-- Column `j`'s variance is the sum of the squared deviations from the column's mean over the row count. -/
theorem var2_eq (hN : Ideal.ofBits .f32 0x47C35000#32 = ((cN : ℝ) : EReal)) (j : S64.Idx) :
    Cert.ReferenceIdeal.ReadP.val_main_v121 (F := Ideal) a0 a1 a3 a4 a5 a6 a9 a10 j = Ideal.div (∑ k : Fin 100000, (Cert.ReferenceIdeal.ReadP.val_main_v111 (F := Ideal) a0 a1 a3 a4 a5 a6 a9 a10 (Cert.ReferenceIdeal.ReadP.idx_main_v112 j k) - Cert.ReferenceIdeal.ReadP.val_main_v114 (F := Ideal) a0 a1 a3 a4 a5 a6 a9 a10 j) * (Cert.ReferenceIdeal.ReadP.val_main_v111 (F := Ideal) a0 a1 a3 a4 a5 a6 a9 a10 (Cert.ReferenceIdeal.ReadP.idx_main_v112 j k) - Cert.ReferenceIdeal.ReadP.val_main_v114 (F := Ideal) a0 a1 a3 a4 a5 a6 a9 a10 j)) ((cN : ℝ) : EReal) := by
  have hfun : (fun k : Fin 100000 => Cert.ReferenceIdeal.ReadP.val_main_v118 (F := Ideal) a0 a1 a3 a4 a5 a6 a9 a10 (Cert.ReferenceIdeal.ReadP.idx_main_v119 j k))
      = fun k => (Cert.ReferenceIdeal.ReadP.val_main_v111 (F := Ideal) a0 a1 a3 a4 a5 a6 a9 a10 (Cert.ReferenceIdeal.ReadP.idx_main_v112 j k) - Cert.ReferenceIdeal.ReadP.val_main_v114 (F := Ideal) a0 a1 a3 a4 a5 a6 a9 a10 j) * (Cert.ReferenceIdeal.ReadP.val_main_v111 (F := Ideal) a0 a1 a3 a4 a5 a6 a9 a10 (Cert.ReferenceIdeal.ReadP.idx_main_v112 j k) - Cert.ReferenceIdeal.ReadP.val_main_v114 (F := Ideal) a0 a1 a3 a4 a5 a6 a9 a10 j) := by
    funext k
    rw [Cert.ReferenceIdeal.ReadP.val_main_v118_apply, Cert.ReferenceIdeal.ReadP.val_main_v117_apply, Cert.ReferenceIdeal.ReadP.val_main_v116_apply, Cert.ReferenceIdeal.ReadP.val_main_v115_apply]
    have hj : Cert.ReferenceIdeal.ReadP.idx_main_v115 (Cert.ReferenceIdeal.ReadP.idx_main_v116 (Cert.ReferenceIdeal.ReadP.idx_main_v119 j k)) = j := funext fun a => by match a with | ⟨0, _⟩ => rfl
    rw [hj]; rfl
  rw [Cert.ReferenceIdeal.ReadP.val_main_v121_apply, Cert.ReferenceIdeal.ReadP.val_main_v119_apply, Cert.ReferenceIdeal.ReadP.val_main_v120_apply, Cert.ReferenceIdeal.ReadP.val_main_cst_23_apply, Cert.ReferenceIdeal.ReadP.val_main_cst_22_apply, hfun]
  simp only [Ideal.hostDivf_def, Ideal.ofBits_def, Ideal.ofBits_zero_f32, zero_add, hN]

/-- Column `j`'s reciprocal standard deviation is rsqrt(variance + ε). -/
theorem rs2_eq (he : Ideal.ofBits .f32 0x3727C5AC#32 = ((e : ℝ) : EReal)) (j : S64.Idx) :
    Cert.ReferenceIdeal.ReadP.val_main_v127 (F := Ideal) a0 a1 a3 a4 a5 a6 a9 a10 j = Ideal.rsqrt (Cert.ReferenceIdeal.ReadP.val_main_v121 (F := Ideal) a0 a1 a3 a4 a5 a6 a9 a10 j + ((e : ℝ) : EReal)) := by
  rw [Cert.ReferenceIdeal.ReadP.val_main_v127_apply, Cert.ReferenceIdeal.ReadP.val_main_v126_apply, Cert.ReferenceIdeal.ReadP.val_main_v125_apply, Cert.ReferenceIdeal.ReadP.val_main_cst_24_apply]
  simp only [Ideal.hostUnary_rsqrt_def, Ideal.addf_def, Ideal.ofBits_def, he]

/-- THE 2 NORMALISATION, both spellings: every entry times its column's scale γ·r plus its column's shift
    β − mean·(γ·r) (the kernel's), against ((entry − mean)·r)·γ + β (the reference's), with r = rsqrt(variance + ε) of the
    entry's column. The column's entries are nonnegative (a relu's output) and γ is a real number: the law of the
    extended reals proved for exactly this case joins the two. -/
theorem bn2_eq (hN : Ideal.ofBits .f32 0x47C35000#32 = ((cN : ℝ) : EReal)) (hcN : 0 < cN)
    (he : Ideal.ofBits .f32 0x3727C5AC#32 = ((e : ℝ) : EReal)) (hepos : 0 < e)
    (hg : ∀ j : S64.Idx, ∃ g : ℝ, a9 j = (g : EReal)) :
    affine (Cert.ReferenceIdeal.ReadP.val_main_v111 (F := Ideal) a0 a1 a3 a4 a5 a6 a9 a10)
      (shapeCast S1x64 (mulf (F := Ideal) (φ := .f32) a9 (Cert.ReferenceIdeal.ReadP.val_main_v127 (F := Ideal) a0 a1 a3 a4 a5 a6 a9 a10)) shapeCasts_S64_S1x64 : Vec Ideal S1x64 .f32)
      (shapeCast S1x64 (subf (F := Ideal) (φ := .f32) a10 (mulf (F := Ideal) (φ := .f32) (Cert.ReferenceIdeal.ReadP.val_main_v114 (F := Ideal) a0 a1 a3 a4 a5 a6 a9 a10) (mulf (F := Ideal) (φ := .f32) a9 (Cert.ReferenceIdeal.ReadP.val_main_v127 (F := Ideal) a0 a1 a3 a4 a5 a6 a9 a10)))) shapeCasts_S64_S1x64 : Vec Ideal S1x64 .f32)
      = Cert.ReferenceIdeal.ReadP.val_main_v136 (F := Ideal) a0 a1 a3 a4 a5 a6 a9 a10 := by
  funext i
  have hrow (w : Vec Ideal S64 .f32) : shapeCast S1x64 w shapeCasts_S64_S1x64 (brow i) = w (colOf i) := row_read w i
  obtain ⟨g, hgj⟩ := hg (colOf i)
  have hR : Cert.ReferenceIdeal.ReadP.val_main_v136 (F := Ideal) a0 a1 a3 a4 a5 a6 a9 a10 i
      = ((Cert.ReferenceIdeal.ReadP.val_main_v111 (F := Ideal) a0 a1 a3 a4 a5 a6 a9 a10 i - Cert.ReferenceIdeal.ReadP.val_main_v114 (F := Ideal) a0 a1 a3 a4 a5 a6 a9 a10 (colOf i)) * Cert.ReferenceIdeal.ReadP.val_main_v127 (F := Ideal) a0 a1 a3 a4 a5 a6 a9 a10 (colOf i)) * a9 (colOf i) + a10 (colOf i) := by
    rw [Cert.ReferenceIdeal.ReadP.val_main_v136_apply, Cert.ReferenceIdeal.ReadP.val_main_v133_apply, Cert.ReferenceIdeal.ReadP.val_main_v130_apply, Cert.ReferenceIdeal.ReadP.val_main_v124_apply, Cert.ReferenceIdeal.ReadP.val_main_v135_apply, Cert.ReferenceIdeal.ReadP.val_main_v134_apply, Cert.ReferenceIdeal.ReadP.val_main_v132_apply, Cert.ReferenceIdeal.ReadP.val_main_v131_apply,
      Cert.ReferenceIdeal.ReadP.val_main_v129_apply, Cert.ReferenceIdeal.ReadP.val_main_v128_apply, Cert.ReferenceIdeal.ReadP.val_main_v123_apply, Cert.ReferenceIdeal.ReadP.val_main_v122_apply]
    rfl
  have hi : i = Cert.ReferenceIdeal.ReadP.idx_main_v112 (colOf i) ⟨(i 0).val, (i 0).isLt⟩ := funext fun a => by match a with | ⟨0, _⟩ => rfl | ⟨1, _⟩ => rfl
  rw [hR]
  show Cert.ReferenceIdeal.ReadP.val_main_v111 (F := Ideal) a0 a1 a3 a4 a5 a6 a9 a10 i * (shapeCast S1x64 (mulf (F := Ideal) (φ := .f32) a9 (Cert.ReferenceIdeal.ReadP.val_main_v127 (F := Ideal) a0 a1 a3 a4 a5 a6 a9 a10)) shapeCasts_S64_S1x64 (brow i))
      + (shapeCast S1x64 (subf (F := Ideal) (φ := .f32) a10 (mulf (F := Ideal) (φ := .f32) (Cert.ReferenceIdeal.ReadP.val_main_v114 (F := Ideal) a0 a1 a3 a4 a5 a6 a9 a10) (mulf (F := Ideal) (φ := .f32) a9 (Cert.ReferenceIdeal.ReadP.val_main_v127 (F := Ideal) a0 a1 a3 a4 a5 a6 a9 a10)))) shapeCasts_S64_S1x64 (brow i)) = _
  rw [hrow, hrow]
  show Cert.ReferenceIdeal.ReadP.val_main_v111 (F := Ideal) a0 a1 a3 a4 a5 a6 a9 a10 i * (a9 (colOf i) * Cert.ReferenceIdeal.ReadP.val_main_v127 (F := Ideal) a0 a1 a3 a4 a5 a6 a9 a10 (colOf i))
      + (a10 (colOf i) - Cert.ReferenceIdeal.ReadP.val_main_v114 (F := Ideal) a0 a1 a3 a4 a5 a6 a9 a10 (colOf i) * (a9 (colOf i) * Cert.ReferenceIdeal.ReadP.val_main_v127 (F := Ideal) a0 a1 a3 a4 a5 a6 a9 a10 (colOf i))) = _
  rw [hgj]
  conv_lhs => rw [hi]
  conv_rhs => rw [hi]
  exact (Cert.BnLaw.bn_column (fun k => Cert.ReferenceIdeal.ReadP.val_main_v111 (F := Ideal) a0 a1 a3 a4 a5 a6 a9 a10 (Cert.ReferenceIdeal.ReadP.idx_main_v112 (colOf i) k)) (fun k => out2_nonneg a0 a1 a3 a4 a5 a6 a9 a10 _) cN e g hcN hepos
    (a10 (colOf i)) _ _ _ (mean2_eq a0 a1 a3 a4 a5 a6 a9 a10 hN (colOf i)) (var2_eq a0 a1 a3 a4 a5 a6 a9 a10 hN (colOf i)) (rs2_eq a0 a1 a3 a4 a5 a6 a9 a10 he (colOf i)) ⟨(i 0).val, (i 0).isLt⟩).symm

end Cert.Bridge

end
-- ==== Proof.BnConsts.lean ====
import Idealize.ShloMosaic.PureOps.Ideal

/-!
# The float literals of the normalisation, as extended reals

Two `f32` bit patterns are read at the ideal instance, where a finite IEEE pattern denotes the
dyadic rational `± (2^23 + fraction) · 2^(exponent - 127 - 23)`:

* `0x47C35000` has exponent field `143` and fraction `0x435000 = 4411392`, so it denotes
  `(8388608 + 4411392) · 2^(-7) = 12800000 / 128 = 100000`;
* `0x3727C5AC` has exponent field `110` and fraction `0x27C5AC = 2606508`, so it denotes
  `(8388608 + 2606508) · 2^(-40) = 10995116 / 2^40`, a positive real (about `10^(-5)`); only its
  sign is used.

`0x7F800000` (exponent field all ones, fraction zero, sign clear) denotes `⊤`.
-/

noncomputable section

namespace Cert.BnConsts

open Idealize.ShloMosaic

/-- The pattern `0x47C35000` (the float `1.0e5`) denotes the real number `100000`:
    `(2^23 + 4411392) · 2^(143 - 127 - 23) = 12800000 / 128`. -/
theorem ofBits_count : Ideal.ofBits .f32 0x47C35000#32 = ((100000 : ℝ) : EReal) := by
  simp [Ideal.ofBits, Ideal.ieee, -EReal.coe_mul]; norm_num

/-- The pattern `0x3727C5AC` (the float nearest `10^(-5)`) denotes the positive real number
    `10995116 / 2^40 = (2^23 + 2606508) · 2^(110 - 127 - 23)`. -/
theorem ofBits_eps : ∃ e : ℝ, 0 < e ∧ Ideal.ofBits .f32 0x3727C5AC#32 = (e : EReal) := by
  refine ⟨10995116 * (2 ^ 40)⁻¹, by positivity, ?_⟩
  simp [Ideal.ofBits, Ideal.ieee, -EReal.coe_mul]

/-- The pattern `0x7F800000` (exponent field all ones, fraction zero, sign clear) denotes `⊤`. -/
theorem ofBits_inf : Ideal.ofBits .f32 0x7F800000#32 = ⊤ := by
  simp [Ideal.ofBits, Ideal.ieee]

end Cert.BnConsts

end
-- ==== Proof.RegMatmul0.lean ====
/-
  The first matrix-product region of the graph network: the [100000, 64] array `main_v27` after the region is the
  product of the [100000, 64] array `main_arg0` and the [64, 64] weight `main_arg3` as the region finds them, entry by
  entry. One entry of a block product is a 64-term sum (`matmul0_block_apply`); point `t` of the 20 reads row block `t` of
  the left operand and the whole weight and writes row block `t` of the product (`lhsBlock0_apply`, `rhsBlock0_apply`,
  `flushed0_eq`); the 20 row blocks tile the array (`cover0`), so the array is the product (`final0`).
  The product itself, `matProd`, is stated beside the index constructors.
-/
import proofs.«122425_j82325933130190_1_alg».proof.Proof.Gen.KernelIdeal.Frame
import proofs.«122425_j82325933130190_1_alg».proof.Proof.RegIdx
import Idealize.ShloMosaic.Lib.Pipeline.Value
import Idealize.ShloMosaic.Lib.ValueIdx
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.Pipeline (Dat)

/-! ## One entry of the block product -/

/-- The left operand of the k-th term of entry `j` of the block product sits in row `j 0` … -/
theorem matmul0_lhs_row (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and in the column the contraction position names. -/
theorem matmul0_lhs_col (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
/-- The right operand of that term sits in the row the contraction position names … -/
theorem matmul0_rhs_row (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
/-- … and in column `j 1`. -/
theorem matmul0_rhs_col (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- One entry of a [5000,64] block times the whole [64,64] weight (both rounded to bf16 on the way in, which at the ideal
    values changes nothing; accumulated from zero): the sum over the 64 inner positions, the k-th term reading the block
    at (row, k) and the weight at (k, column) — `L k` and `R k` are any indices with those coordinates. -/
theorem matmul0_block_apply (x0 : Vec Ideal S5000x64 .f32) (x1 : Vec Ideal S64x64 .f32) (j : S5000x64.Idx)
    (L : Fin 64 → S5000x64.Idx) (R : Fin 64 → S64x64.Idx)
    (hL0 : ∀ k, (L k 0).val = (j 0).val) (hL1 : ∀ k, (L k 1).val = k.val)
    (hR0 : ∀ k, (R k 0).val = k.val) (hR1 : ∀ k, (R k 1).val = (j 1).val) :
    k0_pay1 x0 x1 j = ∑ k : Fin 64, x0 (L k) * x1 (R k) := by
  unfold k0_pay1
  refine (Ideal.matmul_constant_zero_apply dot_S5000x64_S64x64_S5000x64_1_0_0_1_n_n none _ _ j).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = L k := funext fun a => Fin.ext (by
    match a with
    | ⟨0, _⟩ => exact (matmul0_lhs_row _ _).trans (hL0 k).symm
    | ⟨1, _⟩ => exact ((matmul0_lhs_col _ _).trans hk).trans (hL1 k).symm)
  have er : dot_S5000x64_S64x64_S5000x64_1_0_0_1_n_n.rhsIdx j ((ValueIdx.contrEquiv1 dot_S5000x64_S64x64_S5000x64_1_0_0_1_n_n 64 rfl rfl).symm k) = R k := funext fun a => Fin.ext (by
    match a with
    | ⟨0, _⟩ => exact ((matmul0_rhs_row _ _).trans hk).trans (hR0 k).symm
    | ⟨1, _⟩ => exact (matmul0_rhs_col _ _).trans (hR1 k).symm)
  rw [el, er]
  rfl

/-! ## From the blocks to the array -/

variable (V : (c : Dev nD) → (b : Ref sig .tc) → Buf (Elt Ideal) ((c : Thread nD τ).loc b))

/-- The body reads and writes its staging buffers from offset (0, 0). -/
theorem offsets0_zero : (![0, 0] : Fin 2 → Nat) = fun _ => 0 := funext fun a => by fin_cases a <;> rfl

/-- The printed index maps, decided over the 20 grid points: point `t` takes row block `t` of the left operand and of
    the product, and the one block of the weight. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block of the product is some point's. -/
theorem blockOnto0 : ∀ (q0 : Fin 20) (q1 : Fin 1), ∃ t : Fin cfg0.N, win0_2.index t = ![q0.val, q1.val] :=
  (by decide +kernel : ∀ (q0 : Fin 20) (q1 : Fin 1), ∃ t : Fin grid0.N, win0_2.index t = ![q0.val, q1.val])

/-- Row `y 0` of the left operand's block at point `t` is row `t * 5000 + y 0` of the array. -/
theorem lhsBlock0_apply (c : Dev nD) (t : Fin cfg0.N) (y : S5000x64.Idx) (i : S100000x64.Idx)
    (h0 : (i 0).val = t.val * 5000 + (y 0).val) (h1 : (i 1).val = (y 1).val) :
    (iblk0 V c 0 t : Vec Ideal S5000x64 .f32) y = (V c main_arg0 : S100000x64.Idx → Elt Ideal .f32) i := by
  obtain ⟨e0, e1, -, -, -, -⟩ := blockIdx0 t
  show (V c main_arg0 : S100000x64.Idx → Elt Ideal .f32) (((cfg0.win 0).blk t).view.emb y) = (V c main_arg0 : S100000x64.Idx → Elt Ideal .f32) i
  refine congrArg (V c main_arg0 : S100000x64.Idx → Elt Ideal .f32) (funext fun a => Fin.ext ?_)
  match a with
  | ⟨0, _⟩ => show win0_0.index t (0 : Fin 2) * 5000 + 1 * (y 0).val = (i 0).val; omega
  | ⟨1, _⟩ => show win0_0.index t (1 : Fin 2) * 64 + 1 * (y 1).val = (i 1).val; omega

/-- The weight's block at every point is the whole weight. -/
theorem rhsBlock0_apply (c : Dev nD) (t : Fin cfg0.N) (y : S64x64.Idx) (i : S64x64.Idx)
    (h0 : (i 0).val = (y 0).val) (h1 : (i 1).val = (y 1).val) :
    (iblk0 V c 1 t : Vec Ideal S64x64 .f32) y = (V c main_arg3 : S64x64.Idx → Elt Ideal .f32) i := by
  obtain ⟨-, -, e2, e3, -, -⟩ := blockIdx0 t
  show (V c main_arg3 : S64x64.Idx → Elt Ideal .f32) (((cfg0.win 1).blk t).view.emb y) = (V c main_arg3 : S64x64.Idx → Elt Ideal .f32) i
  refine congrArg (V c main_arg3 : S64x64.Idx → Elt Ideal .f32) (funext fun a => Fin.ext ?_)
  match a with
  | ⟨0, _⟩ => show win0_1.index t (0 : Fin 2) * 64 + 1 * (y 0).val = (i 0).val; omega
  | ⟨1, _⟩ => show win0_1.index t (1 : Fin 2) * 64 + 1 * (y 1).val = (i 1).val; omega

/-- WHAT POINT `t` WRITES BACK is row block `t` of the product of the two arrays as the region finds them. -/
theorem flushed0_eq (c : Dev nD) (t : Fin cfg0.N) :
    (dat0 V c).flushed 2 t = ((cfg0.win 2).blk t).view.read (Elt Ideal)
      (matProd (V c main_arg0) (V c main_arg3)) := by
  show (cfg0.win 2).cut (grid0.coords t) ((dat0 V c).after 2 t) = _
  rw [after0_2]
  unfold out0_2
  rw [View.canon_unit_zero offsets0_zero]
  simp only [View.ld_unit_zero (S := S5000x64) offsets0_zero, View.ld_unit_zero (S := S64x64) offsets0_zero]
  obtain ⟨-, -, -, -, e4, e5⟩ := blockIdx0 t
  funext j
  show k0_pay1 (iblk0 V c 0 t) (iblk0 V c 1 t) j
    = matProd (V c main_arg0) (V c main_arg3) (((cfg0.win 2).blk t).view.emb j)
  have hj0 : (j 0).val < 5000 := (j 0).isLt
  have hj1 : (j 1).val < 64 := (j 1).isLt
  have r0 : ((((cfg0.win 2).blk t).view.emb j) 0).val = t.val * 5000 + (j 0).val := by
    show win0_2.index t (0 : Fin 2) * 5000 + 1 * (j 0).val = _; omega
  have r1 : ((((cfg0.win 2).blk t).view.emb j) 1).val = (j 1).val := by
    show win0_2.index t (1 : Fin 2) * 64 + 1 * (j 1).val = _; omega
  refine (matmul0_block_apply (iblk0 V c 0 t) (iblk0 V c 1 t) j
    (fun k => ValueIdx.ix2 (⟨(j 0).val, hj0⟩ : Fin 5000) k) (fun k => ValueIdx.ix2 k (⟨(j 1).val, hj1⟩ : Fin 64))
    (fun _ => rfl) (fun _ => rfl) (fun _ => rfl) (fun _ => rfl)).trans ?_
  refine Finset.sum_congr rfl fun k _ => ?_
  rw [lhsBlock0_apply V c t (ValueIdx.ix2 (⟨(j 0).val, hj0⟩ : Fin 5000) k) (lrow (((cfg0.win 2).blk t).view.emb j) k) r0 rfl,
    rhsBlock0_apply V c t (ValueIdx.ix2 k (⟨(j 1).val, hj1⟩ : Fin 64)) (rcol (((cfg0.win 2).blk t).view.emb j) k) rfl r1]

/-- An index of the array is in point `t`'s block iff each coordinate is in the block's range on its axis. -/
theorem memBlock0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- THE BLOCKS TILE THE ARRAY: row `r` is in the block of the point whose block index is `r / 5000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := blockOnto0 ⟨(i 0).val / 5000, by omega⟩ ⟨(i 1).val / 64, by omega⟩
  have q0 : win0_2.index t (0 : Fin 2) = (i 0).val / 5000 := congrFun ht 0
  have q1 : win0_2.index t (1 : Fin 2) = (i 1).val / 64 := congrFun ht 1
  refine ⟨t, flush0_2 t, ?_⟩
  rw [memBlock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE ARRAY after the region: the product of the two arrays as the region finds them, entry by entry. -/
theorem final0 (c : Dev nD) : (Gen.dat0 (F := Ideal) V c).arrAt 2 cfg0.N
    = matProd (V c main_arg0) (V c main_arg3) :=
  (dat0 V c).arrAt_eq_of_cover 2 _ (fun t _ => flushed0_eq V c t) cover0

end Cert.KernelIdeal.RegVal

end
-- ==== Proof.RegMatmul3.lean ====
/-
  The second matrix-product region of the graph network: the [100000, 64] array `main_v65` after the region is the
  product of the [100000, 64] array `main_v64` and the [64, 64] weight `main_arg5` as the region finds them, entry by
  entry. One entry of a block product is a 64-term sum (`matmul3_block_apply`); point `t` of the 20 reads row block `t` of
  the left operand and the whole weight and writes row block `t` of the product (`lhsBlock3_apply`, `rhsBlock3_apply`,
  `flushed3_eq`); the 20 row blocks tile the array (`cover3`), so the array is the product (`final3`).
  The product itself, `matProd`, is stated beside the index constructors.
-/
import proofs.«122425_j82325933130190_1_alg».proof.Proof.Gen.KernelIdeal.Frame
import proofs.«122425_j82325933130190_1_alg».proof.Proof.RegIdx
import Idealize.ShloMosaic.Lib.Pipeline.Value
import Idealize.ShloMosaic.Lib.ValueIdx
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.Pipeline (Dat)

/-! ## One entry of the block product -/

/-- The left operand of the k-th term of entry `j` of the block product sits in row `j 0` … -/
theorem matmul3_lhs_row (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and in the column the contraction position names. -/
theorem matmul3_lhs_col (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
/-- The right operand of that term sits in the row the contraction position names … -/
theorem matmul3_rhs_row (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
/-- … and in column `j 1`. -/
theorem matmul3_rhs_col (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- One entry of a [5000,64] block times the whole [64,64] weight (the block recast to its own shape, both rounded to bf16 on the way in — at
    the ideal values neither changes anything —, accumulated from zero): the sum over the 64 inner positions, the k-th term reading the block
    at (row, k) and the weight at (k, column) — `L k` and `R k` are any indices with those coordinates. -/
theorem matmul3_block_apply (x0 : Vec Ideal S5000x64 .f32) (x1 : Vec Ideal S64x64 .f32) (j : S5000x64.Idx)
    (L : Fin 64 → S5000x64.Idx) (R : Fin 64 → S64x64.Idx)
    (hL0 : ∀ k, (L k 0).val = (j 0).val) (hL1 : ∀ k, (L k 1).val = k.val)
    (hR0 : ∀ k, (R k 0).val = k.val) (hR1 : ∀ k, (R k 1).val = (j 1).val) :
    k3_pay1 x0 x1 j = ∑ k : Fin 64, x0 (L k) * x1 (R k) := by
  unfold k3_pay1
  refine (Ideal.matmul_constant_zero_apply dot_S5000x64_S64x64_S5000x64_1_0_0_1_n_n none _ _ j).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = L k := funext fun a => Fin.ext (by
    match a with
    | ⟨0, _⟩ => exact (matmul3_lhs_row _ _).trans (hL0 k).symm
    | ⟨1, _⟩ => exact ((matmul3_lhs_col _ _).trans hk).trans (hL1 k).symm)
  have er : dot_S5000x64_S64x64_S5000x64_1_0_0_1_n_n.rhsIdx j ((ValueIdx.contrEquiv1 dot_S5000x64_S64x64_S5000x64_1_0_0_1_n_n 64 rfl rfl).symm k) = R k := funext fun a => Fin.ext (by
    match a with
    | ⟨0, _⟩ => exact ((matmul3_rhs_row _ _).trans hk).trans (hR0 k).symm
    | ⟨1, _⟩ => exact (matmul3_rhs_col _ _).trans (hR1 k).symm)
  rw [el, er, shapeCast_self]
  rfl

/-! ## From the blocks to the array -/

variable (V : (c : Dev nD) → (b : Ref sig .tc) → Buf (Elt Ideal) ((c : Thread nD τ).loc b))

/-- The body reads and writes its staging buffers from offset (0, 0). -/
theorem offsets3_zero : (![0, 0] : Fin 2 → Nat) = fun _ => 0 := funext fun a => by fin_cases a <;> rfl

/-- The printed index maps, decided over the 20 grid points: point `t` takes row block `t` of the left operand and of
    the product, and the one block of the weight. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block of the product is some point's. -/
theorem blockOnto3 : ∀ (q0 : Fin 20) (q1 : Fin 1), ∃ t : Fin cfg3.N, win3_2.index t = ![q0.val, q1.val] :=
  (by decide +kernel : ∀ (q0 : Fin 20) (q1 : Fin 1), ∃ t : Fin grid3.N, win3_2.index t = ![q0.val, q1.val])

/-- Row `y 0` of the left operand's block at point `t` is row `t * 5000 + y 0` of the array. -/
theorem lhsBlock3_apply (c : Dev nD) (t : Fin cfg3.N) (y : S5000x64.Idx) (i : S100000x64.Idx)
    (h0 : (i 0).val = t.val * 5000 + (y 0).val) (h1 : (i 1).val = (y 1).val) :
    (iblk3 V c 0 t : Vec Ideal S5000x64 .f32) y = (V c main_v64 : S100000x64.Idx → Elt Ideal .f32) i := by
  obtain ⟨e0, e1, -, -, -, -⟩ := blockIdx3 t
  show (V c main_v64 : S100000x64.Idx → Elt Ideal .f32) (((cfg3.win 0).blk t).view.emb y) = (V c main_v64 : S100000x64.Idx → Elt Ideal .f32) i
  refine congrArg (V c main_v64 : S100000x64.Idx → Elt Ideal .f32) (funext fun a => Fin.ext ?_)
  match a with
  | ⟨0, _⟩ => show win3_0.index t (0 : Fin 2) * 5000 + 1 * (y 0).val = (i 0).val; omega
  | ⟨1, _⟩ => show win3_0.index t (1 : Fin 2) * 64 + 1 * (y 1).val = (i 1).val; omega

/-- The weight's block at every point is the whole weight. -/
theorem rhsBlock3_apply (c : Dev nD) (t : Fin cfg3.N) (y : S64x64.Idx) (i : S64x64.Idx)
    (h0 : (i 0).val = (y 0).val) (h1 : (i 1).val = (y 1).val) :
    (iblk3 V c 1 t : Vec Ideal S64x64 .f32) y = (V c main_arg5 : S64x64.Idx → Elt Ideal .f32) i := by
  obtain ⟨-, -, e2, e3, -, -⟩ := blockIdx3 t
  show (V c main_arg5 : S64x64.Idx → Elt Ideal .f32) (((cfg3.win 1).blk t).view.emb y) = (V c main_arg5 : S64x64.Idx → Elt Ideal .f32) i
  refine congrArg (V c main_arg5 : S64x64.Idx → Elt Ideal .f32) (funext fun a => Fin.ext ?_)
  match a with
  | ⟨0, _⟩ => show win3_1.index t (0 : Fin 2) * 64 + 1 * (y 0).val = (i 0).val; omega
  | ⟨1, _⟩ => show win3_1.index t (1 : Fin 2) * 64 + 1 * (y 1).val = (i 1).val; omega

/-- WHAT POINT `t` WRITES BACK is row block `t` of the product of the two arrays as the region finds them. -/
theorem flushed3_eq (c : Dev nD) (t : Fin cfg3.N) :
    (dat3 V c).flushed 2 t = ((cfg3.win 2).blk t).view.read (Elt Ideal)
      (matProd (V c main_v64) (V c main_arg5)) := by
  show (cfg3.win 2).cut (grid3.coords t) ((dat3 V c).after 2 t) = _
  rw [after3_2]
  unfold out3_2
  rw [View.canon_unit_zero offsets3_zero]
  simp only [View.ld_unit_zero (S := S5000x64) offsets3_zero, View.ld_unit_zero (S := S64x64) offsets3_zero]
  obtain ⟨-, -, -, -, e4, e5⟩ := blockIdx3 t
  funext j
  show k3_pay1 (iblk3 V c 0 t) (iblk3 V c 1 t) j
    = matProd (V c main_v64) (V c main_arg5) (((cfg3.win 2).blk t).view.emb j)
  have hj0 : (j 0).val < 5000 := (j 0).isLt
  have hj1 : (j 1).val < 64 := (j 1).isLt
  have r0 : ((((cfg3.win 2).blk t).view.emb j) 0).val = t.val * 5000 + (j 0).val := by
    show win3_2.index t (0 : Fin 2) * 5000 + 1 * (j 0).val = _; omega
  have r1 : ((((cfg3.win 2).blk t).view.emb j) 1).val = (j 1).val := by
    show win3_2.index t (1 : Fin 2) * 64 + 1 * (j 1).val = _; omega
  refine (matmul3_block_apply (iblk3 V c 0 t) (iblk3 V c 1 t) j
    (fun k => ValueIdx.ix2 (⟨(j 0).val, hj0⟩ : Fin 5000) k) (fun k => ValueIdx.ix2 k (⟨(j 1).val, hj1⟩ : Fin 64))
    (fun _ => rfl) (fun _ => rfl) (fun _ => rfl) (fun _ => rfl)).trans ?_
  refine Finset.sum_congr rfl fun k _ => ?_
  rw [lhsBlock3_apply V c t (ValueIdx.ix2 (⟨(j 0).val, hj0⟩ : Fin 5000) k) (lrow (((cfg3.win 2).blk t).view.emb j) k) r0 rfl,
    rhsBlock3_apply V c t (ValueIdx.ix2 k (⟨(j 1).val, hj1⟩ : Fin 64)) (rcol (((cfg3.win 2).blk t).view.emb j) k) rfl r1]

/-- An index of the array is in point `t`'s block iff each coordinate is in the block's range on its axis. -/
theorem memBlock3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v65).slice (win3_2.rect t)).set ↔ _
  rw [View.set_slice_whole, Rect.mem_set_unit]
  exact Iff.rfl

/-- THE BLOCKS TILE THE ARRAY: row `r` is in the block of the point whose block index is `r / 5000`. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := blockOnto3 ⟨(i 0).val / 5000, by omega⟩ ⟨(i 1).val / 64, by omega⟩
  have q0 : win3_2.index t (0 : Fin 2) = (i 0).val / 5000 := congrFun ht 0
  have q1 : win3_2.index t (1 : Fin 2) = (i 1).val / 64 := congrFun ht 1
  refine ⟨t, flush3_2 t, ?_⟩
  rw [memBlock3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- THE ARRAY after the region: the product of the two arrays as the region finds them, entry by entry. -/
theorem final3 (c : Dev nD) : (Gen.dat3 (F := Ideal) V c).arrAt 2 cfg3.N
    = matProd (V c main_v64) (V c main_arg5) :=
  (dat3 V c).arrAt_eq_of_cover 2 _ (fun t _ => flushed3_eq V c t) cover3

end Cert.KernelIdeal.RegVal

end
-- ==== Proof.RegMatmul6.lean ====
/-
  The third matrix-product region of the graph network: the [100000, 64] array `main_v103` after the region is the
  product of the [100000, 64] array `main_v102` and the [64, 64] weight `main_arg7` as the region finds them, entry by
  entry. One entry of a block product is a 64-term sum (`matmul6_block_apply`); point `t` of the 20 reads row block `t` of
  the left operand and the whole weight and writes row block `t` of the product (`lhsBlock6_apply`, `rhsBlock6_apply`,
  `flushed6_eq`); the 20 row blocks tile the array (`cover6`), so the array is the product (`final6`).
  The product itself, `matProd`, is stated beside the index constructors.
-/
import proofs.«122425_j82325933130190_1_alg».proof.Proof.Gen.KernelIdeal.Frame
import proofs.«122425_j82325933130190_1_alg».proof.Proof.RegIdx
import Idealize.ShloMosaic.Lib.Pipeline.Value
import Idealize.ShloMosaic.Lib.ValueIdx
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.Pipeline (Dat)

/-! ## One entry of the block product -/

/-- The left operand of the k-th term of entry `j` of the block product sits in row `j 0` … -/
theorem matmul6_lhs_row (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and in the column the contraction position names. -/
theorem matmul6_lhs_col (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
/-- The right operand of that term sits in the row the contraction position names … -/
theorem matmul6_rhs_row (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
/-- … and in column `j 1`. -/
theorem matmul6_rhs_col (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- One entry of a [5000,64] block times the whole [64,64] weight (the block recast to its own shape, both rounded to bf16 on the way in — at
    the ideal values neither changes anything —, accumulated from zero): the sum over the 64 inner positions, the k-th term reading the block
    at (row, k) and the weight at (k, column) — `L k` and `R k` are any indices with those coordinates. -/
theorem matmul6_block_apply (x0 : Vec Ideal S5000x64 .f32) (x1 : Vec Ideal S64x64 .f32) (j : S5000x64.Idx)
    (L : Fin 64 → S5000x64.Idx) (R : Fin 64 → S64x64.Idx)
    (hL0 : ∀ k, (L k 0).val = (j 0).val) (hL1 : ∀ k, (L k 1).val = k.val)
    (hR0 : ∀ k, (R k 0).val = k.val) (hR1 : ∀ k, (R k 1).val = (j 1).val) :
    k6_pay1 x0 x1 j = ∑ k : Fin 64, x0 (L k) * x1 (R k) := by
  unfold k6_pay1
  refine (Ideal.matmul_constant_zero_apply dot_S5000x64_S64x64_S5000x64_1_0_0_1_n_n none _ _ j).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = L k := funext fun a => Fin.ext (by
    match a with
    | ⟨0, _⟩ => exact (matmul6_lhs_row _ _).trans (hL0 k).symm
    | ⟨1, _⟩ => exact ((matmul6_lhs_col _ _).trans hk).trans (hL1 k).symm)
  have er : dot_S5000x64_S64x64_S5000x64_1_0_0_1_n_n.rhsIdx j ((ValueIdx.contrEquiv1 dot_S5000x64_S64x64_S5000x64_1_0_0_1_n_n 64 rfl rfl).symm k) = R k := funext fun a => Fin.ext (by
    match a with
    | ⟨0, _⟩ => exact ((matmul6_rhs_row _ _).trans hk).trans (hR0 k).symm
    | ⟨1, _⟩ => exact (matmul6_rhs_col _ _).trans (hR1 k).symm)
  rw [el, er, shapeCast_self]
  rfl

/-! ## From the blocks to the array -/

variable (V : (c : Dev nD) → (b : Ref sig .tc) → Buf (Elt Ideal) ((c : Thread nD τ).loc b))

/-- The body reads and writes its staging buffers from offset (0, 0). -/
theorem offsets6_zero : (![0, 0] : Fin 2 → Nat) = fun _ => 0 := funext fun a => by fin_cases a <;> rfl

/-- The printed index maps, decided over the 20 grid points: point `t` takes row block `t` of the left operand and of
    the product, and the one block of the weight. -/
theorem blockIdx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Every row block of the product is some point's. -/
theorem blockOnto6 : ∀ (q0 : Fin 20) (q1 : Fin 1), ∃ t : Fin cfg6.N, win6_2.index t = ![q0.val, q1.val] :=
  (by decide +kernel : ∀ (q0 : Fin 20) (q1 : Fin 1), ∃ t : Fin grid6.N, win6_2.index t = ![q0.val, q1.val])

/-- Row `y 0` of the left operand's block at point `t` is row `t * 5000 + y 0` of the array. -/
theorem lhsBlock6_apply (c : Dev nD) (t : Fin cfg6.N) (y : S5000x64.Idx) (i : S100000x64.Idx)
    (h0 : (i 0).val = t.val * 5000 + (y 0).val) (h1 : (i 1).val = (y 1).val) :
    (iblk6 V c 0 t : Vec Ideal S5000x64 .f32) y = (V c main_v102 : S100000x64.Idx → Elt Ideal .f32) i := by
  obtain ⟨e0, e1, -, -, -, -⟩ := blockIdx6 t
  show (V c main_v102 : S100000x64.Idx → Elt Ideal .f32) (((cfg6.win 0).blk t).view.emb y) = (V c main_v102 : S100000x64.Idx → Elt Ideal .f32) i
  refine congrArg (V c main_v102 : S100000x64.Idx → Elt Ideal .f32) (funext fun a => Fin.ext ?_)
  match a with
  | ⟨0, _⟩ => show win6_0.index t (0 : Fin 2) * 5000 + 1 * (y 0).val = (i 0).val; omega
  | ⟨1, _⟩ => show win6_0.index t (1 : Fin 2) * 64 + 1 * (y 1).val = (i 1).val; omega

/-- The weight's block at every point is the whole weight. -/
theorem rhsBlock6_apply (c : Dev nD) (t : Fin cfg6.N) (y : S64x64.Idx) (i : S64x64.Idx)
    (h0 : (i 0).val = (y 0).val) (h1 : (i 1).val = (y 1).val) :
    (iblk6 V c 1 t : Vec Ideal S64x64 .f32) y = (V c main_arg7 : S64x64.Idx → Elt Ideal .f32) i := by
  obtain ⟨-, -, e2, e3, -, -⟩ := blockIdx6 t
  show (V c main_arg7 : S64x64.Idx → Elt Ideal .f32) (((cfg6.win 1).blk t).view.emb y) = (V c main_arg7 : S64x64.Idx → Elt Ideal .f32) i
  refine congrArg (V c main_arg7 : S64x64.Idx → Elt Ideal .f32) (funext fun a => Fin.ext ?_)
  match a with
  | ⟨0, _⟩ => show win6_1.index t (0 : Fin 2) * 64 + 1 * (y 0).val = (i 0).val; omega
  | ⟨1, _⟩ => show win6_1.index t (1 : Fin 2) * 64 + 1 * (y 1).val = (i 1).val; omega

/-- WHAT POINT `t` WRITES BACK is row block `t` of the product of the two arrays as the region finds them. -/
theorem flushed6_eq (c : Dev nD) (t : Fin cfg6.N) :
    (dat6 V c).flushed 2 t = ((cfg6.win 2).blk t).view.read (Elt Ideal)
      (matProd (V c main_v102) (V c main_arg7)) := by
  show (cfg6.win 2).cut (grid6.coords t) ((dat6 V c).after 2 t) = _
  rw [after6_2]
  unfold out6_2
  rw [View.canon_unit_zero offsets6_zero]
  simp only [View.ld_unit_zero (S := S5000x64) offsets6_zero, View.ld_unit_zero (S := S64x64) offsets6_zero]
  obtain ⟨-, -, -, -, e4, e5⟩ := blockIdx6 t
  funext j
  show k6_pay1 (iblk6 V c 0 t) (iblk6 V c 1 t) j
    = matProd (V c main_v102) (V c main_arg7) (((cfg6.win 2).blk t).view.emb j)
  have hj0 : (j 0).val < 5000 := (j 0).isLt
  have hj1 : (j 1).val < 64 := (j 1).isLt
  have r0 : ((((cfg6.win 2).blk t).view.emb j) 0).val = t.val * 5000 + (j 0).val := by
    show win6_2.index t (0 : Fin 2) * 5000 + 1 * (j 0).val = _; omega
  have r1 : ((((cfg6.win 2).blk t).view.emb j) 1).val = (j 1).val := by
    show win6_2.index t (1 : Fin 2) * 64 + 1 * (j 1).val = _; omega
  refine (matmul6_block_apply (iblk6 V c 0 t) (iblk6 V c 1 t) j
    (fun k => ValueIdx.ix2 (⟨(j 0).val, hj0⟩ : Fin 5000) k) (fun k => ValueIdx.ix2 k (⟨(j 1).val, hj1⟩ : Fin 64))
    (fun _ => rfl) (fun _ => rfl) (fun _ => rfl) (fun _ => rfl)).trans ?_
  refine Finset.sum_congr rfl fun k _ => ?_
  rw [lhsBlock6_apply V c t (ValueIdx.ix2 (⟨(j 0).val, hj0⟩ : Fin 5000) k) (lrow (((cfg6.win 2).blk t).view.emb j) k) r0 rfl,
    rhsBlock6_apply V c t (ValueIdx.ix2 k (⟨(j 1).val, hj1⟩ : Fin 64)) (rcol (((cfg6.win 2).blk t).view.emb j) k) rfl r1]

/-- An index of the array is in point `t`'s block iff each coordinate is in the block's range on its axis. -/
theorem memBlock6 (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v103).slice (win6_2.rect t)).set ↔ _
  rw [View.set_slice_whole, Rect.mem_set_unit]
  exact Iff.rfl

/-- THE BLOCKS TILE THE ARRAY: row `r` is in the block of the point whose block index is `r / 5000`. -/
theorem cover6 (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  obtain ⟨t, ht⟩ := blockOnto6 ⟨(i 0).val / 5000, by omega⟩ ⟨(i 1).val / 64, by omega⟩
  have q0 : win6_2.index t (0 : Fin 2) = (i 0).val / 5000 := congrFun ht 0
  have q1 : win6_2.index t (1 : Fin 2) = (i 1).val / 64 := congrFun ht 1
  refine ⟨t, flush6_2 t, ?_⟩
  rw [memBlock6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- THE ARRAY after the region: the product of the two arrays as the region finds them, entry by entry. -/
theorem final6 (c : Dev nD) : (Gen.dat6 (F := Ideal) V c).arrAt 2 cfg6.N
    = matProd (V c main_v102) (V c main_arg7) :=
  (dat6 V c).arrAt_eq_of_cover 2 _ (fun t _ => flushed6_eq V c t) cover6

end Cert.KernelIdeal.RegVal

end
-- ==== Proof.RegRelu1.lean ====
/-
  The add-a-row-and-cut-off-at-zero step (region 1) read as one array. Every entry is the sum of the entries of
  the two [100000, 64] inputs and the entry of the [1, 64] row in its column, cut off below at zero. Each of the grid's 20 points computes one block of 5000 consecutive rows; the 20 blocks tile the array,
  so the array the region leaves is that function at every index.
-/
import proofs.«122425_j82325933130190_1_alg».proof.Proof.Gen.KernelIdeal.Frame
import proofs.«122425_j82325933130190_1_alg».proof.Proof.RegIdx
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body reads and writes whole blocks: its rectangles sit at offset zero on both axes. -/
theorem relu1_offsets_zero : (![0, 0] : Fin 2 → Nat) = fun _ => 0 := funext fun a => by fin_cases a <;> rfl

/-- The body's result at entry (p, q) of a block: the two input entries added, plus the bias row's entry in
    column q (the row is spread over the block's 5000 rows), and the maximum of that with zero (the zero word
    of the 32-bit format is the extended real 0). -/
theorem relu1_payload_apply (x y : Vec Ideal S5000x64 .f32) (b : Vec Ideal S1x64 .f32) (p : Fin 5000) (q : Fin 64) :
    k1_pay1 x y b (ix2 p q) = max ((x (ix2 p q) + y (ix2 p q)) + b (ix2 (0 : Fin 1) q)) (0 : EReal) := by
  unfold k1_pay1
  simp only [shapeCast_self]
  rw [maximumf_apply, addf_apply, addf_apply, broadcastTo_1b_ab_apply, broadcast_apply]
  show max _ (Ideal.ofBits .f32 0x00000000#32) = _
  rw [Ideal.ofBits_zero_f32]

/-- The index maps over the 20 points: both inputs' blocks move with the output's block, the bias row is always
    read whole at block (0, 0), and the output's block is one of the 20 row blocks, in column block 0. -/
theorem relu1_index_maps : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = 0 ∧ win1_2.index t (1 : Fin 2) = 0
    ∧ win1_3.index t (0 : Fin 2) ≤ 19 ∧ win1_3.index t (1 : Fin 2) = 0 :=
  (by decide +kernel : ∀ t : Fin grid1.N, _)

/-- Every one of the 20 row blocks is some point's output block. -/
theorem relu1_blocks_onto : ∀ (q0 : Fin 20) (q1 : Fin 1), ∃ t : Fin cfg1.N, win1_3.index t = ![q0.val, q1.val] :=
  (by decide +kernel : ∀ (q0 : Fin 20) (q1 : Fin 1), ∃ t : Fin grid1.N, win1_3.index t = ![q0.val, q1.val])

/-- What point t writes back is block t of the whole-array function. -/
theorem relu1_block_written (c : Dev nD) (t : Fin cfg1.N) :
    (dat1 (F := Ideal) V c).flushed 3 t = ((cfg1.win 3).blk t).view.read (Elt Ideal)
      (combine (V c main_v40) (V c main_v43) (V c main_v44)) := by
  show (cfg1.win 3).cut (grid1.coords t) ((dat1 V c).after 3 t) = _
  rw [after1_3]
  unfold out1_3
  rw [View.canon_unit_zero relu1_offsets_zero]
  simp only [View.ld_unit_zero (S := S5000x64) relu1_offsets_zero, View.ld_unit_zero (S := S1x64) relu1_offsets_zero]
  obtain ⟨e0, e1, e2, e3, e4, e5, e6, e7⟩ := relu1_index_maps t
  have key : ∀ j : S5000x64.Idx, k1_pay1 (iblk1 V c 0 t) (iblk1 V c 1 t) (iblk1 V c 2 t) j
      = combine (V c main_v40) (V c main_v43) (V c main_v44) (((cfg1.win 3).blk t).view.emb j) := by
    intro j
    obtain ⟨p, q, rfl⟩ : ∃ (p : Fin 5000) (q : Fin 64), j = ix2 p q := ⟨j 0, j 1, eq_ix2 j⟩
    refine (relu1_payload_apply _ _ _ p q).trans ?_
    have h0 : ((cfg1.win 0).blk t).view.emb (ix2 p q) = ((cfg1.win 3).blk t).view.emb (ix2 p q) := by
      funext a; apply Fin.ext
      match a with
      | ⟨0, _⟩ => show win1_0.index t (0 : Fin 2) * 5000 + 1 * p.val = win1_3.index t (0 : Fin 2) * 5000 + 1 * p.val; omega
      | ⟨1, _⟩ => show win1_0.index t (1 : Fin 2) * 64 + 1 * q.val = win1_3.index t (1 : Fin 2) * 64 + 1 * q.val; omega
    have h1 : ((cfg1.win 1).blk t).view.emb (ix2 p q) = ((cfg1.win 3).blk t).view.emb (ix2 p q) := by
      funext a; apply Fin.ext
      match a with
      | ⟨0, _⟩ => show win1_1.index t (0 : Fin 2) * 5000 + 1 * p.val = win1_3.index t (0 : Fin 2) * 5000 + 1 * p.val; omega
      | ⟨1, _⟩ => show win1_1.index t (1 : Fin 2) * 64 + 1 * q.val = win1_3.index t (1 : Fin 2) * 64 + 1 * q.val; omega
    have h2 : ((cfg1.win 2).blk t).view.emb (ix2 (0 : Fin 1) q) = brow (((cfg1.win 3).blk t).view.emb (ix2 p q)) := by
      funext a; apply Fin.ext
      match a with
      | ⟨0, _⟩ => show win1_2.index t (0 : Fin 2) * 1 + 1 * 0 = 0; omega
      | ⟨1, _⟩ => show win1_2.index t (1 : Fin 2) * 64 + 1 * q.val = win1_3.index t (1 : Fin 2) * 64 + 1 * q.val; omega
    have r0 : (iblk1 V c 0 t : S5000x64.Idx → EReal) (ix2 p q)
        = (V c main_v40 : S100000x64.Idx → EReal) (((cfg1.win 3).blk t).view.emb (ix2 p q)) :=
      congrArg (V c main_v40 : S100000x64.Idx → EReal) h0
    have r1 : (iblk1 V c 1 t : S5000x64.Idx → EReal) (ix2 p q)
        = (V c main_v43 : S100000x64.Idx → EReal) (((cfg1.win 3).blk t).view.emb (ix2 p q)) :=
      congrArg (V c main_v43 : S100000x64.Idx → EReal) h1
    have r2 : (iblk1 V c 2 t : S1x64.Idx → EReal) (ix2 (0 : Fin 1) q)
        = (V c main_v44 : S1x64.Idx → EReal) (brow (((cfg1.win 3).blk t).view.emb (ix2 p q))) :=
      congrArg (V c main_v44 : S1x64.Idx → EReal) h2
    rw [r0, r1, r2]
  exact funext key

/-- An index of the array is in point t's block iff each coordinate is in the block's range on its axis. -/
theorem relu1_mem_block (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- The 20 blocks tile the array: row r is in the block of point r / 5000. -/
theorem relu1_blocks_cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := relu1_blocks_onto ⟨(i 0).val / 5000, by omega⟩ ⟨(i 1).val / 64, by omega⟩
  have q0 : win1_3.index t (0 : Fin 2) = (i 0).val / 5000 := congrFun ht 0
  have q1 : win1_3.index t (1 : Fin 2) = (i 1).val / 64 := congrFun ht 1
  refine ⟨t, flush1_3 t, ?_⟩
  rw [relu1_mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The array region 1 leaves: that function of the arrays it found, at every index. -/
theorem final1 (c : Dev nD) : (Gen.dat1 (F := Ideal) V c).arrAt 3 cfg1.N
    = combine (V c main_v40) (V c main_v43) (V c main_v44) :=
  (dat1 V c).arrAt_eq_of_cover 3 _ (fun t _ => relu1_block_written V c t) relu1_blocks_cover

end Cert.KernelIdeal.RegVal

end
-- ==== Proof.RegRelu4.lean ====
/-
  The add-a-row-and-cut-off-at-zero step (region 4) read as one array. Every entry is the sum of the entries of
  the two [100000, 64] inputs and the entry of the [1, 64] row in its column, cut off below at zero. Each of the grid's 20 points computes one block of 5000 consecutive rows; the 20 blocks tile the array,
  so the array the region leaves is that function at every index.
-/
import proofs.«122425_j82325933130190_1_alg».proof.Proof.Gen.KernelIdeal.Frame
import proofs.«122425_j82325933130190_1_alg».proof.Proof.RegIdx
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body reads and writes whole blocks: its rectangles sit at offset zero on both axes. -/
theorem relu4_offsets_zero : (![0, 0] : Fin 2 → Nat) = fun _ => 0 := funext fun a => by fin_cases a <;> rfl

/-- The body's result at entry (p, q) of a block: the two input entries added, plus the bias row's entry in
    column q (the row is spread over the block's 5000 rows), and the maximum of that with zero (the zero word
    of the 32-bit format is the extended real 0). -/
theorem relu4_payload_apply (x y : Vec Ideal S5000x64 .f32) (b : Vec Ideal S1x64 .f32) (p : Fin 5000) (q : Fin 64) :
    k4_pay1 x y b (ix2 p q) = max ((x (ix2 p q) + y (ix2 p q)) + b (ix2 (0 : Fin 1) q)) (0 : EReal) := by
  unfold k4_pay1
  simp only [shapeCast_self]
  rw [maximumf_apply, addf_apply, addf_apply, broadcastTo_1b_ab_apply, broadcast_apply]
  show max _ (Ideal.ofBits .f32 0x00000000#32) = _
  rw [Ideal.ofBits_zero_f32]

/-- The index maps over the 20 points: both inputs' blocks move with the output's block, the bias row is always
    read whole at block (0, 0), and the output's block is one of the 20 row blocks, in column block 0. -/
theorem relu4_index_maps : ∀ t : Fin cfg4.N, win4_0.index t (0 : Fin 2) = win4_3.index t (0 : Fin 2)
    ∧ win4_0.index t (1 : Fin 2) = win4_3.index t (1 : Fin 2)
    ∧ win4_1.index t (0 : Fin 2) = win4_3.index t (0 : Fin 2)
    ∧ win4_1.index t (1 : Fin 2) = win4_3.index t (1 : Fin 2)
    ∧ win4_2.index t (0 : Fin 2) = 0 ∧ win4_2.index t (1 : Fin 2) = 0
    ∧ win4_3.index t (0 : Fin 2) ≤ 19 ∧ win4_3.index t (1 : Fin 2) = 0 :=
  (by decide +kernel : ∀ t : Fin grid4.N, _)

/-- Every one of the 20 row blocks is some point's output block. -/
theorem relu4_blocks_onto : ∀ (q0 : Fin 20) (q1 : Fin 1), ∃ t : Fin cfg4.N, win4_3.index t = ![q0.val, q1.val] :=
  (by decide +kernel : ∀ (q0 : Fin 20) (q1 : Fin 1), ∃ t : Fin grid4.N, win4_3.index t = ![q0.val, q1.val])

/-- What point t writes back is block t of the whole-array function. -/
theorem relu4_block_written (c : Dev nD) (t : Fin cfg4.N) :
    (dat4 (F := Ideal) V c).flushed 3 t = ((cfg4.win 3).blk t).view.read (Elt Ideal)
      (combine (V c main_v78) (V c main_v81) (V c main_v82)) := by
  show (cfg4.win 3).cut (grid4.coords t) ((dat4 V c).after 3 t) = _
  rw [after4_3]
  unfold out4_3
  rw [View.canon_unit_zero relu4_offsets_zero]
  simp only [View.ld_unit_zero (S := S5000x64) relu4_offsets_zero, View.ld_unit_zero (S := S1x64) relu4_offsets_zero]
  obtain ⟨e0, e1, e2, e3, e4, e5, e6, e7⟩ := relu4_index_maps t
  have key : ∀ j : S5000x64.Idx, k4_pay1 (iblk4 V c 0 t) (iblk4 V c 1 t) (iblk4 V c 2 t) j
      = combine (V c main_v78) (V c main_v81) (V c main_v82) (((cfg4.win 3).blk t).view.emb j) := by
    intro j
    obtain ⟨p, q, rfl⟩ : ∃ (p : Fin 5000) (q : Fin 64), j = ix2 p q := ⟨j 0, j 1, eq_ix2 j⟩
    refine (relu4_payload_apply _ _ _ p q).trans ?_
    have h0 : ((cfg4.win 0).blk t).view.emb (ix2 p q) = ((cfg4.win 3).blk t).view.emb (ix2 p q) := by
      funext a; apply Fin.ext
      match a with
      | ⟨0, _⟩ => show win4_0.index t (0 : Fin 2) * 5000 + 1 * p.val = win4_3.index t (0 : Fin 2) * 5000 + 1 * p.val; omega
      | ⟨1, _⟩ => show win4_0.index t (1 : Fin 2) * 64 + 1 * q.val = win4_3.index t (1 : Fin 2) * 64 + 1 * q.val; omega
    have h1 : ((cfg4.win 1).blk t).view.emb (ix2 p q) = ((cfg4.win 3).blk t).view.emb (ix2 p q) := by
      funext a; apply Fin.ext
      match a with
      | ⟨0, _⟩ => show win4_1.index t (0 : Fin 2) * 5000 + 1 * p.val = win4_3.index t (0 : Fin 2) * 5000 + 1 * p.val; omega
      | ⟨1, _⟩ => show win4_1.index t (1 : Fin 2) * 64 + 1 * q.val = win4_3.index t (1 : Fin 2) * 64 + 1 * q.val; omega
    have h2 : ((cfg4.win 2).blk t).view.emb (ix2 (0 : Fin 1) q) = brow (((cfg4.win 3).blk t).view.emb (ix2 p q)) := by
      funext a; apply Fin.ext
      match a with
      | ⟨0, _⟩ => show win4_2.index t (0 : Fin 2) * 1 + 1 * 0 = 0; omega
      | ⟨1, _⟩ => show win4_2.index t (1 : Fin 2) * 64 + 1 * q.val = win4_3.index t (1 : Fin 2) * 64 + 1 * q.val; omega
    have r0 : (iblk4 V c 0 t : S5000x64.Idx → EReal) (ix2 p q)
        = (V c main_v78 : S100000x64.Idx → EReal) (((cfg4.win 3).blk t).view.emb (ix2 p q)) :=
      congrArg (V c main_v78 : S100000x64.Idx → EReal) h0
    have r1 : (iblk4 V c 1 t : S5000x64.Idx → EReal) (ix2 p q)
        = (V c main_v81 : S100000x64.Idx → EReal) (((cfg4.win 3).blk t).view.emb (ix2 p q)) :=
      congrArg (V c main_v81 : S100000x64.Idx → EReal) h1
    have r2 : (iblk4 V c 2 t : S1x64.Idx → EReal) (ix2 (0 : Fin 1) q)
        = (V c main_v82 : S1x64.Idx → EReal) (brow (((cfg4.win 3).blk t).view.emb (ix2 p q))) :=
      congrArg (V c main_v82 : S1x64.Idx → EReal) h2
    rw [r0, r1, r2]
  exact funext key

/-- An index of the array is in point t's block iff each coordinate is in the block's range on its axis. -/
theorem relu4_mem_block (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v83).slice (win4_3.rect t)).set ↔ _
  rw [View.set_slice_whole, Rect.mem_set_unit]
  exact Iff.rfl

/-- The 20 blocks tile the array: row r is in the block of point r / 5000. -/
theorem relu4_blocks_cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ := relu4_blocks_onto ⟨(i 0).val / 5000, by omega⟩ ⟨(i 1).val / 64, by omega⟩
  have q0 : win4_3.index t (0 : Fin 2) = (i 0).val / 5000 := congrFun ht 0
  have q1 : win4_3.index t (1 : Fin 2) = (i 1).val / 64 := congrFun ht 1
  refine ⟨t, flush4_3 t, ?_⟩
  rw [relu4_mem_block]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- The array region 4 leaves: that function of the arrays it found, at every index. -/
theorem final4 (c : Dev nD) : (Gen.dat4 (F := Ideal) V c).arrAt 3 cfg4.N
    = combine (V c main_v78) (V c main_v81) (V c main_v82) :=
  (dat4 V c).arrAt_eq_of_cover 3 _ (fun t _ => relu4_block_written V c t) relu4_blocks_cover

end Cert.KernelIdeal.RegVal

end
-- ==== Proof.RegRelu7.lean ====
/-
  The add-a-row-and-cut-off-at-zero step (region 7) read as one array. Every entry is the sum of the entries of
  the two [100000, 64] inputs and the entry of the [1, 64] row in its column, cut off below at zero. Each of the grid's 20 points computes one block of 5000 consecutive rows; the 20 blocks tile the array,
  so the array the region leaves is that function at every index.
-/
import proofs.«122425_j82325933130190_1_alg».proof.Proof.Gen.KernelIdeal.Frame
import proofs.«122425_j82325933130190_1_alg».proof.Proof.RegIdx
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body reads and writes whole blocks: its rectangles sit at offset zero on both axes. -/
theorem relu7_offsets_zero : (![0, 0] : Fin 2 → Nat) = fun _ => 0 := funext fun a => by fin_cases a <;> rfl

/-- The body's result at entry (p, q) of a block: the two input entries added, plus the bias row's entry in
    column q (the row is spread over the block's 5000 rows), and the maximum of that with zero (the zero word
    of the 32-bit format is the extended real 0). -/
theorem relu7_payload_apply (x y : Vec Ideal S5000x64 .f32) (b : Vec Ideal S1x64 .f32) (p : Fin 5000) (q : Fin 64) :
    k7_pay1 x y b (ix2 p q) = max ((x (ix2 p q) + y (ix2 p q)) + b (ix2 (0 : Fin 1) q)) (0 : EReal) := by
  unfold k7_pay1
  simp only [shapeCast_self]
  rw [maximumf_apply, addf_apply, addf_apply, broadcastTo_1b_ab_apply, broadcast_apply]
  show max _ (Ideal.ofBits .f32 0x00000000#32) = _
  rw [Ideal.ofBits_zero_f32]

/-- The index maps over the 20 points: both inputs' blocks move with the output's block, the bias row is always
    read whole at block (0, 0), and the output's block is one of the 20 row blocks, in column block 0. -/
theorem relu7_index_maps : ∀ t : Fin cfg7.N, win7_0.index t (0 : Fin 2) = win7_3.index t (0 : Fin 2)
    ∧ win7_0.index t (1 : Fin 2) = win7_3.index t (1 : Fin 2)
    ∧ win7_1.index t (0 : Fin 2) = win7_3.index t (0 : Fin 2)
    ∧ win7_1.index t (1 : Fin 2) = win7_3.index t (1 : Fin 2)
    ∧ win7_2.index t (0 : Fin 2) = 0 ∧ win7_2.index t (1 : Fin 2) = 0
    ∧ win7_3.index t (0 : Fin 2) ≤ 19 ∧ win7_3.index t (1 : Fin 2) = 0 :=
  (by decide +kernel : ∀ t : Fin grid7.N, _)

/-- Every one of the 20 row blocks is some point's output block. -/
theorem relu7_blocks_onto : ∀ (q0 : Fin 20) (q1 : Fin 1), ∃ t : Fin cfg7.N, win7_3.index t = ![q0.val, q1.val] :=
  (by decide +kernel : ∀ (q0 : Fin 20) (q1 : Fin 1), ∃ t : Fin grid7.N, win7_3.index t = ![q0.val, q1.val])

/-- What point t writes back is block t of the whole-array function. -/
theorem relu7_block_written (c : Dev nD) (t : Fin cfg7.N) :
    (dat7 (F := Ideal) V c).flushed 3 t = ((cfg7.win 3).blk t).view.read (Elt Ideal)
      (combine (V c main_v116) (V c main_v119) (V c main_v120)) := by
  show (cfg7.win 3).cut (grid7.coords t) ((dat7 V c).after 3 t) = _
  rw [after7_3]
  unfold out7_3
  rw [View.canon_unit_zero relu7_offsets_zero]
  simp only [View.ld_unit_zero (S := S5000x64) relu7_offsets_zero, View.ld_unit_zero (S := S1x64) relu7_offsets_zero]
  obtain ⟨e0, e1, e2, e3, e4, e5, e6, e7⟩ := relu7_index_maps t
  have key : ∀ j : S5000x64.Idx, k7_pay1 (iblk7 V c 0 t) (iblk7 V c 1 t) (iblk7 V c 2 t) j
      = combine (V c main_v116) (V c main_v119) (V c main_v120) (((cfg7.win 3).blk t).view.emb j) := by
    intro j
    obtain ⟨p, q, rfl⟩ : ∃ (p : Fin 5000) (q : Fin 64), j = ix2 p q := ⟨j 0, j 1, eq_ix2 j⟩
    refine (relu7_payload_apply _ _ _ p q).trans ?_
    have h0 : ((cfg7.win 0).blk t).view.emb (ix2 p q) = ((cfg7.win 3).blk t).view.emb (ix2 p q) := by
      funext a; apply Fin.ext
      match a with
      | ⟨0, _⟩ => show win7_0.index t (0 : Fin 2) * 5000 + 1 * p.val = win7_3.index t (0 : Fin 2) * 5000 + 1 * p.val; omega
      | ⟨1, _⟩ => show win7_0.index t (1 : Fin 2) * 64 + 1 * q.val = win7_3.index t (1 : Fin 2) * 64 + 1 * q.val; omega
    have h1 : ((cfg7.win 1).blk t).view.emb (ix2 p q) = ((cfg7.win 3).blk t).view.emb (ix2 p q) := by
      funext a; apply Fin.ext
      match a with
      | ⟨0, _⟩ => show win7_1.index t (0 : Fin 2) * 5000 + 1 * p.val = win7_3.index t (0 : Fin 2) * 5000 + 1 * p.val; omega
      | ⟨1, _⟩ => show win7_1.index t (1 : Fin 2) * 64 + 1 * q.val = win7_3.index t (1 : Fin 2) * 64 + 1 * q.val; omega
    have h2 : ((cfg7.win 2).blk t).view.emb (ix2 (0 : Fin 1) q) = brow (((cfg7.win 3).blk t).view.emb (ix2 p q)) := by
      funext a; apply Fin.ext
      match a with
      | ⟨0, _⟩ => show win7_2.index t (0 : Fin 2) * 1 + 1 * 0 = 0; omega
      | ⟨1, _⟩ => show win7_2.index t (1 : Fin 2) * 64 + 1 * q.val = win7_3.index t (1 : Fin 2) * 64 + 1 * q.val; omega
    have r0 : (iblk7 V c 0 t : S5000x64.Idx → EReal) (ix2 p q)
        = (V c main_v116 : S100000x64.Idx → EReal) (((cfg7.win 3).blk t).view.emb (ix2 p q)) :=
      congrArg (V c main_v116 : S100000x64.Idx → EReal) h0
    have r1 : (iblk7 V c 1 t : S5000x64.Idx → EReal) (ix2 p q)
        = (V c main_v119 : S100000x64.Idx → EReal) (((cfg7.win 3).blk t).view.emb (ix2 p q)) :=
      congrArg (V c main_v119 : S100000x64.Idx → EReal) h1
    have r2 : (iblk7 V c 2 t : S1x64.Idx → EReal) (ix2 (0 : Fin 1) q)
        = (V c main_v120 : S1x64.Idx → EReal) (brow (((cfg7.win 3).blk t).view.emb (ix2 p q))) :=
      congrArg (V c main_v120 : S1x64.Idx → EReal) h2
    rw [r0, r1, r2]
  exact funext key

/-- An index of the array is in point t's block iff each coordinate is in the block's range on its axis. -/
theorem relu7_mem_block (t : Fin cfg7.N) (i : S100000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole main_v121).slice (win7_3.rect t)).set ↔ _
  rw [View.set_slice_whole, Rect.mem_set_unit]
  exact Iff.rfl

/-- The 20 blocks tile the array: row r is in the block of point r / 5000. -/
theorem relu7_blocks_cover (i : S100000x64.Idx) :
    ∃ t : Fin cfg7.N, (cfg7.win 3).flush t = true ∧ i ∈ ((cfg7.win 3).blk t).view.set := by
  have hi0 : (i 0).val < 100000 := (i 0).isLt
  have hi1 : (i 1).val < 64 := (i 1).isLt
  obtain ⟨t, ht⟩ := relu7_blocks_onto ⟨(i 0).val / 5000, by omega⟩ ⟨(i 1).val / 64, by omega⟩
  have q0 : win7_3.index t (0 : Fin 2) = (i 0).val / 5000 := congrFun ht 0
  have q1 : win7_3.index t (1 : Fin 2) = (i 1).val / 64 := congrFun ht 1
  refine ⟨t, flush7_3 t, ?_⟩
  rw [relu7_mem_block]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 64 ≤ (i 1).val ∧ (i 1).val < win7_3.index t (1 : Fin 2) * 64 + 64; omega

/-- The array region 7 leaves: that function of the arrays it found, at every index. -/
theorem final7 (c : Dev nD) : (Gen.dat7 (F := Ideal) V c).arrAt 3 cfg7.N
    = combine (V c main_v116) (V c main_v119) (V c main_v120) :=
  (dat7 V c).arrAt_eq_of_cover 3 _ (fun t _ => relu7_block_written V c t) relu7_blocks_cover

end Cert.KernelIdeal.RegVal

end
-- ==== Proof.RegBn2.lean ====
/-
  The scale-and-shift step (region 2) read as one array. Every entry of the [100000, 64] input is multiplied by
  the entry of the [1, 64] scale row in its column and the entry of the [1, 64] shift row in its column is added.
  Each of the grid's 20 points computes one block of 5000 consecutive rows; the 20 blocks tile the array, so the
  array the region leaves is that function at every index.
-/
import proofs.«122425_j82325933130190_1_alg».proof.Proof.Gen.KernelIdeal.Frame
import proofs.«122425_j82325933130190_1_alg».proof.Proof.RegIdx
import Idealize.ShloMosaic.Lib.Pipeline.Value
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body reads and writes whole blocks: its rectangles sit at offset zero on both axes. -/
theorem bn2_offsets_zero : (![0, 0] : Fin 2 → Nat) = fun _ => 0 := funext fun a => by fin_cases a <;> rfl

/-- The body's result at entry (p, q) of a block: the input entry times the scale row's entry in column q, plus
    the shift row's entry in column q (the two rows are spread over the block's 5000 rows). -/
theorem bn2_payload_apply (x : Vec Ideal S5000x64 .f32) (s b : Vec Ideal S1x64 .f32) (p : Fin 5000) (q : Fin 64) :
    k2_pay1 x s b (ix2 p q) = x (ix2 p q) * s (ix2 (0 : Fin 1) q) + b (ix2 (0 : Fin 1) q) := by
  unfold k2_pay1
  simp only [shapeCast_self]
  rw [addf_apply, mulf_apply, broadcastTo_1b_ab_apply, broadcastTo_1b_ab_apply]

/-- The index maps over the 20 points: the input's block moves with the output's block, the two rows are always
    read whole at block (0, 0), and the output's block is one of the 20 row blocks, in column block 0. -/
theorem bn2_index_maps : ∀ t : Fin cfg2.N, win2_0.index t (0 : Fin 2) = win2_3.index t (0 : Fin 2)
    ∧ win2_0.index t (1 : Fin 2) = win2_3.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 19 ∧ win2_3.index t (1 : Fin 2) = 0 :=
  (by decide +kernel : ∀ t : Fin grid2.N, _)

/-- Every one of the 20 row blocks is some point's output block. -/
theorem bn2_blocks_onto : ∀ (q0 : Fin 20) (q1 : Fin 1), ∃ t : Fin cfg2.N, win2_3.index t = ![q0.val, q1.val] :=
  (by decide +kernel : ∀ (q0 : Fin 20) (q1 : Fin 1), ∃ t : Fin grid2.N, win2_3.index t = ![q0.val, q1.val])

/-- What point t writes back is block t of the whole-array function. -/
theorem bn2_block_written (c : Dev nD) (t : Fin cfg2.N) :
    (dat2 (F := Ideal) V c).flushed 3 t = ((cfg2.win 3).blk t).view.read (Elt Ideal)
      (affine (V c main_v45) (V c main_v62) (V c main_v63)) := by
  show (cfg2.win 3).cut (grid2.coords t) ((dat2 V c).after 3 t) = _
  rw [after2_3]
  unfold out2_3
  rw [View.canon_unit_zero bn2_offsets_zero]
  simp only [View.ld_unit_zero (S := S5000x64) bn2_offsets_zero, View.ld_unit_zero (S := S1x64) bn2_offsets_zero]
  obtain ⟨e0, e1, e2, e3, e4, e5, e6, e7⟩ := bn2_index_maps t
  have key : ∀ j : S5000x64.Idx, k2_pay1 (iblk2 V c 0 t) (iblk2 V c 1 t) (iblk2 V c 2 t) j
      = affine (V c main_v45) (V c main_v62) (V c main_v63) (((cfg2.win 3).blk t).view.emb j) := by
    intro j
    obtain ⟨p, q, rfl⟩ : ∃ (p : Fin 5000) (q : Fin 64), j = ix2 p q := ⟨j 0, j 1, eq_ix2 j⟩
    refine (bn2_payload_apply _ _ _ p q).trans ?_
    have h0 : ((cfg2.win 0).blk t).view.emb (ix2 p q) = ((cfg2.win 3).blk t).view.emb (ix2 p q) := by
      funext a; apply Fin.ext
      match a with
      | ⟨0, _⟩ => show win2_0.index t (0 : Fin 2) * 5000 + 1 * p.val = win2_3.index t (0 : Fin 2) * 5000 + 1 * p.val; omega
      | ⟨1, _⟩ => show win2_0.index t (1 : Fin 2) * 64 + 1 * q.val = win2_3.index t (1 : Fin 2) * 64 + 1 * q.val; omega
    have h1 : ((cfg2.win 1).blk t).view.emb (ix2 (0 : Fin 1) q) = brow (((cfg2.win 3).blk t).view.emb (ix2 p q)) := by
      funext a; apply Fin.ext
      match a with
      | ⟨0, _⟩ => show win2_1.index t (0 : Fin 2) * 1 + 1 * 0 = 0; omega
      | ⟨1, _⟩ => show win2_1.index t (1 : Fin 2) * 64 + 1 * q.val = win2_3.index t (1 : Fin 2) * 64 + 1 * q.val; omega
    have h2 : ((cfg2.win 2).blk t).view.emb (ix2 (0 : Fin 1) q) = brow (((cfg2.win 3).blk t).view.emb (ix2 p q)) := by
      funext a; apply Fin.ext
      match a with
      | ⟨0, _⟩ => show win2_2.index t (0 : Fin 2) * 1 + 1 * 0 = 0; omega
      | ⟨1, _⟩ => show win2_2.index t (1 : Fin 2) * 64 + 1 * q.val = win2_3.index t (1 : Fin 2) * 64 + 1 * q.val; omega
    have r0 : (iblk2 V c 0 t : S5000x64.Idx → EReal) (ix2 p q)
        = (V c main_v45 : S100000x64.Idx → EReal) (((cfg2.win 3).blk t).view.emb (ix2 p q)) :=
      congrArg (V c main_v45 : S100000x64.Idx → EReal) h0
    have r1 : (iblk2 V c 1 t : S1x64.Idx → EReal) (ix2 (0 : Fin 1) q)
        = (V c main_v62 : S1x64.Idx → EReal) (brow (((cfg2.win 3).blk t).view.emb (ix2 p q))) :=
      congrArg (V c main_v62 : S1x64.Idx → EReal) h1
    have r2 : (iblk2 V c 2 t : S1x64.Idx → EReal) (ix2 (0 : Fin 1) q)
        = (V c main_v63 : S1x64.Idx → EReal) (brow (((cfg2.win 3).blk t).view.emb (ix2 p q))) :=
      congrArg (V c main_v63 : S1x64.Idx → EReal) h2
    rw [r0, r1, r2]
  exact funext key

/-- An index of the array is in point t's block iff each coordinate is in the block's range on its axis. -/
theorem bn2_mem_block (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v64).slice (win2_3.rect t)).set ↔ _
  rw [View.set_slice_whole, Rect.mem_set_unit]
  exact Iff.rfl

/-- The 20 blocks tile the array: row r is in the block of point r / 5000. -/
theorem bn2_blocks_cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := bn2_blocks_onto ⟨(i 0).val / 5000, by omega⟩ ⟨(i 1).val / 64, by omega⟩
  have q0 : win2_3.index t (0 : Fin 2) = (i 0).val / 5000 := congrFun ht 0
  have q1 : win2_3.index t (1 : Fin 2) = (i 1).val / 64 := congrFun ht 1
  refine ⟨t, flush2_3 t, ?_⟩
  rw [bn2_mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The array region 2 leaves: the scale-and-shift of the arrays it found, at every index. -/
theorem final2 (c : Dev nD) : (Gen.dat2 (F := Ideal) V c).arrAt 3 cfg2.N
    = affine (V c main_v45) (V c main_v62) (V c main_v63) :=
  (dat2 V c).arrAt_eq_of_cover 3 _ (fun t _ => bn2_block_written V c t) bn2_blocks_cover

end Cert.KernelIdeal.RegVal

end
-- ==== Proof.RegBn5.lean ====
/-
  The scale-and-shift step (region 5) read as one array. Every entry of the [100000, 64] input is multiplied by
  the entry of the [1, 64] scale row in its column and the entry of the [1, 64] shift row in its column is added.
  Each of the grid's 20 points computes one block of 5000 consecutive rows; the 20 blocks tile the array, so the
  array the region leaves is that function at every index.
-/
import proofs.«122425_j82325933130190_1_alg».proof.Proof.Gen.KernelIdeal.Frame
import proofs.«122425_j82325933130190_1_alg».proof.Proof.RegIdx
import Idealize.ShloMosaic.Lib.Pipeline.Value
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body reads and writes whole blocks: its rectangles sit at offset zero on both axes. -/
theorem bn5_offsets_zero : (![0, 0] : Fin 2 → Nat) = fun _ => 0 := funext fun a => by fin_cases a <;> rfl

/-- The body's result at entry (p, q) of a block: the input entry times the scale row's entry in column q, plus
    the shift row's entry in column q (the two rows are spread over the block's 5000 rows). -/
theorem bn5_payload_apply (x : Vec Ideal S5000x64 .f32) (s b : Vec Ideal S1x64 .f32) (p : Fin 5000) (q : Fin 64) :
    k5_pay1 x s b (ix2 p q) = x (ix2 p q) * s (ix2 (0 : Fin 1) q) + b (ix2 (0 : Fin 1) q) := by
  unfold k5_pay1
  simp only [shapeCast_self]
  rw [addf_apply, mulf_apply, broadcastTo_1b_ab_apply, broadcastTo_1b_ab_apply]

/-- The index maps over the 20 points: the input's block moves with the output's block, the two rows are always
    read whole at block (0, 0), and the output's block is one of the 20 row blocks, in column block 0. -/
theorem bn5_index_maps : ∀ t : Fin cfg5.N, win5_0.index t (0 : Fin 2) = win5_3.index t (0 : Fin 2)
    ∧ win5_0.index t (1 : Fin 2) = win5_3.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) ≤ 19 ∧ win5_3.index t (1 : Fin 2) = 0 :=
  (by decide +kernel : ∀ t : Fin grid5.N, _)

/-- Every one of the 20 row blocks is some point's output block. -/
theorem bn5_blocks_onto : ∀ (q0 : Fin 20) (q1 : Fin 1), ∃ t : Fin cfg5.N, win5_3.index t = ![q0.val, q1.val] :=
  (by decide +kernel : ∀ (q0 : Fin 20) (q1 : Fin 1), ∃ t : Fin grid5.N, win5_3.index t = ![q0.val, q1.val])

/-- What point t writes back is block t of the whole-array function. -/
theorem bn5_block_written (c : Dev nD) (t : Fin cfg5.N) :
    (dat5 (F := Ideal) V c).flushed 3 t = ((cfg5.win 3).blk t).view.read (Elt Ideal)
      (affine (V c main_v83) (V c main_v100) (V c main_v101)) := by
  show (cfg5.win 3).cut (grid5.coords t) ((dat5 V c).after 3 t) = _
  rw [after5_3]
  unfold out5_3
  rw [View.canon_unit_zero bn5_offsets_zero]
  simp only [View.ld_unit_zero (S := S5000x64) bn5_offsets_zero, View.ld_unit_zero (S := S1x64) bn5_offsets_zero]
  obtain ⟨e0, e1, e2, e3, e4, e5, e6, e7⟩ := bn5_index_maps t
  have key : ∀ j : S5000x64.Idx, k5_pay1 (iblk5 V c 0 t) (iblk5 V c 1 t) (iblk5 V c 2 t) j
      = affine (V c main_v83) (V c main_v100) (V c main_v101) (((cfg5.win 3).blk t).view.emb j) := by
    intro j
    obtain ⟨p, q, rfl⟩ : ∃ (p : Fin 5000) (q : Fin 64), j = ix2 p q := ⟨j 0, j 1, eq_ix2 j⟩
    refine (bn5_payload_apply _ _ _ p q).trans ?_
    have h0 : ((cfg5.win 0).blk t).view.emb (ix2 p q) = ((cfg5.win 3).blk t).view.emb (ix2 p q) := by
      funext a; apply Fin.ext
      match a with
      | ⟨0, _⟩ => show win5_0.index t (0 : Fin 2) * 5000 + 1 * p.val = win5_3.index t (0 : Fin 2) * 5000 + 1 * p.val; omega
      | ⟨1, _⟩ => show win5_0.index t (1 : Fin 2) * 64 + 1 * q.val = win5_3.index t (1 : Fin 2) * 64 + 1 * q.val; omega
    have h1 : ((cfg5.win 1).blk t).view.emb (ix2 (0 : Fin 1) q) = brow (((cfg5.win 3).blk t).view.emb (ix2 p q)) := by
      funext a; apply Fin.ext
      match a with
      | ⟨0, _⟩ => show win5_1.index t (0 : Fin 2) * 1 + 1 * 0 = 0; omega
      | ⟨1, _⟩ => show win5_1.index t (1 : Fin 2) * 64 + 1 * q.val = win5_3.index t (1 : Fin 2) * 64 + 1 * q.val; omega
    have h2 : ((cfg5.win 2).blk t).view.emb (ix2 (0 : Fin 1) q) = brow (((cfg5.win 3).blk t).view.emb (ix2 p q)) := by
      funext a; apply Fin.ext
      match a with
      | ⟨0, _⟩ => show win5_2.index t (0 : Fin 2) * 1 + 1 * 0 = 0; omega
      | ⟨1, _⟩ => show win5_2.index t (1 : Fin 2) * 64 + 1 * q.val = win5_3.index t (1 : Fin 2) * 64 + 1 * q.val; omega
    have r0 : (iblk5 V c 0 t : S5000x64.Idx → EReal) (ix2 p q)
        = (V c main_v83 : S100000x64.Idx → EReal) (((cfg5.win 3).blk t).view.emb (ix2 p q)) :=
      congrArg (V c main_v83 : S100000x64.Idx → EReal) h0
    have r1 : (iblk5 V c 1 t : S1x64.Idx → EReal) (ix2 (0 : Fin 1) q)
        = (V c main_v100 : S1x64.Idx → EReal) (brow (((cfg5.win 3).blk t).view.emb (ix2 p q))) :=
      congrArg (V c main_v100 : S1x64.Idx → EReal) h1
    have r2 : (iblk5 V c 2 t : S1x64.Idx → EReal) (ix2 (0 : Fin 1) q)
        = (V c main_v101 : S1x64.Idx → EReal) (brow (((cfg5.win 3).blk t).view.emb (ix2 p q))) :=
      congrArg (V c main_v101 : S1x64.Idx → EReal) h2
    rw [r0, r1, r2]
  exact funext key

/-- An index of the array is in point t's block iff each coordinate is in the block's range on its axis. -/
theorem bn5_mem_block (t : Fin cfg5.N) (i : S100000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v102).slice (win5_3.rect t)).set ↔ _
  rw [View.set_slice_whole, Rect.mem_set_unit]
  exact Iff.rfl

/-- The 20 blocks tile the array: row r is in the block of point r / 5000. -/
theorem bn5_blocks_cover (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  obtain ⟨t, ht⟩ := bn5_blocks_onto ⟨(i 0).val / 5000, by omega⟩ ⟨(i 1).val / 64, by omega⟩
  have q0 : win5_3.index t (0 : Fin 2) = (i 0).val / 5000 := congrFun ht 0
  have q1 : win5_3.index t (1 : Fin 2) = (i 1).val / 64 := congrFun ht 1
  refine ⟨t, flush5_3 t, ?_⟩
  rw [bn5_mem_block]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- The array region 5 leaves: the scale-and-shift of the arrays it found, at every index. -/
theorem final5 (c : Dev nD) : (Gen.dat5 (F := Ideal) V c).arrAt 3 cfg5.N
    = affine (V c main_v83) (V c main_v100) (V c main_v101) :=
  (dat5 V c).arrAt_eq_of_cover 3 _ (fun t _ => bn5_block_written V c t) bn5_blocks_cover

end Cert.KernelIdeal.RegVal

end
-- ==== Proof.KFold.lean ====
/-
  The kernel program's result, read back through its fifteen segment boundaries to the reference's last stage.
  At each boundary the buffers that later segments read are identified with stages of the reference applied to the
  launch contents of the argument arrays: a stretch of host operations turns stages into later stages (the same tree of
  operations on both sides); a matrix-product region leaves the reference's contraction; a combine region leaves the
  reference's additions, bias broadcast and relu; a normalisation region leaves the reference's normalised array — the
  one place where the two programs spell the arithmetic differently, joined by the law for a relu's output and a real
  scale. At the last boundary the result buffer holds the reference's last stage of the arguments.
-/
import proofs.«122425_j82325933130190_1_alg».proof.Proof.KHost
import proofs.«122425_j82325933130190_1_alg».proof.Proof.Bridge
import proofs.«122425_j82325933130190_1_alg».proof.Proof.BnConsts
import proofs.«122425_j82325933130190_1_alg».proof.Proof.RegMatmul0
import proofs.«122425_j82325933130190_1_alg».proof.Proof.RegMatmul3
import proofs.«122425_j82325933130190_1_alg».proof.Proof.RegMatmul6
import proofs.«122425_j82325933130190_1_alg».proof.Proof.RegRelu1
import proofs.«122425_j82325933130190_1_alg».proof.Proof.RegRelu4
import proofs.«122425_j82325933130190_1_alg».proof.Proof.RegRelu7
import proofs.«122425_j82325933130190_1_alg».proof.Proof.RegBn2
import proofs.«122425_j82325933130190_1_alg».proof.Proof.RegBn5

set_option maxRecDepth 16384

noncomputable section

namespace Cert.KernelIdeal.Fold

open Cert.KernelIdeal Cert.KernelIdeal.Gen Cert.KernelIdeal.RegVal
open Idealize.ShloMosaic Idealize.ShloMosaic.TcCoe Idealize.ShloMosaic.StableHlo
open Idealize.SL Idealize.SL.Sem

/-- Equal operands, equal products / combines / affine maps. -/
theorem matProd_congr {X X' : Vec Ideal S100000x64 .f32} {W W' : Vec Ideal S64x64 .f32} (hX : X = X') (hW : W = W') :
    matProd X W = matProd X' W' := by subst hX hW; rfl
theorem combine_congr {A A' S S' : Vec Ideal S100000x64 .f32} {b b' : Vec Ideal S1x64 .f32} (hA : A = A') (hS : S = S') (hb : b = b') :
    combine A S b = combine A' S' b' := by subst hA hS hb; rfl
theorem affine_congr {X X' : Vec Ideal S100000x64 .f32} {s s' t t' : Vec Ideal S1x64 .f32} (hX : X = X') (hs : s = s') (ht : t = t') :
    affine X s t = affine X' s' t' := by subst hX hs ht; rfl

variable (m : (ℓ : Loc nD τ sig) → Buf (Elt Ideal) ℓ) (ρ : Dev nD → PrngReg)
variable (hg : ∀ (c : Dev nD) (j : S64.Idx), ∃ g : ℝ, (m ((c : Thread nD τ).loc main_arg9) : S64.Idx → EReal) j = (g : EReal))
variable (c : Dev nD)

/-! ### The first stretch -/

theorem w1_src : W1 m ρ c (Proc.devRef .tc main_v1) = Cert.ReferenceIdeal.ReadP.val_main_v1 (F := Ideal) (m ((c : Thread nD τ).loc main_arg1)) := hostOps0_src (W0 m ρ c)
theorem w1_dst : W1 m ρ c (Proc.devRef .tc main_v3) = Cert.ReferenceIdeal.ReadP.val_main_v3 (F := Ideal) (m ((c : Thread nD τ).loc main_arg1)) := hostOps0_dst (W0 m ρ c)
theorem w1_norm : W1 m ρ c (Proc.devRef .tc main_v25) = Cert.ReferenceIdeal.ReadP.val_main_v26 (F := Ideal) (m ((c : Thread nD τ).loc main_arg1)) := hostOps0_norm (W0 m ρ c)
theorem w1_dinv2 : W1 m ρ c (Proc.devRef .tc main_v26) = Cert.ReferenceIdeal.ReadP.val_main_v40 (F := Ideal) (m ((c : Thread nD τ).loc main_arg1)) := hostOps0_dinv2 (W0 m ρ c)

/-! ### The first layer: product, messages, combine -/

theorem w2_prod : W2 m ρ c (Proc.devRef .tc main_v27) = Cert.ReferenceIdeal.ReadP.val_main_v11 (F := Ideal) (m ((c : Thread nD τ).loc main_arg0)) (m ((c : Thread nD τ).loc main_arg3)) :=
  (W2_arr m ρ c 2).trans ((RegVal.final0 (V1 m ρ) c).trans
    ((matProd_congr (at_arg0_1 m ρ c) (at_arg3_1 m ρ c)).trans ((Cert.Bridge.matProd_eq _ _).trans rfl)))

theorem w3_agg : W3 m ρ c (Proc.devRef .tc main_v40) = Cert.ReferenceIdeal.ReadP.val_main_v39 (F := Ideal) (m ((c : Thread nD τ).loc main_arg0)) (m ((c : Thread nD τ).loc main_arg1)) (m ((c : Thread nD τ).loc main_arg3)) :=
  hostOps1_agg (W2 m ρ c) ((keep_v1_1_2 m ρ c).trans (w1_src m ρ c)) ((keep_v3_1_2 m ρ c).trans (w1_dst m ρ c))
    ((keep_v25_1_2 m ρ c).trans (w1_norm m ρ c)) ((keep_v26_1_2 m ρ c).trans (w1_dinv2 m ρ c))
    (w2_prod m ρ c)

theorem w3_self : W3 m ρ c (Proc.devRef .tc main_v43) = Cert.ReferenceIdeal.ReadP.val_main_v43 (F := Ideal) (m ((c : Thread nD τ).loc main_arg0)) (m ((c : Thread nD τ).loc main_arg1)) (m ((c : Thread nD τ).loc main_arg3)) :=
  hostOps1_self (W2 m ρ c) ((keep_v1_1_2 m ρ c).trans (w1_src m ρ c)) ((keep_v3_1_2 m ρ c).trans (w1_dst m ρ c))
    ((keep_v25_1_2 m ρ c).trans (w1_norm m ρ c)) ((keep_v26_1_2 m ρ c).trans (w1_dinv2 m ρ c))
    (w2_prod m ρ c)

theorem w3_bias : W3 m ρ c (Proc.devRef .tc main_v44) = shapeCast S1x64 (m ((c : Thread nD τ).loc main_arg4)) shapeCasts_S64_S1x64 :=
  hostOps1_bias (W2 m ρ c) (at_arg4_2 m ρ c)

theorem w4_out : W4 m ρ c (Proc.devRef .tc main_v45) = Cert.ReferenceIdeal.ReadP.val_main_v48 (F := Ideal) (m ((c : Thread nD τ).loc main_arg0)) (m ((c : Thread nD τ).loc main_arg1)) (m ((c : Thread nD τ).loc main_arg3)) (m ((c : Thread nD τ).loc main_arg4)) :=
  (W4_arr m ρ c 3).trans ((RegVal.final1 (V3 m ρ) c).trans
    ((combine_congr (w3_agg m ρ c) (w3_self m ρ c) (w3_bias m ρ c)).trans ((Cert.Bridge.combine_eq _ _ _).trans rfl)))

include hg

/-! ### The first normalisation: column statistics on the host, the affine map in the region -/

theorem w5_scale : W5 m ρ c (Proc.devRef .tc main_v62) = (shapeCast S1x64 (mulf (F := Ideal) (φ := .f32) (m ((c : Thread nD τ).loc main_arg9)) (Cert.ReferenceIdeal.ReadP.val_main_v64 (F := Ideal) (m ((c : Thread nD τ).loc main_arg0)) (m ((c : Thread nD τ).loc main_arg1)) (m ((c : Thread nD τ).loc main_arg3)) (m ((c : Thread nD τ).loc main_arg4)))) shapeCasts_S64_S1x64 : Vec Ideal S1x64 .f32) :=
  hostOps2_scale (W4 m ρ c) (w4_out m ρ c) (at_arg9_4 m ρ c)

theorem w5_shift : W5 m ρ c (Proc.devRef .tc main_v63) = (shapeCast S1x64 (subf (F := Ideal) (φ := .f32) (m ((c : Thread nD τ).loc main_arg10)) (mulf (F := Ideal) (φ := .f32) (Cert.ReferenceIdeal.ReadP.val_main_v51 (F := Ideal) (m ((c : Thread nD τ).loc main_arg0)) (m ((c : Thread nD τ).loc main_arg1)) (m ((c : Thread nD τ).loc main_arg3)) (m ((c : Thread nD τ).loc main_arg4))) (mulf (F := Ideal) (φ := .f32) (m ((c : Thread nD τ).loc main_arg9)) (Cert.ReferenceIdeal.ReadP.val_main_v64 (F := Ideal) (m ((c : Thread nD τ).loc main_arg0)) (m ((c : Thread nD τ).loc main_arg1)) (m ((c : Thread nD τ).loc main_arg3)) (m ((c : Thread nD τ).loc main_arg4)))))) shapeCasts_S64_S1x64 : Vec Ideal S1x64 .f32) :=
  hostOps2_shift (W4 m ρ c) (w4_out m ρ c) (at_arg9_4 m ρ c) (at_arg10_4 m ρ c)

theorem w5_out : W5 m ρ c (Proc.devRef .tc main_v45) = Cert.ReferenceIdeal.ReadP.val_main_v48 (F := Ideal) (m ((c : Thread nD τ).loc main_arg0)) (m ((c : Thread nD τ).loc main_arg1)) (m ((c : Thread nD τ).loc main_arg3)) (m ((c : Thread nD τ).loc main_arg4)) :=
  (hostOps2_keeps_out (W4 m ρ c)).trans (w4_out m ρ c)

theorem w6_out : W6 m ρ c (Proc.devRef .tc main_v64) = Cert.ReferenceIdeal.ReadP.val_main_v73 (F := Ideal) (m ((c : Thread nD τ).loc main_arg0)) (m ((c : Thread nD τ).loc main_arg1)) (m ((c : Thread nD τ).loc main_arg3)) (m ((c : Thread nD τ).loc main_arg4)) (m ((c : Thread nD τ).loc main_arg9)) (m ((c : Thread nD τ).loc main_arg10)) := by
  obtain ⟨e, hepos, he⟩ := Cert.BnConsts.ofBits_eps
  exact (W6_arr m ρ c 3).trans ((RegVal.final2 (V5 m ρ) c).trans
    ((affine_congr (w5_out m ρ hg c) (w5_scale m ρ hg c) (w5_shift m ρ hg c)).trans
      (Cert.Bridge.bn1_eq (m ((c : Thread nD τ).loc main_arg0)) (m ((c : Thread nD τ).loc main_arg1)) (m ((c : Thread nD τ).loc main_arg3)) (m ((c : Thread nD τ).loc main_arg4)) (m ((c : Thread nD τ).loc main_arg9)) (m ((c : Thread nD τ).loc main_arg10)) Cert.BnConsts.ofBits_count (by norm_num) he hepos (hg c))))

/-! ### The second layer: product, messages, combine -/

theorem w7_prod : W7 m ρ c (Proc.devRef .tc main_v65) = Cert.ReferenceIdeal.ReadP.val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) :=
  (W7_arr m ρ c 2).trans ((RegVal.final3 (V6 m ρ) c).trans
    ((matProd_congr (w6_out m ρ hg c) (at_arg5_6 m ρ c)).trans ((Cert.Bridge.matProd_eq _ _).trans rfl)))

theorem w8_agg : W8 m ρ c (Proc.devRef .tc main_v78) = Cert.ReferenceIdeal.ReadP.val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) :=
  hostOps4_agg (W7 m ρ c) ((keep_v1_1_7 m ρ c).trans (w1_src m ρ c)) ((keep_v3_1_7 m ρ c).trans (w1_dst m ρ c))
    ((keep_v25_1_7 m ρ c).trans (w1_norm m ρ c)) ((keep_v26_1_7 m ρ c).trans (w1_dinv2 m ρ c))
    (w7_prod m ρ hg c)

theorem w8_self : W8 m ρ c (Proc.devRef .tc main_v81) = Cert.ReferenceIdeal.ReadP.val_main_v106 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) :=
  hostOps4_self (W7 m ρ c) ((keep_v1_1_7 m ρ c).trans (w1_src m ρ c)) ((keep_v3_1_7 m ρ c).trans (w1_dst m ρ c))
    ((keep_v25_1_7 m ρ c).trans (w1_norm m ρ c)) ((keep_v26_1_7 m ρ c).trans (w1_dinv2 m ρ c))
    (w7_prod m ρ hg c)

theorem w8_bias : W8 m ρ c (Proc.devRef .tc main_v82) = shapeCast S1x64 (m ((c : Thread nD τ).loc main_arg6)) shapeCasts_S64_S1x64 :=
  hostOps4_bias (W7 m ρ c) (at_arg6_7 m ρ c)

theorem w9_out : W9 m ρ c (Proc.devRef .tc main_v83) = Cert.ReferenceIdeal.ReadP.val_main_v111 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) :=
  (W9_arr m ρ c 3).trans ((RegVal.final4 (V8 m ρ) c).trans
    ((combine_congr (w8_agg m ρ hg c) (w8_self m ρ hg c) (w8_bias m ρ hg c)).trans ((Cert.Bridge.combine_eq _ _ _).trans rfl)))

/-! ### The second normalisation: column statistics on the host, the affine map in the region -/

theorem w10_scale : W10 m ρ c (Proc.devRef .tc main_v100) = (shapeCast S1x64 (mulf (F := Ideal) (φ := .f32) (m ((c : Thread nD τ).loc main_arg9)) (Cert.ReferenceIdeal.ReadP.val_main_v127 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)))) shapeCasts_S64_S1x64 : Vec Ideal S1x64 .f32) :=
  hostOps5_scale (W9 m ρ c)  (w9_out m ρ hg c) (at_arg9_9 m ρ c)

theorem w10_shift : W10 m ρ c (Proc.devRef .tc main_v101) = (shapeCast S1x64 (subf (F := Ideal) (φ := .f32) (m ((c : Thread nD τ).loc main_arg10)) (mulf (F := Ideal) (φ := .f32) (Cert.ReferenceIdeal.ReadP.val_main_v114 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) (mulf (F := Ideal) (φ := .f32) (m ((c : Thread nD τ).loc main_arg9)) (Cert.ReferenceIdeal.ReadP.val_main_v127 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)))))) shapeCasts_S64_S1x64 : Vec Ideal S1x64 .f32) :=
  hostOps5_shift (W9 m ρ c) (w9_out m ρ hg c) (at_arg9_9 m ρ c) (at_arg10_9 m ρ c)

theorem w10_out : W10 m ρ c (Proc.devRef .tc main_v83) = Cert.ReferenceIdeal.ReadP.val_main_v111 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) :=
  (hostOps5_keeps_out (W9 m ρ c)).trans (w9_out m ρ hg c)

theorem w11_out : W11 m ρ c (Proc.devRef .tc main_v102) = Cert.ReferenceIdeal.ReadP.val_main_v136 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  obtain ⟨e, hepos, he⟩ := Cert.BnConsts.ofBits_eps
  exact (W11_arr m ρ c 3).trans ((RegVal.final5 (V10 m ρ) c).trans
    ((affine_congr (w10_out m ρ hg c) (w10_scale m ρ hg c) (w10_shift m ρ hg c)).trans
      (Cert.Bridge.bn2_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) Cert.BnConsts.ofBits_count (by norm_num) he hepos (hg c))))

/-! ### The third layer: product, messages, combine -/

theorem w12_prod : W12 m ρ c (Proc.devRef .tc main_v103) = Cert.ReferenceIdeal.ReadP.val_main_v137 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) :=
  (W12_arr m ρ c 2).trans ((RegVal.final6 (V11 m ρ) c).trans
    ((matProd_congr (w11_out m ρ hg c) (at_arg7_11 m ρ c)).trans ((Cert.Bridge.matProd_eq _ _).trans rfl)))

theorem w13_agg : W13 m ρ c (Proc.devRef .tc main_v116) = Cert.ReferenceIdeal.ReadP.val_main_v165 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) :=
  hostOps7_agg (W12 m ρ c) ((keep_v1_1_12 m ρ c).trans (w1_src m ρ c)) ((keep_v3_1_12 m ρ c).trans (w1_dst m ρ c))
    ((keep_v25_1_12 m ρ c).trans (w1_norm m ρ c)) ((keep_v26_1_12 m ρ c).trans (w1_dinv2 m ρ c))
    (w12_prod m ρ hg c)

theorem w13_self : W13 m ρ c (Proc.devRef .tc main_v119) = Cert.ReferenceIdeal.ReadP.val_main_v169 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) :=
  hostOps7_self (W12 m ρ c) ((keep_v1_1_12 m ρ c).trans (w1_src m ρ c)) ((keep_v3_1_12 m ρ c).trans (w1_dst m ρ c))
    ((keep_v25_1_12 m ρ c).trans (w1_norm m ρ c)) ((keep_v26_1_12 m ρ c).trans (w1_dinv2 m ρ c))
    (w12_prod m ρ hg c)

theorem w13_bias : W13 m ρ c (Proc.devRef .tc main_v120) = shapeCast S1x64 (m ((c : Thread nD τ).loc main_arg8)) shapeCasts_S64_S1x64 :=
  hostOps7_bias (W12 m ρ c) (at_arg8_12 m ρ c)

theorem w14_out : W14 m ρ c (Proc.devRef .tc main_v121) = Cert.ReferenceIdeal.ReadP.val_main_v174 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W14_arr m ρ c 3).trans ((RegVal.final7 (V13 m ρ) c).trans
    ((combine_congr (w13_agg m ρ hg c) (w13_self m ρ hg c) (w13_bias m ρ hg c)).trans ((Cert.Bridge.combine_eq _ _ _).trans rfl)))

/-! ### The last stretch -/

/-- THE KERNEL'S RESULT: at the last boundary the result buffer holds the reference's last stage of the launch
    contents of the argument arrays. -/
theorem result : W15 m ρ c (Proc.devRef .tc main_v137) = Cert.ReferenceIdeal.ReadP.val_main_v190 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  hostOps8_out (W14 m ρ c) (w14_out m ρ hg c) (at_arg2_14 m ρ c) (at_arg11_14 m ρ c) (at_arg12_14 m ρ c)

end Cert.KernelIdeal.Fold

end
-- ==== Proof.RefSeg.lean ====
/-
  The reference program's line of 235 host operations, cut into seven segments: the edge lists and inverse
  square-root degrees; each of the three layers from its matrix product to its relu; each of the two normalisations;
  the pooling and the classifier. The line is the segments one after the other, and running two lines one after the
  other is running the second from what the first leaves.
-/
import proofs.«122425_j82325933130190_1_alg».proof.Proof.RefOps
import proofs.«122425_j82325933130190_1_alg».proof.Proof.RefRead

set_option maxRecDepth 16384

noncomputable section

namespace Cert.ReferenceIdeal.RunP

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-! ## The line in seven segments -/

section Line

variable {F : FTy → Type} [FloatOps F]

/-- Operations 0 … 13 of the line. -/
abbrev T1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)) ]

/-- Operations 14 … 60 of the line. -/
abbrev T2 : List (HloOp τ sig (Elt F)) :=
  [ binary main_arg0 main_arg3 main_v11 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v10 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v19 (broadcastInDim S1600000 ![] bcast_S_S1600000 : (⟨S_, .i32⟩ : BufTy).Contents (Elt F) → (⟨S1600000, .i32⟩ : BufTy).Contents (Elt F)),
    binary main_v3 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v21 (broadcastInDim S1600000 ![] bcast_S_S1600000 : (⟨S_, .i32⟩ : BufTy).Contents (Elt F) → (⟨S1600000, .i32⟩ : BufTy).Contents (Elt F)),
    binary main_v3 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v10 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v18 main_v25 main_v26 (mulf : (⟨S1600000, .f32⟩ : BufTy).Contents (Elt F) → (⟨S1600000, .f32⟩ : BufTy).Contents (Elt F) → (⟨S1600000, .f32⟩ : BufTy).Contents (Elt F)),
    nullary main_c_5 (constantI S_ 32 0#32),
    unary main_c_5 main_v27 (broadcastInDim S1600000 ![] bcast_S_S1600000 : (⟨S_, .i32⟩ : BufTy).Contents (Elt F) → (⟨S1600000, .i32⟩ : BufTy).Contents (Elt F)),
    binary main_v1 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v29 (broadcastInDim S1600000 ![] bcast_S_S1600000 : (⟨S_, .i32⟩ : BufTy).Contents (Elt F) → (⟨S1600000, .i32⟩ : BufTy).Contents (Elt F)),
    binary main_v1 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_v11 main_v32 main_v33 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v26 main_v34 (broadcastInDim S1600000x1 ![0] bcast_S1600000_S1600000x1_0 : (⟨S1600000, .f32⟩ : BufTy).Contents (Elt F) → (⟨S1600000x1, .f32⟩ : BufTy).Contents (Elt F)),
    unary main_v34 main_v35 (broadcastInDim S1600000x64 ![0, 1] bcast_S1600000x1_S1600000x64_0_1 : (⟨S1600000x1, .f32⟩ : BufTy).Contents (Elt F) → (⟨S1600000x64, .f32⟩ : BufTy).Contents (Elt F)),
    binary main_v33 main_v35 main_v36 (mulf : (⟨S1600000x64, .f32⟩ : BufTy).Contents (Elt F) → (⟨S1600000x64, .f32⟩ : BufTy).Contents (Elt F) → (⟨S1600000x64, .f32⟩ : BufTy).Contents (Elt F)),
    nullary main_cst_7 (constant S_ .f32 0x00000000#32),
    unary main_cst_7 main_v37 (broadcastInDim S100000x64 ![] bcast_S_S100000x64 : (⟨S_, .f32⟩ : BufTy).Contents (Elt F) → (⟨S100000x64, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v10 main_v10 main_v40 (mulf : (⟨S100000, .f32⟩ : BufTy).Contents (Elt F) → (⟨S100000, .f32⟩ : BufTy).Contents (Elt F) → (⟨S100000, .f32⟩ : BufTy).Contents (Elt F)),
    unary main_v40 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x64 ![0, 1] bcast_S100000x1_S100000x64_0_1 : (⟨S100000x1, .f32⟩ : BufTy).Contents (Elt F) → (⟨S100000x64, .f32⟩ : BufTy).Contents (Elt F)),
    binary main_v11 main_v42 main_v43 (mulf : (⟨S100000x64, .f32⟩ : BufTy).Contents (Elt F) → (⟨S100000x64, .f32⟩ : BufTy).Contents (Elt F) → (⟨S100000x64, .f32⟩ : BufTy).Contents (Elt F)),
    binary main_v39 main_v43 main_v44 (addf : (⟨S100000x64, .f32⟩ : BufTy).Contents (Elt F) → (⟨S100000x64, .f32⟩ : BufTy).Contents (Elt F) → (⟨S100000x64, .f32⟩ : BufTy).Contents (Elt F)),
    unary main_arg4 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v44 main_v46 main_v47 (addf : (⟨S100000x64, .f32⟩ : BufTy).Contents (Elt F) → (⟨S100000x64, .f32⟩ : BufTy).Contents (Elt F) → (⟨S100000x64, .f32⟩ : BufTy).Contents (Elt F)),
    nullary main_call0_cst (constant S_ .f32 0x00000000#32),
    unary main_call0_cst main_call0_v0 ((broadcastInDim S100000x64 ![] bcast_S_S100000x64) : (⟨S_, .f32⟩ : BufTy).Contents (Elt F) → (⟨S100000x64, .f32⟩ : BufTy).Contents (Elt F)),
    binary main_v47 main_call0_v0 main_v48 (maximumf : (⟨S100000x64, .f32⟩ : BufTy).Contents (Elt F) → (⟨S100000x64, .f32⟩ : BufTy).Contents (Elt F) → (⟨S100000x64, .f32⟩ : BufTy).Contents (Elt F)) ]

/-- Operations 61 … 90 of the line. -/
abbrev T3 : List (HloOp τ sig (Elt F)) :=
  [ nullary main_cst_8 (constant S_ .f32 0x00000000#32),
    binary main_v48 main_cst_8 main_v49 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_9 (constant S_ .f32 0x47C35000#32),
    unary main_cst_9 main_v50 (broadcastInDim S64 ![] bcast_S_S64 : (⟨S_, .f32⟩ : BufTy).Contents (Elt F) → (⟨S64, .f32⟩ : BufTy).Contents (Elt F)),
    binary main_v49 main_v50 main_v51 (Host.divf : (⟨S64, .f32⟩ : BufTy).Contents (Elt F) → (⟨S64, .f32⟩ : BufTy).Contents (Elt F) → (⟨S64, .f32⟩ : BufTy).Contents (Elt F)),
    unary main_v51 main_v52 (broadcastInDim S1x64 ![1] bcast_S64_S1x64_1 : (⟨S64, .f32⟩ : BufTy).Contents (Elt F) → (⟨S1x64, .f32⟩ : BufTy).Contents (Elt F)),
    unary main_v52 main_v53 (broadcastInDim S100000x64 ![0, 1] bcast_S1x64_S100000x64_0_1 : (⟨S1x64, .f32⟩ : BufTy).Contents (Elt F) → (⟨S100000x64, .f32⟩ : BufTy).Contents (Elt F)),
    binary main_v48 main_v53 main_v54 (subf : (⟨S100000x64, .f32⟩ : BufTy).Contents (Elt F) → (⟨S100000x64, .f32⟩ : BufTy).Contents (Elt F) → (⟨S100000x64, .f32⟩ : BufTy).Contents (Elt F)),
    binary main_v54 main_v54 main_v55 (mulf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x00000000#32),
    binary main_v55 main_cst_10 main_v56 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_11 (constant S_ .f32 0x47C35000#32),
    unary main_cst_11 main_v57 (broadcastInDim S64 ![] bcast_S_S64 : (⟨S_, .f32⟩ : BufTy).Contents (Elt F) → (⟨S64, .f32⟩ : BufTy).Contents (Elt F)),
    binary main_v56 main_v57 main_v58 (Host.divf : (⟨S64, .f32⟩ : BufTy).Contents (Elt F) → (⟨S64, .f32⟩ : BufTy).Contents (Elt F) → (⟨S64, .f32⟩ : BufTy).Contents (Elt F)),
    unary main_v51 main_v59 (broadcastInDim S1x64 ![1] bcast_S64_S1x64_1 : (⟨S64, .f32⟩ : BufTy).Contents (Elt F) → (⟨S1x64, .f32⟩ : BufTy).Contents (Elt F)),
    unary main_v59 main_v60 (broadcastInDim S100000x64 ![0, 1] bcast_S1x64_S100000x64_0_1 : (⟨S1x64, .f32⟩ : BufTy).Contents (Elt F) → (⟨S100000x64, .f32⟩ : BufTy).Contents (Elt F)),
    binary main_v48 main_v60 main_v61 (subf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x3727C5AC#32),
    unary main_cst_12 main_v62 (broadcastInDim S64 ![] bcast_S_S64 : (⟨S_, .f32⟩ : BufTy).Contents (Elt F) → (⟨S64, .f32⟩ : BufTy).Contents (Elt F)),
    binary main_v58 main_v62 main_v63 (addf : (⟨S64, .f32⟩ : BufTy).Contents (Elt F) → (⟨S64, .f32⟩ : BufTy).Contents (Elt F) → (⟨S64, .f32⟩ : BufTy).Contents (Elt F)),
    unary main_v63 main_v64 (Host.rsqrt : (⟨S64, .f32⟩ : BufTy).Contents (Elt F) → (⟨S64, .f32⟩ : BufTy).Contents (Elt F)),
    unary main_v64 main_v65 (broadcastInDim S1x64 ![1] bcast_S64_S1x64_1 : (⟨S64, .f32⟩ : BufTy).Contents (Elt F) → (⟨S1x64, .f32⟩ : BufTy).Contents (Elt F)),
    unary main_v65 main_v66 (broadcastInDim S100000x64 ![0, 1] bcast_S1x64_S100000x64_0_1 : (⟨S1x64, .f32⟩ : BufTy).Contents (Elt F) → (⟨S100000x64, .f32⟩ : BufTy).Contents (Elt F)),
    binary main_v61 main_v66 main_v67 (mulf : (⟨S100000x64, .f32⟩ : BufTy).Contents (Elt F) → (⟨S100000x64, .f32⟩ : BufTy).Contents (Elt F) → (⟨S100000x64, .f32⟩ : BufTy).Contents (Elt F)),
    unary main_arg9 main_v68 (broadcastInDim S1x64 ![1] bcast_S64_S1x64_1 : (⟨S64, .f32⟩ : BufTy).Contents (Elt F) → (⟨S1x64, .f32⟩ : BufTy).Contents (Elt F)),
    unary main_v68 main_v69 (broadcastInDim S100000x64 ![0, 1] bcast_S1x64_S100000x64_0_1 : (⟨S1x64, .f32⟩ : BufTy).Contents (Elt F) → (⟨S100000x64, .f32⟩ : BufTy).Contents (Elt F)),
    binary main_v67 main_v69 main_v70 (mulf : (⟨S100000x64, .f32⟩ : BufTy).Contents (Elt F) → (⟨S100000x64, .f32⟩ : BufTy).Contents (Elt F) → (⟨S100000x64, .f32⟩ : BufTy).Contents (Elt F)),
    unary main_arg10 main_v71 (broadcastInDim S1x64 ![1] bcast_S64_S1x64_1 : (⟨S64, .f32⟩ : BufTy).Contents (Elt F) → (⟨S1x64, .f32⟩ : BufTy).Contents (Elt F)),
    unary main_v71 main_v72 (broadcastInDim S100000x64 ![0, 1] bcast_S1x64_S100000x64_0_1 : (⟨S1x64, .f32⟩ : BufTy).Contents (Elt F) → (⟨S100000x64, .f32⟩ : BufTy).Contents (Elt F)),
    binary main_v70 main_v72 main_v73 (addf : (⟨S100000x64, .f32⟩ : BufTy).Contents (Elt F) → (⟨S100000x64, .f32⟩ : BufTy).Contents (Elt F) → (⟨S100000x64, .f32⟩ : BufTy).Contents (Elt F)) ]

/-- Operations 91 … 137 of the line. -/
abbrev T4 : List (HloOp τ sig (Elt F)) :=
  [ binary main_v73 main_arg5 main_v74 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_13 (constantI S_ 32 0#32),
    unary main_c_13 main_v75 (broadcastInDim S1600000 ![] bcast_S_S1600000 : (⟨S_, .i32⟩ : BufTy).Contents (Elt F) → (⟨S1600000, .i32⟩ : BufTy).Contents (Elt F)),
    binary main_v1 main_v75 main_v76 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v77 (broadcastInDim S1600000 ![] bcast_S_S1600000 : (⟨S_, .i32⟩ : BufTy).Contents (Elt F) → (⟨S1600000, .i32⟩ : BufTy).Contents (Elt F)),
    binary main_v1 main_v77 main_v78 (addi : (⟨S1600000, .i32⟩ : BufTy).Contents (Elt F) → (⟨S1600000, .i32⟩ : BufTy).Contents (Elt F) → (⟨S1600000, .i32⟩ : BufTy).Contents (Elt F)),
    ternary main_v76 main_v78 main_v1 main_v79 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v79 main_v80 (broadcastInDim S1600000x1 ![0] bcast_S1600000_S1600000x1_0 : (⟨S1600000, .i32⟩ : BufTy).Contents (Elt F) → (⟨S1600000x1, .i32⟩ : BufTy).Contents (Elt F)),
    binary main_v10 main_v80 main_v81 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_15 (constantI S_ 32 0#32),
    unary main_c_15 main_v82 (broadcastInDim S1600000 ![] bcast_S_S1600000 : (⟨S_, .i32⟩ : BufTy).Contents (Elt F) → (⟨S1600000, .i32⟩ : BufTy).Contents (Elt F)),
    binary main_v3 main_v82 main_v83 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v84 (broadcastInDim S1600000 ![] bcast_S_S1600000 : (⟨S_, .i32⟩ : BufTy).Contents (Elt F) → (⟨S1600000, .i32⟩ : BufTy).Contents (Elt F)),
    binary main_v3 main_v84 main_v85 (addi : (⟨S1600000, .i32⟩ : BufTy).Contents (Elt F) → (⟨S1600000, .i32⟩ : BufTy).Contents (Elt F) → (⟨S1600000, .i32⟩ : BufTy).Contents (Elt F)),
    ternary main_v83 main_v85 main_v3 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v86 main_v87 (broadcastInDim S1600000x1 ![0] bcast_S1600000_S1600000x1_0 : (⟨S1600000, .i32⟩ : BufTy).Contents (Elt F) → (⟨S1600000x1, .i32⟩ : BufTy).Contents (Elt F)),
    binary main_v10 main_v87 main_v88 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v81 main_v88 main_v89 (mulf : (⟨S1600000, .f32⟩ : BufTy).Contents (Elt F) → (⟨S1600000, .f32⟩ : BufTy).Contents (Elt F) → (⟨S1600000, .f32⟩ : BufTy).Contents (Elt F)),
    nullary main_c_17 (constantI S_ 32 0#32),
    unary main_c_17 main_v90 (broadcastInDim S1600000 ![] bcast_S_S1600000 : (⟨S_, .i32⟩ : BufTy).Contents (Elt F) → (⟨S1600000, .i32⟩ : BufTy).Contents (Elt F)),
    binary main_v1 main_v90 main_v91 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v92 (broadcastInDim S1600000 ![] bcast_S_S1600000 : (⟨S_, .i32⟩ : BufTy).Contents (Elt F) → (⟨S1600000, .i32⟩ : BufTy).Contents (Elt F)),
    binary main_v1 main_v92 main_v93 (addi : (⟨S1600000, .i32⟩ : BufTy).Contents (Elt F) → (⟨S1600000, .i32⟩ : BufTy).Contents (Elt F) → (⟨S1600000, .i32⟩ : BufTy).Contents (Elt F)),
    ternary main_v91 main_v93 main_v1 main_v94 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v94 main_v95 (broadcastInDim S1600000x1 ![0] bcast_S1600000_S1600000x1_0 : (⟨S1600000, .i32⟩ : BufTy).Contents (Elt F) → (⟨S1600000x1, .i32⟩ : BufTy).Contents (Elt F)),
    binary main_v74 main_v95 main_v96 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v89 main_v97 (broadcastInDim S1600000x1 ![0] bcast_S1600000_S1600000x1_0 : (⟨S1600000, .f32⟩ : BufTy).Contents (Elt F) → (⟨S1600000x1, .f32⟩ : BufTy).Contents (Elt F)),
    unary main_v97 main_v98 (broadcastInDim S1600000x64 ![0, 1] bcast_S1600000x1_S1600000x64_0_1 : (⟨S1600000x1, .f32⟩ : BufTy).Contents (Elt F) → (⟨S1600000x64, .f32⟩ : BufTy).Contents (Elt F)),
    binary main_v96 main_v98 main_v99 (mulf : (⟨S1600000x64, .f32⟩ : BufTy).Contents (Elt F) → (⟨S1600000x64, .f32⟩ : BufTy).Contents (Elt F) → (⟨S1600000x64, .f32⟩ : BufTy).Contents (Elt F)),
    nullary main_cst_19 (constant S_ .f32 0x00000000#32),
    unary main_cst_19 main_v100 (broadcastInDim S100000x64 ![] bcast_S_S100000x64 : (⟨S_, .f32⟩ : BufTy).Contents (Elt F) → (⟨S100000x64, .f32⟩ : BufTy).Contents (Elt F)),
    unary main_v3 main_v101 (broadcastInDim S1600000x1 ![0] bcast_S1600000_S1600000x1_0 : (⟨S1600000, .i32⟩ : BufTy).Contents (Elt F) → (⟨S1600000x1, .i32⟩ : BufTy).Contents (Elt F)),
    ternary main_v100 main_v101 main_v99 main_v102 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v10 main_v10 main_v103 (mulf : (⟨S100000, .f32⟩ : BufTy).Contents (Elt F) → (⟨S100000, .f32⟩ : BufTy).Contents (Elt F) → (⟨S100000, .f32⟩ : BufTy).Contents (Elt F)),
    unary main_v103 main_v104 (broadcastInDim S100000x1 ![0] bcast_S100000_S100000x1_0 : (⟨S100000, .f32⟩ : BufTy).Contents (Elt F) → (⟨S100000x1, .f32⟩ : BufTy).Contents (Elt F)),
    unary main_v104 main_v105 (broadcastInDim S100000x64 ![0, 1] bcast_S100000x1_S100000x64_0_1 : (⟨S100000x1, .f32⟩ : BufTy).Contents (Elt F) → (⟨S100000x64, .f32⟩ : BufTy).Contents (Elt F)),
    binary main_v74 main_v105 main_v106 (mulf : (⟨S100000x64, .f32⟩ : BufTy).Contents (Elt F) → (⟨S100000x64, .f32⟩ : BufTy).Contents (Elt F) → (⟨S100000x64, .f32⟩ : BufTy).Contents (Elt F)),
    binary main_v102 main_v106 main_v107 (addf : (⟨S100000x64, .f32⟩ : BufTy).Contents (Elt F) → (⟨S100000x64, .f32⟩ : BufTy).Contents (Elt F) → (⟨S100000x64, .f32⟩ : BufTy).Contents (Elt F)),
    unary main_arg6 main_v108 (broadcastInDim S1x64 ![1] bcast_S64_S1x64_1 : (⟨S64, .f32⟩ : BufTy).Contents (Elt F) → (⟨S1x64, .f32⟩ : BufTy).Contents (Elt F)),
    unary main_v108 main_v109 (broadcastInDim S100000x64 ![0, 1] bcast_S1x64_S100000x64_0_1 : (⟨S1x64, .f32⟩ : BufTy).Contents (Elt F) → (⟨S100000x64, .f32⟩ : BufTy).Contents (Elt F)),
    binary main_v107 main_v109 main_v110 (addf : (⟨S100000x64, .f32⟩ : BufTy).Contents (Elt F) → (⟨S100000x64, .f32⟩ : BufTy).Contents (Elt F) → (⟨S100000x64, .f32⟩ : BufTy).Contents (Elt F)),
    nullary main_call1_cst (constant S_ .f32 0x00000000#32),
    unary main_call1_cst main_call1_v0 ((broadcastInDim S100000x64 ![] bcast_S_S100000x64) : (⟨S_, .f32⟩ : BufTy).Contents (Elt F) → (⟨S100000x64, .f32⟩ : BufTy).Contents (Elt F)),
    binary main_v110 main_call1_v0 main_v111 (maximumf : (⟨S100000x64, .f32⟩ : BufTy).Contents (Elt F) → (⟨S100000x64, .f32⟩ : BufTy).Contents (Elt F) → (⟨S100000x64, .f32⟩ : BufTy).Contents (Elt F)) ]

/-- Operations 138 … 167 of the line. -/
abbrev T5 : List (HloOp τ sig (Elt F)) :=
  [ nullary main_cst_20 (constant S_ .f32 0x00000000#32),
    binary main_v111 main_cst_20 main_v112 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_21 (constant S_ .f32 0x47C35000#32),
    unary main_cst_21 main_v113 (broadcastInDim S64 ![] bcast_S_S64 : (⟨S_, .f32⟩ : BufTy).Contents (Elt F) → (⟨S64, .f32⟩ : BufTy).Contents (Elt F)),
    binary main_v112 main_v113 main_v114 (Host.divf : (⟨S64, .f32⟩ : BufTy).Contents (Elt F) → (⟨S64, .f32⟩ : BufTy).Contents (Elt F) → (⟨S64, .f32⟩ : BufTy).Contents (Elt F)),
    unary main_v114 main_v115 (broadcastInDim S1x64 ![1] bcast_S64_S1x64_1 : (⟨S64, .f32⟩ : BufTy).Contents (Elt F) → (⟨S1x64, .f32⟩ : BufTy).Contents (Elt F)),
    unary main_v115 main_v116 (broadcastInDim S100000x64 ![0, 1] bcast_S1x64_S100000x64_0_1 : (⟨S1x64, .f32⟩ : BufTy).Contents (Elt F) → (⟨S100000x64, .f32⟩ : BufTy).Contents (Elt F)),
    binary main_v111 main_v116 main_v117 (subf : (⟨S100000x64, .f32⟩ : BufTy).Contents (Elt F) → (⟨S100000x64, .f32⟩ : BufTy).Contents (Elt F) → (⟨S100000x64, .f32⟩ : BufTy).Contents (Elt F)),
    binary main_v117 main_v117 main_v118 (mulf : (⟨S100000x64, .f32⟩ : BufTy).Contents (Elt F) → (⟨S100000x64, .f32⟩ : BufTy).Contents (Elt F) → (⟨S100000x64, .f32⟩ : BufTy).Contents (Elt F)),
    nullary main_cst_22 (constant S_ .f32 0x00000000#32),
    binary main_v118 main_cst_22 main_v119 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_23 (constant S_ .f32 0x47C35000#32),
    unary main_cst_23 main_v120 (broadcastInDim S64 ![] bcast_S_S64 : (⟨S_, .f32⟩ : BufTy).Contents (Elt F) → (⟨S64, .f32⟩ : BufTy).Contents (Elt F)),
    binary main_v119 main_v120 main_v121 (Host.divf : (⟨S64, .f32⟩ : BufTy).Contents (Elt F) → (⟨S64, .f32⟩ : BufTy).Contents (Elt F) → (⟨S64, .f32⟩ : BufTy).Contents (Elt F)),
    unary main_v114 main_v122 (broadcastInDim S1x64 ![1] bcast_S64_S1x64_1 : (⟨S64, .f32⟩ : BufTy).Contents (Elt F) → (⟨S1x64, .f32⟩ : BufTy).Contents (Elt F)),
    unary main_v122 main_v123 (broadcastInDim S100000x64 ![0, 1] bcast_S1x64_S100000x64_0_1 : (⟨S1x64, .f32⟩ : BufTy).Contents (Elt F) → (⟨S100000x64, .f32⟩ : BufTy).Contents (Elt F)),
    binary main_v111 main_v123 main_v124 (subf : (⟨S100000x64, .f32⟩ : BufTy).Contents (Elt F) → (⟨S100000x64, .f32⟩ : BufTy).Contents (Elt F) → (⟨S100000x64, .f32⟩ : BufTy).Contents (Elt F)),
    nullary main_cst_24 (constant S_ .f32 0x3727C5AC#32),
    unary main_cst_24 main_v125 (broadcastInDim S64 ![] bcast_S_S64 : (⟨S_, .f32⟩ : BufTy).Contents (Elt F) → (⟨S64, .f32⟩ : BufTy).Contents (Elt F)),
    binary main_v121 main_v125 main_v126 (addf : (⟨S64, .f32⟩ : BufTy).Contents (Elt F) → (⟨S64, .f32⟩ : BufTy).Contents (Elt F) → (⟨S64, .f32⟩ : BufTy).Contents (Elt F)),
    unary main_v126 main_v127 (Host.rsqrt : (⟨S64, .f32⟩ : BufTy).Contents (Elt F) → (⟨S64, .f32⟩ : BufTy).Contents (Elt F)),
    unary main_v127 main_v128 (broadcastInDim S1x64 ![1] bcast_S64_S1x64_1 : (⟨S64, .f32⟩ : BufTy).Contents (Elt F) → (⟨S1x64, .f32⟩ : BufTy).Contents (Elt F)),
    unary main_v128 main_v129 (broadcastInDim S100000x64 ![0, 1] bcast_S1x64_S100000x64_0_1 : (⟨S1x64, .f32⟩ : BufTy).Contents (Elt F) → (⟨S100000x64, .f32⟩ : BufTy).Contents (Elt F)),
    binary main_v124 main_v129 main_v130 (mulf : (⟨S100000x64, .f32⟩ : BufTy).Contents (Elt F) → (⟨S100000x64, .f32⟩ : BufTy).Contents (Elt F) → (⟨S100000x64, .f32⟩ : BufTy).Contents (Elt F)),
    unary main_arg9 main_v131 (broadcastInDim S1x64 ![1] bcast_S64_S1x64_1 : (⟨S64, .f32⟩ : BufTy).Contents (Elt F) → (⟨S1x64, .f32⟩ : BufTy).Contents (Elt F)),
    unary main_v131 main_v132 (broadcastInDim S100000x64 ![0, 1] bcast_S1x64_S100000x64_0_1 : (⟨S1x64, .f32⟩ : BufTy).Contents (Elt F) → (⟨S100000x64, .f32⟩ : BufTy).Contents (Elt F)),
    binary main_v130 main_v132 main_v133 (mulf : (⟨S100000x64, .f32⟩ : BufTy).Contents (Elt F) → (⟨S100000x64, .f32⟩ : BufTy).Contents (Elt F) → (⟨S100000x64, .f32⟩ : BufTy).Contents (Elt F)),
    unary main_arg10 main_v134 (broadcastInDim S1x64 ![1] bcast_S64_S1x64_1 : (⟨S64, .f32⟩ : BufTy).Contents (Elt F) → (⟨S1x64, .f32⟩ : BufTy).Contents (Elt F)),
    unary main_v134 main_v135 (broadcastInDim S100000x64 ![0, 1] bcast_S1x64_S100000x64_0_1 : (⟨S1x64, .f32⟩ : BufTy).Contents (Elt F) → (⟨S100000x64, .f32⟩ : BufTy).Contents (Elt F)),
    binary main_v133 main_v135 main_v136 (addf : (⟨S100000x64, .f32⟩ : BufTy).Contents (Elt F) → (⟨S100000x64, .f32⟩ : BufTy).Contents (Elt F) → (⟨S100000x64, .f32⟩ : BufTy).Contents (Elt F)) ]

/-- Operations 168 … 214 of the line. -/
abbrev T6 : List (HloOp τ sig (Elt F)) :=
  [ binary main_v136 main_arg7 main_v137 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_25 (constantI S_ 32 0#32),
    unary main_c_25 main_v138 (broadcastInDim S1600000 ![] bcast_S_S1600000 : (⟨S_, .i32⟩ : BufTy).Contents (Elt F) → (⟨S1600000, .i32⟩ : BufTy).Contents (Elt F)),
    binary main_v1 main_v138 main_v139 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 100000#32),
    unary main_c_26 main_v140 (broadcastInDim S1600000 ![] bcast_S_S1600000 : (⟨S_, .i32⟩ : BufTy).Contents (Elt F) → (⟨S1600000, .i32⟩ : BufTy).Contents (Elt F)),
    binary main_v1 main_v140 main_v141 (addi : (⟨S1600000, .i32⟩ : BufTy).Contents (Elt F) → (⟨S1600000, .i32⟩ : BufTy).Contents (Elt F) → (⟨S1600000, .i32⟩ : BufTy).Contents (Elt F)),
    ternary main_v139 main_v141 main_v1 main_v142 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v142 main_v143 (broadcastInDim S1600000x1 ![0] bcast_S1600000_S1600000x1_0 : (⟨S1600000, .i32⟩ : BufTy).Contents (Elt F) → (⟨S1600000x1, .i32⟩ : BufTy).Contents (Elt F)),
    binary main_v10 main_v143 main_v144 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_27 (constantI S_ 32 0#32),
    unary main_c_27 main_v145 (broadcastInDim S1600000 ![] bcast_S_S1600000 : (⟨S_, .i32⟩ : BufTy).Contents (Elt F) → (⟨S1600000, .i32⟩ : BufTy).Contents (Elt F)),
    binary main_v3 main_v145 main_v146 (cmpi .slt : (⟨S1600000, .i32⟩ : BufTy).Contents (Elt F) → (⟨S1600000, .i32⟩ : BufTy).Contents (Elt F) → (⟨S1600000, .i1⟩ : BufTy).Contents (Elt F)),
    nullary main_c_28 (constantI S_ 32 100000#32),
    unary main_c_28 main_v147 (broadcastInDim S1600000 ![] bcast_S_S1600000 : (⟨S_, .i32⟩ : BufTy).Contents (Elt F) → (⟨S1600000, .i32⟩ : BufTy).Contents (Elt F)),
    binary main_v3 main_v147 main_v148 (addi : (⟨S1600000, .i32⟩ : BufTy).Contents (Elt F) → (⟨S1600000, .i32⟩ : BufTy).Contents (Elt F) → (⟨S1600000, .i32⟩ : BufTy).Contents (Elt F)),
    ternary main_v146 main_v148 main_v3 main_v149 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v149 main_v150 (broadcastInDim S1600000x1 ![0] bcast_S1600000_S1600000x1_0 : (⟨S1600000, .i32⟩ : BufTy).Contents (Elt F) → (⟨S1600000x1, .i32⟩ : BufTy).Contents (Elt F)),
    binary main_v10 main_v150 main_v151 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v144 main_v151 main_v152 (mulf : (⟨S1600000, .f32⟩ : BufTy).Contents (Elt F) → (⟨S1600000, .f32⟩ : BufTy).Contents (Elt F) → (⟨S1600000, .f32⟩ : BufTy).Contents (Elt F)),
    nullary main_c_29 (constantI S_ 32 0#32),
    unary main_c_29 main_v153 (broadcastInDim S1600000 ![] bcast_S_S1600000 : (⟨S_, .i32⟩ : BufTy).Contents (Elt F) → (⟨S1600000, .i32⟩ : BufTy).Contents (Elt F)),
    binary main_v1 main_v153 main_v154 (cmpi .slt : (⟨S1600000, .i32⟩ : BufTy).Contents (Elt F) → (⟨S1600000, .i32⟩ : BufTy).Contents (Elt F) → (⟨S1600000, .i1⟩ : BufTy).Contents (Elt F)),
    nullary main_c_30 (constantI S_ 32 100000#32),
    unary main_c_30 main_v155 (broadcastInDim S1600000 ![] bcast_S_S1600000 : (⟨S_, .i32⟩ : BufTy).Contents (Elt F) → (⟨S1600000, .i32⟩ : BufTy).Contents (Elt F)),
    binary main_v1 main_v155 main_v156 (addi : (⟨S1600000, .i32⟩ : BufTy).Contents (Elt F) → (⟨S1600000, .i32⟩ : BufTy).Contents (Elt F) → (⟨S1600000, .i32⟩ : BufTy).Contents (Elt F)),
    ternary main_v154 main_v156 main_v1 main_v157 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v157 main_v158 (broadcastInDim S1600000x1 ![0] bcast_S1600000_S1600000x1_0 : (⟨S1600000, .i32⟩ : BufTy).Contents (Elt F) → (⟨S1600000x1, .i32⟩ : BufTy).Contents (Elt F)),
    binary main_v137 main_v158 main_v159 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v152 main_v160 (broadcastInDim S1600000x1 ![0] bcast_S1600000_S1600000x1_0 : (⟨S1600000, .f32⟩ : BufTy).Contents (Elt F) → (⟨S1600000x1, .f32⟩ : BufTy).Contents (Elt F)),
    unary main_v160 main_v161 (broadcastInDim S1600000x64 ![0, 1] bcast_S1600000x1_S1600000x64_0_1 : (⟨S1600000x1, .f32⟩ : BufTy).Contents (Elt F) → (⟨S1600000x64, .f32⟩ : BufTy).Contents (Elt F)),
    binary main_v159 main_v161 main_v162 (mulf : (⟨S1600000x64, .f32⟩ : BufTy).Contents (Elt F) → (⟨S1600000x64, .f32⟩ : BufTy).Contents (Elt F) → (⟨S1600000x64, .f32⟩ : BufTy).Contents (Elt F)),
    nullary main_cst_31 (constant S_ .f32 0x00000000#32),
    unary main_cst_31 main_v163 (broadcastInDim S100000x64 ![] bcast_S_S100000x64 : (⟨S_, .f32⟩ : BufTy).Contents (Elt F) → (⟨S100000x64, .f32⟩ : BufTy).Contents (Elt F)),
    unary main_v3 main_v164 (broadcastInDim S1600000x1 ![0] bcast_S1600000_S1600000x1_0 : (⟨S1600000, .i32⟩ : BufTy).Contents (Elt F) → (⟨S1600000x1, .i32⟩ : BufTy).Contents (Elt F)),
    ternary main_v163 main_v164 main_v162 main_v165 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v10 main_v10 main_v166 (mulf : (⟨S100000, .f32⟩ : BufTy).Contents (Elt F) → (⟨S100000, .f32⟩ : BufTy).Contents (Elt F) → (⟨S100000, .f32⟩ : BufTy).Contents (Elt F)),
    unary main_v166 main_v167 (broadcastInDim S100000x1 ![0] bcast_S100000_S100000x1_0 : (⟨S100000, .f32⟩ : BufTy).Contents (Elt F) → (⟨S100000x1, .f32⟩ : BufTy).Contents (Elt F)),
    unary main_v167 main_v168 (broadcastInDim S100000x64 ![0, 1] bcast_S100000x1_S100000x64_0_1 : (⟨S100000x1, .f32⟩ : BufTy).Contents (Elt F) → (⟨S100000x64, .f32⟩ : BufTy).Contents (Elt F)),
    binary main_v137 main_v168 main_v169 (mulf : (⟨S100000x64, .f32⟩ : BufTy).Contents (Elt F) → (⟨S100000x64, .f32⟩ : BufTy).Contents (Elt F) → (⟨S100000x64, .f32⟩ : BufTy).Contents (Elt F)),
    binary main_v165 main_v169 main_v170 (addf : (⟨S100000x64, .f32⟩ : BufTy).Contents (Elt F) → (⟨S100000x64, .f32⟩ : BufTy).Contents (Elt F) → (⟨S100000x64, .f32⟩ : BufTy).Contents (Elt F)),
    unary main_arg8 main_v171 (broadcastInDim S1x64 ![1] bcast_S64_S1x64_1 : (⟨S64, .f32⟩ : BufTy).Contents (Elt F) → (⟨S1x64, .f32⟩ : BufTy).Contents (Elt F)),
    unary main_v171 main_v172 (broadcastInDim S100000x64 ![0, 1] bcast_S1x64_S100000x64_0_1 : (⟨S1x64, .f32⟩ : BufTy).Contents (Elt F) → (⟨S100000x64, .f32⟩ : BufTy).Contents (Elt F)),
    binary main_v170 main_v172 main_v173 (addf : (⟨S100000x64, .f32⟩ : BufTy).Contents (Elt F) → (⟨S100000x64, .f32⟩ : BufTy).Contents (Elt F) → (⟨S100000x64, .f32⟩ : BufTy).Contents (Elt F)),
    nullary main_call2_cst (constant S_ .f32 0x00000000#32),
    unary main_call2_cst main_call2_v0 ((broadcastInDim S100000x64 ![] bcast_S_S100000x64) : (⟨S_, .f32⟩ : BufTy).Contents (Elt F) → (⟨S100000x64, .f32⟩ : BufTy).Contents (Elt F)),
    binary main_v173 main_call2_v0 main_v174 (maximumf : (⟨S100000x64, .f32⟩ : BufTy).Contents (Elt F) → (⟨S100000x64, .f32⟩ : BufTy).Contents (Elt F) → (⟨S100000x64, .f32⟩ : BufTy).Contents (Elt F)) ]

/-- Operations 215 … 234 of the line. -/
abbrev T7 : List (HloOp τ sig (Elt F)) :=
  [ nullary main_cst_32 (constant S_ .f32 0x00000000#32),
    unary main_cst_32 main_v175 (broadcastInDim S64x64 ![] bcast_S_S64x64 : (⟨S_, .f32⟩ : BufTy).Contents (Elt F) → (⟨S64x64, .f32⟩ : BufTy).Contents (Elt F)),
    unary main_arg2 main_v176 (broadcastInDim S100000x1 ![0] bcast_S100000_S100000x1_0 : (⟨S100000, .i32⟩ : BufTy).Contents (Elt F) → (⟨S100000x1, .i32⟩ : BufTy).Contents (Elt F)),
    ternary main_v175 main_v176 main_v174 main_v177 ((fun x i u => Host.scatterAdd scatter_S64x64_S100000x1_S100000x64_1_0_0_1 x i u) : (⟨S64x64, .f32⟩ : BufTy).Contents (Elt F) → (⟨S100000x1, .i32⟩ : BufTy).Contents (Elt F) → (⟨S100000x64, .f32⟩ : BufTy).Contents (Elt F) → (⟨S64x64, .f32⟩ : BufTy).Contents (Elt F)),
    nullary main_cst_33 (constant S_ .f32 0x3F800000#32),
    unary main_cst_33 main_v178 (broadcastInDim S100000 ![] bcast_S_S100000 : (⟨S_, .f32⟩ : BufTy).Contents (Elt F) → (⟨S100000, .f32⟩ : BufTy).Contents (Elt F)),
    nullary main_cst_34 (constant S_ .f32 0x00000000#32),
    unary main_cst_34 main_v179 (broadcastInDim S64 ![] bcast_S_S64 : (⟨S_, .f32⟩ : BufTy).Contents (Elt F) → (⟨S64, .f32⟩ : BufTy).Contents (Elt F)),
    unary main_arg2 main_v180 (broadcastInDim S100000x1 ![0] bcast_S100000_S100000x1_0 : (⟨S100000, .i32⟩ : BufTy).Contents (Elt F) → (⟨S100000x1, .i32⟩ : BufTy).Contents (Elt F)),
    ternary main_v179 main_v180 main_v178 main_v181 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_35 (constant S_ .f32 0x3F800000#32),
    unary main_cst_35 main_v182 (broadcastInDim S64 ![] bcast_S_S64 : (⟨S_, .f32⟩ : BufTy).Contents (Elt F) → (⟨S64, .f32⟩ : BufTy).Contents (Elt F)),
    binary main_v181 main_v182 main_v183 (maximumf : (⟨S64, .f32⟩ : BufTy).Contents (Elt F) → (⟨S64, .f32⟩ : BufTy).Contents (Elt F) → (⟨S64, .f32⟩ : BufTy).Contents (Elt F)),
    unary main_v183 main_v184 (broadcastInDim S64x1 ![0] bcast_S64_S64x1_0 : (⟨S64, .f32⟩ : BufTy).Contents (Elt F) → (⟨S64x1, .f32⟩ : BufTy).Contents (Elt F)),
    unary main_v184 main_v185 (broadcastInDim S64x64 ![0, 1] bcast_S64x1_S64x64_0_1 : (⟨S64x1, .f32⟩ : BufTy).Contents (Elt F) → (⟨S64x64, .f32⟩ : BufTy).Contents (Elt F)),
    binary main_v177 main_v185 main_v186 (Host.divf : (⟨S64x64, .f32⟩ : BufTy).Contents (Elt F) → (⟨S64x64, .f32⟩ : BufTy).Contents (Elt F) → (⟨S64x64, .f32⟩ : BufTy).Contents (Elt F)),
    binary main_v186 main_arg11 main_v187 ((fun l r => Host.dotGeneral dot_S64x64_S64x8_S64x8_1_0_0_1_n_n none l r) : (⟨S64x64, .f32⟩ : BufTy).Contents (Elt F) → (⟨S64x8, .f32⟩ : BufTy).Contents (Elt F) → (⟨S64x8, .f32⟩ : BufTy).Contents (Elt F)),
    unary main_arg12 main_v188 (broadcastInDim S1x8 ![1] bcast_S8_S1x8_1 : (⟨S8, .f32⟩ : BufTy).Contents (Elt F) → (⟨S1x8, .f32⟩ : BufTy).Contents (Elt F)),
    unary main_v188 main_v189 (broadcastInDim S64x8 ![0, 1] bcast_S1x8_S64x8_0_1 : (⟨S1x8, .f32⟩ : BufTy).Contents (Elt F) → (⟨S64x8, .f32⟩ : BufTy).Contents (Elt F)),
    binary main_v187 main_v189 main_v190 (addf : (⟨S64x8, .f32⟩ : BufTy).Contents (Elt F) → (⟨S64x8, .f32⟩ : BufTy).Contents (Elt F) → (⟨S64x8, .f32⟩ : BufTy).Contents (Elt F)) ]

set_option maxHeartbeats 4000000 in
/-- The line is its seven segments, one after the other (the three operations of each relu are spelt in the segments
    with the plain builders; they are the same operations as the line's). -/
theorem ops_split : (ops : List (HloOp τ sig (Elt F))) = T1 ++ (T2 ++ (T3 ++ (T4 ++ (T5 ++ (T6 ++ T7))))) := rfl

/-- Two lines run one after the other: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Line

/-- A buffer that no operation of a segment writes holds after the segment what it held before. -/
macro "ref_keeps " ops:ident : term => `(StableHlo.after_of_forall_not_mem _ _ (List.forall_iff_forall_mem.mp (by
  simp only [$ops:ident, List.Forall, StableHlo.nullary_writes, StableHlo.unary_writes, StableHlo.binary_writes, StableHlo.ternary_writes, StableHlo.quaternary_writes, StableHlo.reshape_writes, StableHlo.binaryIndexed_writes, TRef.nullary, TRef.unary, TRef.binary, Finset.mem_singleton]
  repeat' apply And.intro
  all_goals exact StableHlo.devRef_ne_of_ne (by decide))))

end Cert.ReferenceIdeal.RunP

end
-- ==== Proof.RefStage.lean ====
/-
  Each segment of the reference's line against the reference's stages `val_main_vN` (one operation each, as functions
  of the argument arrays): once the buffers a segment reads hold stages of the arguments, the buffer it ends in holds
  the later stage — both sides are the same tree of operations.
-/
import proofs.«122425_j82325933130190_1_alg».proof.Proof.RefSeg

set_option maxRecDepth 16384

noncomputable section

namespace Cert.ReferenceIdeal.RunP

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-! ## Each segment against the stages -/

section Segments

variable (V : Valuation τ sig (Elt Ideal))
variable (a0 : (⟨S100000x64, .f32⟩ : BufTy).Contents (Elt Ideal)) (a1 : (⟨S2x1600000, .i32⟩ : BufTy).Contents (Elt Ideal))
  (a2 : (⟨S100000, .i32⟩ : BufTy).Contents (Elt Ideal))
  (a3 a5 a7 : (⟨S64x64, .f32⟩ : BufTy).Contents (Elt Ideal)) (a4 a6 a8 a9 a10 : (⟨S64, .f32⟩ : BufTy).Contents (Elt Ideal))
  (a11 : (⟨S64x8, .f32⟩ : BufTy).Contents (Elt Ideal)) (a12 : (⟨S8, .f32⟩ : BufTy).Contents (Elt Ideal))

theorem T1_src : after (T1 (F := Ideal)) V (Proc.devRef .tc main_v1) = val_main_v1 (F := Ideal) (V (Proc.devRef .tc main_arg1)) := by
  simp only [T1]; after_results_simp; rfl
theorem T1_dst : after (T1 (F := Ideal)) V (Proc.devRef .tc main_v3) = val_main_v3 (F := Ideal) (V (Proc.devRef .tc main_arg1)) := by
  simp only [T1]; after_results_simp; rfl
theorem T1_dinv : after (T1 (F := Ideal)) V (Proc.devRef .tc main_v10) = val_main_v10 (F := Ideal) (V (Proc.devRef .tc main_arg1)) := by
  simp only [T1]; after_results_simp; rfl

theorem T2_out (h1 : V (Proc.devRef .tc main_v1) = val_main_v1 (F := Ideal) a1) (h3 : V (Proc.devRef .tc main_v3) = val_main_v3 (F := Ideal) a1)
    (h10 : V (Proc.devRef .tc main_v10) = val_main_v10 (F := Ideal) a1) (ha0 : V (Proc.devRef .tc main_arg0) = a0)
    (ha3 : V (Proc.devRef .tc main_arg3) = a3) (ha4 : V (Proc.devRef .tc main_arg4) = a4) :
    after (T2 (F := Ideal)) V (Proc.devRef .tc main_v48) = val_main_v48 (F := Ideal) a0 a1 a3 a4 := by
  simp only [T2]; after_results_simp; rw [h1, h3, h10, ha0, ha3, ha4]; rfl

theorem T3_out (h48 : V (Proc.devRef .tc main_v48) = val_main_v48 (F := Ideal) a0 a1 a3 a4) (h9 : V (Proc.devRef .tc main_arg9) = a9)
    (hb : V (Proc.devRef .tc main_arg10) = a10) :
    after (T3 (F := Ideal)) V (Proc.devRef .tc main_v73) = val_main_v73 (F := Ideal) a0 a1 a3 a4 a9 a10 := by
  simp only [T3]; after_results_simp; rw [h48, h9, hb]; rfl

theorem T4_out (h73 : V (Proc.devRef .tc main_v73) = val_main_v73 (F := Ideal) a0 a1 a3 a4 a9 a10)
    (h1 : V (Proc.devRef .tc main_v1) = val_main_v1 (F := Ideal) a1) (h3 : V (Proc.devRef .tc main_v3) = val_main_v3 (F := Ideal) a1)
    (h10 : V (Proc.devRef .tc main_v10) = val_main_v10 (F := Ideal) a1)
    (ha5 : V (Proc.devRef .tc main_arg5) = a5) (ha6 : V (Proc.devRef .tc main_arg6) = a6) :
    after (T4 (F := Ideal)) V (Proc.devRef .tc main_v111) = val_main_v111 (F := Ideal) a0 a1 a3 a4 a5 a6 a9 a10 := by
  simp only [T4]; after_results_simp; rw [h73, h1, h3, h10, ha5, ha6]; rfl

theorem T5_out (h111 : V (Proc.devRef .tc main_v111) = val_main_v111 (F := Ideal) a0 a1 a3 a4 a5 a6 a9 a10) (h9 : V (Proc.devRef .tc main_arg9) = a9)
    (hb : V (Proc.devRef .tc main_arg10) = a10) :
    after (T5 (F := Ideal)) V (Proc.devRef .tc main_v136) = val_main_v136 (F := Ideal) a0 a1 a3 a4 a5 a6 a9 a10 := by
  simp only [T5]; after_results_simp; rw [h111, h9, hb]; rfl

theorem T6_out (h136 : V (Proc.devRef .tc main_v136) = val_main_v136 (F := Ideal) a0 a1 a3 a4 a5 a6 a9 a10)
    (h1 : V (Proc.devRef .tc main_v1) = val_main_v1 (F := Ideal) a1) (h3 : V (Proc.devRef .tc main_v3) = val_main_v3 (F := Ideal) a1)
    (h10 : V (Proc.devRef .tc main_v10) = val_main_v10 (F := Ideal) a1)
    (ha7 : V (Proc.devRef .tc main_arg7) = a7) (ha8 : V (Proc.devRef .tc main_arg8) = a8) :
    after (T6 (F := Ideal)) V (Proc.devRef .tc main_v174) = val_main_v174 (F := Ideal) a0 a1 a3 a4 a5 a6 a7 a8 a9 a10 := by
  simp only [T6]; after_results_simp; rw [h136, h1, h3, h10, ha7, ha8]; rfl

theorem T7_out (h174 : V (Proc.devRef .tc main_v174) = val_main_v174 (F := Ideal) a0 a1 a3 a4 a5 a6 a7 a8 a9 a10) (ha2 : V (Proc.devRef .tc main_arg2) = a2)
    (ha11 : V (Proc.devRef .tc main_arg11) = a11) (ha12 : V (Proc.devRef .tc main_arg12) = a12) :
    after (T7 (F := Ideal)) V (Proc.devRef .tc main_v190) = val_main_v190 (F := Ideal) a0 a1 a2 a3 a4 a5 a6 a7 a8 a9 a10 a11 a12 := by
  simp only [T7]; after_results_simp; rw [h174, ha2, ha11, ha12]; rfl

end Segments

end Cert.ReferenceIdeal.RunP

end
-- ==== Proof.RefRun.lean ====
/-
  The reference program's run, stated over its stages: the seven segments chained from the launch memory (a buffer a
  segment does not write keeps its contents, which carries the edge lists, the inverse square-root degrees and the
  argument arrays to the segments that read them), and the run itself — from any memory, every weakly fair execution
  ends with the result at the last stage of the arguments and the arguments unchanged.
-/
import proofs.«122425_j82325933130190_1_alg».proof.Proof.RefStage

set_option maxRecDepth 16384

noncomputable section

namespace Cert.ReferenceIdeal.RunP

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-! ## The chain of the seven segments from the launch memory -/

section Chain

variable (m : (ℓ : Loc nD τ sig) → Buf (Elt Ideal) ℓ) (c : Dev nD)

/-- A core's buffers at launch, and after each segment. -/
abbrev X0 : Valuation τ sig (Elt Ideal) := launchContents m c
abbrev X1 : Valuation τ sig (Elt Ideal) := after (T1 (F := Ideal)) (X0 m c)
abbrev X2 : Valuation τ sig (Elt Ideal) := after (T2 (F := Ideal)) (X1 m c)
abbrev X3 : Valuation τ sig (Elt Ideal) := after (T3 (F := Ideal)) (X2 m c)
abbrev X4 : Valuation τ sig (Elt Ideal) := after (T4 (F := Ideal)) (X3 m c)
abbrev X5 : Valuation τ sig (Elt Ideal) := after (T5 (F := Ideal)) (X4 m c)
abbrev X6 : Valuation τ sig (Elt Ideal) := after (T6 (F := Ideal)) (X5 m c)
abbrev X7 : Valuation τ sig (Elt Ideal) := after (T7 (F := Ideal)) (X6 m c)

theorem xkeep_arg0_0_1 : X1 m c (Proc.devRef .tc main_arg0) = X0 m c (Proc.devRef .tc main_arg0) :=
  calc X1 m c (Proc.devRef .tc main_arg0)
    _ = X0 m c (Proc.devRef .tc main_arg0) := ref_keeps T1

theorem xkeep_arg3_0_1 : X1 m c (Proc.devRef .tc main_arg3) = X0 m c (Proc.devRef .tc main_arg3) :=
  calc X1 m c (Proc.devRef .tc main_arg3)
    _ = X0 m c (Proc.devRef .tc main_arg3) := ref_keeps T1

theorem xkeep_arg4_0_1 : X1 m c (Proc.devRef .tc main_arg4) = X0 m c (Proc.devRef .tc main_arg4) :=
  calc X1 m c (Proc.devRef .tc main_arg4)
    _ = X0 m c (Proc.devRef .tc main_arg4) := ref_keeps T1

theorem xkeep_arg9_0_2 : X2 m c (Proc.devRef .tc main_arg9) = X0 m c (Proc.devRef .tc main_arg9) :=
  calc X2 m c (Proc.devRef .tc main_arg9)
    _ = X1 m c (Proc.devRef .tc main_arg9) := ref_keeps T2
    _ = X0 m c (Proc.devRef .tc main_arg9) := ref_keeps T1

theorem xkeep_arg10_0_2 : X2 m c (Proc.devRef .tc main_arg10) = X0 m c (Proc.devRef .tc main_arg10) :=
  calc X2 m c (Proc.devRef .tc main_arg10)
    _ = X1 m c (Proc.devRef .tc main_arg10) := ref_keeps T2
    _ = X0 m c (Proc.devRef .tc main_arg10) := ref_keeps T1

theorem xkeep_arg5_0_3 : X3 m c (Proc.devRef .tc main_arg5) = X0 m c (Proc.devRef .tc main_arg5) :=
  calc X3 m c (Proc.devRef .tc main_arg5)
    _ = X2 m c (Proc.devRef .tc main_arg5) := ref_keeps T3
    _ = X1 m c (Proc.devRef .tc main_arg5) := ref_keeps T2
    _ = X0 m c (Proc.devRef .tc main_arg5) := ref_keeps T1

theorem xkeep_arg6_0_3 : X3 m c (Proc.devRef .tc main_arg6) = X0 m c (Proc.devRef .tc main_arg6) :=
  calc X3 m c (Proc.devRef .tc main_arg6)
    _ = X2 m c (Proc.devRef .tc main_arg6) := ref_keeps T3
    _ = X1 m c (Proc.devRef .tc main_arg6) := ref_keeps T2
    _ = X0 m c (Proc.devRef .tc main_arg6) := ref_keeps T1

theorem xkeep_arg9_0_4 : X4 m c (Proc.devRef .tc main_arg9) = X0 m c (Proc.devRef .tc main_arg9) :=
  calc X4 m c (Proc.devRef .tc main_arg9)
    _ = X3 m c (Proc.devRef .tc main_arg9) := ref_keeps T4
    _ = X2 m c (Proc.devRef .tc main_arg9) := ref_keeps T3
    _ = X1 m c (Proc.devRef .tc main_arg9) := ref_keeps T2
    _ = X0 m c (Proc.devRef .tc main_arg9) := ref_keeps T1

theorem xkeep_arg10_0_4 : X4 m c (Proc.devRef .tc main_arg10) = X0 m c (Proc.devRef .tc main_arg10) :=
  calc X4 m c (Proc.devRef .tc main_arg10)
    _ = X3 m c (Proc.devRef .tc main_arg10) := ref_keeps T4
    _ = X2 m c (Proc.devRef .tc main_arg10) := ref_keeps T3
    _ = X1 m c (Proc.devRef .tc main_arg10) := ref_keeps T2
    _ = X0 m c (Proc.devRef .tc main_arg10) := ref_keeps T1

theorem xkeep_arg7_0_5 : X5 m c (Proc.devRef .tc main_arg7) = X0 m c (Proc.devRef .tc main_arg7) :=
  calc X5 m c (Proc.devRef .tc main_arg7)
    _ = X4 m c (Proc.devRef .tc main_arg7) := ref_keeps T5
    _ = X3 m c (Proc.devRef .tc main_arg7) := ref_keeps T4
    _ = X2 m c (Proc.devRef .tc main_arg7) := ref_keeps T3
    _ = X1 m c (Proc.devRef .tc main_arg7) := ref_keeps T2
    _ = X0 m c (Proc.devRef .tc main_arg7) := ref_keeps T1

theorem xkeep_arg8_0_5 : X5 m c (Proc.devRef .tc main_arg8) = X0 m c (Proc.devRef .tc main_arg8) :=
  calc X5 m c (Proc.devRef .tc main_arg8)
    _ = X4 m c (Proc.devRef .tc main_arg8) := ref_keeps T5
    _ = X3 m c (Proc.devRef .tc main_arg8) := ref_keeps T4
    _ = X2 m c (Proc.devRef .tc main_arg8) := ref_keeps T3
    _ = X1 m c (Proc.devRef .tc main_arg8) := ref_keeps T2
    _ = X0 m c (Proc.devRef .tc main_arg8) := ref_keeps T1

theorem xkeep_arg2_0_6 : X6 m c (Proc.devRef .tc main_arg2) = X0 m c (Proc.devRef .tc main_arg2) :=
  calc X6 m c (Proc.devRef .tc main_arg2)
    _ = X5 m c (Proc.devRef .tc main_arg2) := ref_keeps T6
    _ = X4 m c (Proc.devRef .tc main_arg2) := ref_keeps T5
    _ = X3 m c (Proc.devRef .tc main_arg2) := ref_keeps T4
    _ = X2 m c (Proc.devRef .tc main_arg2) := ref_keeps T3
    _ = X1 m c (Proc.devRef .tc main_arg2) := ref_keeps T2
    _ = X0 m c (Proc.devRef .tc main_arg2) := ref_keeps T1

theorem xkeep_arg11_0_6 : X6 m c (Proc.devRef .tc main_arg11) = X0 m c (Proc.devRef .tc main_arg11) :=
  calc X6 m c (Proc.devRef .tc main_arg11)
    _ = X5 m c (Proc.devRef .tc main_arg11) := ref_keeps T6
    _ = X4 m c (Proc.devRef .tc main_arg11) := ref_keeps T5
    _ = X3 m c (Proc.devRef .tc main_arg11) := ref_keeps T4
    _ = X2 m c (Proc.devRef .tc main_arg11) := ref_keeps T3
    _ = X1 m c (Proc.devRef .tc main_arg11) := ref_keeps T2
    _ = X0 m c (Proc.devRef .tc main_arg11) := ref_keeps T1

theorem xkeep_arg12_0_6 : X6 m c (Proc.devRef .tc main_arg12) = X0 m c (Proc.devRef .tc main_arg12) :=
  calc X6 m c (Proc.devRef .tc main_arg12)
    _ = X5 m c (Proc.devRef .tc main_arg12) := ref_keeps T6
    _ = X4 m c (Proc.devRef .tc main_arg12) := ref_keeps T5
    _ = X3 m c (Proc.devRef .tc main_arg12) := ref_keeps T4
    _ = X2 m c (Proc.devRef .tc main_arg12) := ref_keeps T3
    _ = X1 m c (Proc.devRef .tc main_arg12) := ref_keeps T2
    _ = X0 m c (Proc.devRef .tc main_arg12) := ref_keeps T1

theorem xkeep_v1_1_3 : X3 m c (Proc.devRef .tc main_v1) = X1 m c (Proc.devRef .tc main_v1) :=
  calc X3 m c (Proc.devRef .tc main_v1)
    _ = X2 m c (Proc.devRef .tc main_v1) := ref_keeps T3
    _ = X1 m c (Proc.devRef .tc main_v1) := ref_keeps T2

theorem xkeep_v3_1_3 : X3 m c (Proc.devRef .tc main_v3) = X1 m c (Proc.devRef .tc main_v3) :=
  calc X3 m c (Proc.devRef .tc main_v3)
    _ = X2 m c (Proc.devRef .tc main_v3) := ref_keeps T3
    _ = X1 m c (Proc.devRef .tc main_v3) := ref_keeps T2

theorem xkeep_v10_1_3 : X3 m c (Proc.devRef .tc main_v10) = X1 m c (Proc.devRef .tc main_v10) :=
  calc X3 m c (Proc.devRef .tc main_v10)
    _ = X2 m c (Proc.devRef .tc main_v10) := ref_keeps T3
    _ = X1 m c (Proc.devRef .tc main_v10) := ref_keeps T2

theorem xkeep_v1_1_5 : X5 m c (Proc.devRef .tc main_v1) = X1 m c (Proc.devRef .tc main_v1) :=
  calc X5 m c (Proc.devRef .tc main_v1)
    _ = X4 m c (Proc.devRef .tc main_v1) := ref_keeps T5
    _ = X3 m c (Proc.devRef .tc main_v1) := ref_keeps T4
    _ = X2 m c (Proc.devRef .tc main_v1) := ref_keeps T3
    _ = X1 m c (Proc.devRef .tc main_v1) := ref_keeps T2

theorem xkeep_v3_1_5 : X5 m c (Proc.devRef .tc main_v3) = X1 m c (Proc.devRef .tc main_v3) :=
  calc X5 m c (Proc.devRef .tc main_v3)
    _ = X4 m c (Proc.devRef .tc main_v3) := ref_keeps T5
    _ = X3 m c (Proc.devRef .tc main_v3) := ref_keeps T4
    _ = X2 m c (Proc.devRef .tc main_v3) := ref_keeps T3
    _ = X1 m c (Proc.devRef .tc main_v3) := ref_keeps T2

theorem xkeep_v10_1_5 : X5 m c (Proc.devRef .tc main_v10) = X1 m c (Proc.devRef .tc main_v10) :=
  calc X5 m c (Proc.devRef .tc main_v10)
    _ = X4 m c (Proc.devRef .tc main_v10) := ref_keeps T5
    _ = X3 m c (Proc.devRef .tc main_v10) := ref_keeps T4
    _ = X2 m c (Proc.devRef .tc main_v10) := ref_keeps T3
    _ = X1 m c (Proc.devRef .tc main_v10) := ref_keeps T2

/-! ### The argument arrays across all seven segments -/

theorem xkeep_arg0_0_7 : X7 m c (Proc.devRef .tc main_arg0) = X0 m c (Proc.devRef .tc main_arg0) :=
  calc X7 m c (Proc.devRef .tc main_arg0)
    _ = X6 m c (Proc.devRef .tc main_arg0) := ref_keeps T7
    _ = X5 m c (Proc.devRef .tc main_arg0) := ref_keeps T6
    _ = X4 m c (Proc.devRef .tc main_arg0) := ref_keeps T5
    _ = X3 m c (Proc.devRef .tc main_arg0) := ref_keeps T4
    _ = X2 m c (Proc.devRef .tc main_arg0) := ref_keeps T3
    _ = X1 m c (Proc.devRef .tc main_arg0) := ref_keeps T2
    _ = X0 m c (Proc.devRef .tc main_arg0) := ref_keeps T1

theorem xkeep_arg1_0_7 : X7 m c (Proc.devRef .tc main_arg1) = X0 m c (Proc.devRef .tc main_arg1) :=
  calc X7 m c (Proc.devRef .tc main_arg1)
    _ = X6 m c (Proc.devRef .tc main_arg1) := ref_keeps T7
    _ = X5 m c (Proc.devRef .tc main_arg1) := ref_keeps T6
    _ = X4 m c (Proc.devRef .tc main_arg1) := ref_keeps T5
    _ = X3 m c (Proc.devRef .tc main_arg1) := ref_keeps T4
    _ = X2 m c (Proc.devRef .tc main_arg1) := ref_keeps T3
    _ = X1 m c (Proc.devRef .tc main_arg1) := ref_keeps T2
    _ = X0 m c (Proc.devRef .tc main_arg1) := ref_keeps T1

theorem xkeep_arg2_0_7 : X7 m c (Proc.devRef .tc main_arg2) = X0 m c (Proc.devRef .tc main_arg2) :=
  calc X7 m c (Proc.devRef .tc main_arg2)
    _ = X6 m c (Proc.devRef .tc main_arg2) := ref_keeps T7
    _ = X5 m c (Proc.devRef .tc main_arg2) := ref_keeps T6
    _ = X4 m c (Proc.devRef .tc main_arg2) := ref_keeps T5
    _ = X3 m c (Proc.devRef .tc main_arg2) := ref_keeps T4
    _ = X2 m c (Proc.devRef .tc main_arg2) := ref_keeps T3
    _ = X1 m c (Proc.devRef .tc main_arg2) := ref_keeps T2
    _ = X0 m c (Proc.devRef .tc main_arg2) := ref_keeps T1

theorem xkeep_arg3_0_7 : X7 m c (Proc.devRef .tc main_arg3) = X0 m c (Proc.devRef .tc main_arg3) :=
  calc X7 m c (Proc.devRef .tc main_arg3)
    _ = X6 m c (Proc.devRef .tc main_arg3) := ref_keeps T7
    _ = X5 m c (Proc.devRef .tc main_arg3) := ref_keeps T6
    _ = X4 m c (Proc.devRef .tc main_arg3) := ref_keeps T5
    _ = X3 m c (Proc.devRef .tc main_arg3) := ref_keeps T4
    _ = X2 m c (Proc.devRef .tc main_arg3) := ref_keeps T3
    _ = X1 m c (Proc.devRef .tc main_arg3) := ref_keeps T2
    _ = X0 m c (Proc.devRef .tc main_arg3) := ref_keeps T1

theorem xkeep_arg4_0_7 : X7 m c (Proc.devRef .tc main_arg4) = X0 m c (Proc.devRef .tc main_arg4) :=
  calc X7 m c (Proc.devRef .tc main_arg4)
    _ = X6 m c (Proc.devRef .tc main_arg4) := ref_keeps T7
    _ = X5 m c (Proc.devRef .tc main_arg4) := ref_keeps T6
    _ = X4 m c (Proc.devRef .tc main_arg4) := ref_keeps T5
    _ = X3 m c (Proc.devRef .tc main_arg4) := ref_keeps T4
    _ = X2 m c (Proc.devRef .tc main_arg4) := ref_keeps T3
    _ = X1 m c (Proc.devRef .tc main_arg4) := ref_keeps T2
    _ = X0 m c (Proc.devRef .tc main_arg4) := ref_keeps T1

theorem xkeep_arg5_0_7 : X7 m c (Proc.devRef .tc main_arg5) = X0 m c (Proc.devRef .tc main_arg5) :=
  calc X7 m c (Proc.devRef .tc main_arg5)
    _ = X6 m c (Proc.devRef .tc main_arg5) := ref_keeps T7
    _ = X5 m c (Proc.devRef .tc main_arg5) := ref_keeps T6
    _ = X4 m c (Proc.devRef .tc main_arg5) := ref_keeps T5
    _ = X3 m c (Proc.devRef .tc main_arg5) := ref_keeps T4
    _ = X2 m c (Proc.devRef .tc main_arg5) := ref_keeps T3
    _ = X1 m c (Proc.devRef .tc main_arg5) := ref_keeps T2
    _ = X0 m c (Proc.devRef .tc main_arg5) := ref_keeps T1

theorem xkeep_arg6_0_7 : X7 m c (Proc.devRef .tc main_arg6) = X0 m c (Proc.devRef .tc main_arg6) :=
  calc X7 m c (Proc.devRef .tc main_arg6)
    _ = X6 m c (Proc.devRef .tc main_arg6) := ref_keeps T7
    _ = X5 m c (Proc.devRef .tc main_arg6) := ref_keeps T6
    _ = X4 m c (Proc.devRef .tc main_arg6) := ref_keeps T5
    _ = X3 m c (Proc.devRef .tc main_arg6) := ref_keeps T4
    _ = X2 m c (Proc.devRef .tc main_arg6) := ref_keeps T3
    _ = X1 m c (Proc.devRef .tc main_arg6) := ref_keeps T2
    _ = X0 m c (Proc.devRef .tc main_arg6) := ref_keeps T1

theorem xkeep_arg7_0_7 : X7 m c (Proc.devRef .tc main_arg7) = X0 m c (Proc.devRef .tc main_arg7) :=
  calc X7 m c (Proc.devRef .tc main_arg7)
    _ = X6 m c (Proc.devRef .tc main_arg7) := ref_keeps T7
    _ = X5 m c (Proc.devRef .tc main_arg7) := ref_keeps T6
    _ = X4 m c (Proc.devRef .tc main_arg7) := ref_keeps T5
    _ = X3 m c (Proc.devRef .tc main_arg7) := ref_keeps T4
    _ = X2 m c (Proc.devRef .tc main_arg7) := ref_keeps T3
    _ = X1 m c (Proc.devRef .tc main_arg7) := ref_keeps T2
    _ = X0 m c (Proc.devRef .tc main_arg7) := ref_keeps T1

theorem xkeep_arg8_0_7 : X7 m c (Proc.devRef .tc main_arg8) = X0 m c (Proc.devRef .tc main_arg8) :=
  calc X7 m c (Proc.devRef .tc main_arg8)
    _ = X6 m c (Proc.devRef .tc main_arg8) := ref_keeps T7
    _ = X5 m c (Proc.devRef .tc main_arg8) := ref_keeps T6
    _ = X4 m c (Proc.devRef .tc main_arg8) := ref_keeps T5
    _ = X3 m c (Proc.devRef .tc main_arg8) := ref_keeps T4
    _ = X2 m c (Proc.devRef .tc main_arg8) := ref_keeps T3
    _ = X1 m c (Proc.devRef .tc main_arg8) := ref_keeps T2
    _ = X0 m c (Proc.devRef .tc main_arg8) := ref_keeps T1

theorem xkeep_arg9_0_7 : X7 m c (Proc.devRef .tc main_arg9) = X0 m c (Proc.devRef .tc main_arg9) :=
  calc X7 m c (Proc.devRef .tc main_arg9)
    _ = X6 m c (Proc.devRef .tc main_arg9) := ref_keeps T7
    _ = X5 m c (Proc.devRef .tc main_arg9) := ref_keeps T6
    _ = X4 m c (Proc.devRef .tc main_arg9) := ref_keeps T5
    _ = X3 m c (Proc.devRef .tc main_arg9) := ref_keeps T4
    _ = X2 m c (Proc.devRef .tc main_arg9) := ref_keeps T3
    _ = X1 m c (Proc.devRef .tc main_arg9) := ref_keeps T2
    _ = X0 m c (Proc.devRef .tc main_arg9) := ref_keeps T1

theorem xkeep_arg10_0_7 : X7 m c (Proc.devRef .tc main_arg10) = X0 m c (Proc.devRef .tc main_arg10) :=
  calc X7 m c (Proc.devRef .tc main_arg10)
    _ = X6 m c (Proc.devRef .tc main_arg10) := ref_keeps T7
    _ = X5 m c (Proc.devRef .tc main_arg10) := ref_keeps T6
    _ = X4 m c (Proc.devRef .tc main_arg10) := ref_keeps T5
    _ = X3 m c (Proc.devRef .tc main_arg10) := ref_keeps T4
    _ = X2 m c (Proc.devRef .tc main_arg10) := ref_keeps T3
    _ = X1 m c (Proc.devRef .tc main_arg10) := ref_keeps T2
    _ = X0 m c (Proc.devRef .tc main_arg10) := ref_keeps T1

theorem xkeep_arg11_0_7 : X7 m c (Proc.devRef .tc main_arg11) = X0 m c (Proc.devRef .tc main_arg11) :=
  calc X7 m c (Proc.devRef .tc main_arg11)
    _ = X6 m c (Proc.devRef .tc main_arg11) := ref_keeps T7
    _ = X5 m c (Proc.devRef .tc main_arg11) := ref_keeps T6
    _ = X4 m c (Proc.devRef .tc main_arg11) := ref_keeps T5
    _ = X3 m c (Proc.devRef .tc main_arg11) := ref_keeps T4
    _ = X2 m c (Proc.devRef .tc main_arg11) := ref_keeps T3
    _ = X1 m c (Proc.devRef .tc main_arg11) := ref_keeps T2
    _ = X0 m c (Proc.devRef .tc main_arg11) := ref_keeps T1

theorem xkeep_arg12_0_7 : X7 m c (Proc.devRef .tc main_arg12) = X0 m c (Proc.devRef .tc main_arg12) :=
  calc X7 m c (Proc.devRef .tc main_arg12)
    _ = X6 m c (Proc.devRef .tc main_arg12) := ref_keeps T7
    _ = X5 m c (Proc.devRef .tc main_arg12) := ref_keeps T6
    _ = X4 m c (Proc.devRef .tc main_arg12) := ref_keeps T5
    _ = X3 m c (Proc.devRef .tc main_arg12) := ref_keeps T4
    _ = X2 m c (Proc.devRef .tc main_arg12) := ref_keeps T3
    _ = X1 m c (Proc.devRef .tc main_arg12) := ref_keeps T2
    _ = X0 m c (Proc.devRef .tc main_arg12) := ref_keeps T1

theorem x1_src : X1 m c (Proc.devRef .tc main_v1) = val_main_v1 (F := Ideal) (m ((c.tc : Thread nD τ).loc main_arg1)) := T1_src _
theorem x1_dst : X1 m c (Proc.devRef .tc main_v3) = val_main_v3 (F := Ideal) (m ((c.tc : Thread nD τ).loc main_arg1)) := T1_dst _
theorem x1_dinv : X1 m c (Proc.devRef .tc main_v10) = val_main_v10 (F := Ideal) (m ((c.tc : Thread nD τ).loc main_arg1)) := T1_dinv _

theorem x2_out : X2 m c (Proc.devRef .tc main_v48) = val_main_v48 (F := Ideal) (m ((c.tc : Thread nD τ).loc main_arg0)) (m ((c.tc : Thread nD τ).loc main_arg1)) (m ((c.tc : Thread nD τ).loc main_arg3)) (m ((c.tc : Thread nD τ).loc main_arg4)) :=
  T2_out _ _ _ _ _ (x1_src m c) (x1_dst m c) (x1_dinv m c) (xkeep_arg0_0_1 m c) (xkeep_arg3_0_1 m c) (xkeep_arg4_0_1 m c)

theorem x3_out : X3 m c (Proc.devRef .tc main_v73) = val_main_v73 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg9)) (m ((c.tc : Thread nD τ).loc main_arg10)) :=
  T3_out _ _ _ _ _ _ _ (x2_out m c) (xkeep_arg9_0_2 m c) (xkeep_arg10_0_2 m c)

theorem x4_out : X4 m c (Proc.devRef .tc main_v111) = val_main_v111 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) :=
  T4_out _ _ _ _ _ _ _ _ _ (x3_out m c) ((xkeep_v1_1_3 m c).trans (x1_src m c)) ((xkeep_v3_1_3 m c).trans (x1_dst m c))
    ((xkeep_v10_1_3 m c).trans (x1_dinv m c)) (xkeep_arg5_0_3 m c) (xkeep_arg6_0_3 m c)

theorem x5_out : X5 m c (Proc.devRef .tc main_v136) = val_main_v136 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) :=
  T5_out _ _ _ _ _ _ _ _ _ (x4_out m c) (xkeep_arg9_0_4 m c) (xkeep_arg10_0_4 m c)

theorem x6_out : X6 m c (Proc.devRef .tc main_v174) = val_main_v174 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  T6_out _ _ _ _ _ _ _ _ _ _ _ (x5_out m c) ((xkeep_v1_1_5 m c).trans (x1_src m c)) ((xkeep_v3_1_5 m c).trans (x1_dst m c))
    ((xkeep_v10_1_5 m c).trans (x1_dinv m c)) (xkeep_arg7_0_5 m c) (xkeep_arg8_0_5 m c)

theorem x7_out : X7 m c (Proc.devRef .tc main_v190) = val_main_v190 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  T7_out _ _ _ _ _ _ _ _ _ _ _ _ _ _ (x6_out m c) (xkeep_arg2_0_6 m c) (xkeep_arg11_0_6 m c) (xkeep_arg12_0_6 m c)

/-- The whole line from the launch memory leaves what the chain of its segments leaves. -/
theorem after_ops : after (ops (F := Ideal)) (launchContents m c) = X7 m c := by
  rw [ops_split]; simp only [after_append]

end Chain

/-! ## The run -/

/-- On every device, from any memory with zero counters: every weakly fair execution of the reference terminates with
    the result at the last stage of the argument arrays and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v190) = val_main_v190 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v190).trans ((congrFun (after_ops m c) _).trans (x7_out m c)),
      (h c main_arg0).trans ((congrFun (after_ops m c) _).trans (xkeep_arg0_0_7 m c)),
      (h c main_arg1).trans ((congrFun (after_ops m c) _).trans (xkeep_arg1_0_7 m c)),
      (h c main_arg2).trans ((congrFun (after_ops m c) _).trans (xkeep_arg2_0_7 m c)),
      (h c main_arg3).trans ((congrFun (after_ops m c) _).trans (xkeep_arg3_0_7 m c)),
      (h c main_arg4).trans ((congrFun (after_ops m c) _).trans (xkeep_arg4_0_7 m c)),
      (h c main_arg5).trans ((congrFun (after_ops m c) _).trans (xkeep_arg5_0_7 m c)),
      (h c main_arg6).trans ((congrFun (after_ops m c) _).trans (xkeep_arg6_0_7 m c)),
      (h c main_arg7).trans ((congrFun (after_ops m c) _).trans (xkeep_arg7_0_7 m c)),
      (h c main_arg8).trans ((congrFun (after_ops m c) _).trans (xkeep_arg8_0_7 m c)),
      (h c main_arg9).trans ((congrFun (after_ops m c) _).trans (xkeep_arg9_0_7 m c)),
      (h c main_arg10).trans ((congrFun (after_ops m c) _).trans (xkeep_arg10_0_7 m c)),
      (h c main_arg11).trans ((congrFun (after_ops m c) _).trans (xkeep_arg11_0_7 m c)),
      (h c main_arg12).trans ((congrFun (after_ops m c) _).trans (xkeep_arg12_0_7 m c))⟩)
    (run_seq scopedRefs_eq scopedSems_eq defs main (fun _ => ops) main_eq (fun _ => ops_sub) m ρ)

end Cert.ReferenceIdeal.RunP

end
-- ==== Proof.PreGamma.lean ====
import proofs.«122425_j82325933130190_1_alg».proof.Defs
import proofs.«122425_j82325933130190_1_alg».proof.Proof.BnConsts
import Idealize.ShloMosaic.Lib.ReduceAll

/-!
# The scale vector is real under the precondition

The precondition `finite_inputs` is the conjunction, over the eleven float inputs, of
"every entry `x` of the input satisfies `|x| < +∞`". At the ideal instance an entry is an extended
real, `|x|` is `max x (-x)`, and `+∞` (the pattern `0x7F800000`) is `⊤`; so the conjunct for the
tenth argument (the scale vector `γ`, `f32[64]`) says every `γ_j` is neither `⊤` nor `⊥`: a real number.

The printed predicate is a chain `v ← v ∧ all(|arg_k| < +∞)`; its value being `1` gives each
conjunct by splitting the `and`s, the `all` (a reduction by `and` to a single index) gives the
comparison at every index `j`, and the comparison at the ideal instance is the strict order.
-/

noncomputable section

namespace Cert.PreGamma

open Idealize.ShloMosaic Idealize.SL.Sem
open Cert.Pre_finite_inputs (Facts fn fn_part1 fn_part2 fn_part3)

/-- An extended real whose absolute value `max x (-x)` is below `⊤` is a real number:
    for `x = ⊤` or `x = ⊥` the absolute value is `⊤`. -/
theorem real_of_abs_lt_top (x : EReal) (h : max x (-x) < ⊤) : ∃ g : ℝ, x = (g : EReal) := by
  induction x using EReal.rec with
  | bot => simp at h
  | coe g => exact ⟨g, rfl⟩
  | top => simp at h

/-- The ordered comparison `x < y` of the ideal instance answers `1` only when `x < y`. -/
theorem lt_of_cmp_olt (x y : EReal) (h : Ideal.cmp .olt x y = 1#1) : x < y := by
  unfold Ideal.cmp at h
  by_contra hn
  simp [hn] at h

/-- The rank-0 shape has a single index. -/
instance : Subsingleton Cert.Pre_finite_inputs.S_.Idx := ⟨fun a b => funext fun d => d.elim0⟩

/-- If `finite_inputs` of thirteen arrays is `1`, every entry of the tenth (index 9, `f32[64]`) is
    a real number. The value of the predicate is
    `((((v33 ∧ all(|a9| < +∞)) ∧ all(|a10| < +∞)) ∧ all(|a11| < +∞)) ∧ all(|a12| < +∞))`
    with `v33` the conjunction over the earlier arguments; so `all(|a9| < +∞) = 1`, hence
    `|a9 j| < +∞ = ⊤` at every `j`, hence `a9 j` is real. -/
theorem arg9_real [Facts]
    (a0 : FVec Ideal Cert.Pre_finite_inputs.S100000x64 .f32) (a1 : IVec Cert.Pre_finite_inputs.S2x1600000 32)
    (a2 : IVec Cert.Pre_finite_inputs.S100000 32) (a3 : FVec Ideal Cert.Pre_finite_inputs.S64x64 .f32)
    (a4 : FVec Ideal Cert.Pre_finite_inputs.S64 .f32) (a5 : FVec Ideal Cert.Pre_finite_inputs.S64x64 .f32)
    (a6 : FVec Ideal Cert.Pre_finite_inputs.S64 .f32) (a7 : FVec Ideal Cert.Pre_finite_inputs.S64x64 .f32)
    (a8 : FVec Ideal Cert.Pre_finite_inputs.S64 .f32) (a9 : FVec Ideal Cert.Pre_finite_inputs.S64 .f32)
    (a10 : FVec Ideal Cert.Pre_finite_inputs.S64 .f32) (a11 : FVec Ideal Cert.Pre_finite_inputs.S64x8 .f32)
    (a12 : FVec Ideal Cert.Pre_finite_inputs.S8 .f32)
    (h : fn (F := Ideal) a0 a1 a2 a3 a4 a5 a6 a7 a8 a9 a10 a11 a12 = fun _ => 1#1)
    (j : Cert.Pre_finite_inputs.S64.Idx) :
    ∃ g : ℝ, a9 j = (g : EReal) := by
  have e := congrFun h (fun a => a.elim0)
  unfold fn fn_part1 fn_part2 fn_part3 at e
  dsimp only at e
  -- the conjunct of the tenth argument
  have e37 := (IntOp.andi_eq_one.1 (IntOp.andi_eq_one.1 (IntOp.andi_eq_one.1 (IntOp.andi_eq_one.1 e).1).1).1).2
  clear e
  -- the comparison at index j
  have ej := Host.reduce_andi_all _ _ _ _ _ e37 j
  clear e37
  change Ideal.cmp .olt (max (a9 j) (-(a9 j))) (Ideal.ofBits .f32 0x7F800000#32) = 1#1 at ej
  rw [Cert.BnConsts.ofBits_inf] at ej
  exact real_of_abs_lt_top _ (lt_of_cmp_olt _ _ ej)

/-- Under the precondition of the idealized kernel, on every device every entry of the scale vector
    (the tenth argument, `f32[64]`) is a real number. -/
theorem gamma_real [Facts]
    (m : (ℓ : Loc Cert.KernelIdeal.nD Cert.KernelIdeal.τ Cert.KernelIdeal.sig) → Buf (Elt Ideal) ℓ)
    (h : Cert.Pre_KernelIdeal m) (c : Dev Cert.KernelIdeal.nD) (j : Cert.KernelIdeal.S64.Idx) :
    ∃ g : ℝ, m ((c.tc : Thread Cert.KernelIdeal.nD Cert.KernelIdeal.τ).loc Cert.KernelIdeal.main_arg9) j = (g : EReal) :=
  arg9_real _ _ _ _ _ _ _ _ _ _ _ _ _ (h c) j

end Cert.PreGamma

end
-- ==== Proof.lean ====
/-
  A three-layer graph convolution network with two batch normalisations, a mean pool and a linear classifier:
  the kernel program (its three feature products, three combines and two normalisation maps as Pallas regions
  over blocks of 5000 nodes, the edge gather / scatter-add and the column statistics on the host) against the plain
  reference, over the extended reals.

  Both programs compute, layer by layer, relu((A·(X W)) + (X W)·d² + b) with the same normalised adjacency A (gather
  along the source rows, weigh by the inverse square-root degrees of both ends, scatter-add to the destination rows) —
  the kernel's product a sum of 64 terms per entry of each block, the reference's one contraction; equal entry by entry.
  They differ in one place. The reference normalises a column as ((x − μ)·r)·γ + β with μ the column mean and
  r = rsqrt(variance + ε); the kernel computes the scale γ·r and the shift β − μ·(γ·r) on the host and applies
  x·scale + shift in a region. Over the extended reals this is not an identity (distributivity fails at the
  infinities), and no finiteness of x is available cheaply behind a gather and a scatter; but x is a relu's output,
  so no entry is negative, and γ is finite by the precondition, and for such a column the two spellings agree
  (Proof/LibBnLaw.lean): either the mean is a real number, and then r and γ·r are real and the scale distributes over
  x − μ whatever x is; or the mean is +∞, and then the variance is +∞, r = 0, and both spellings give β.

  The kernel's result is read off its frame's run boundary by boundary (Proof/KRun.lean, KKeep.lean, KHost.lean,
  KFold.lean, the regions in Proof/Reg*.lean), each buffer identified with a stage of the reference applied to the
  argument arrays (Proof/Bridge.lean joins the regions' array functions to the stages); the reference's run is stated
  over the same stages (Proof/RefRun.lean). The idealization rewrote nothing, so `preserves` has no conjunct.
-/
import proofs.«122425_j82325933130190_1_alg».proof.Defs
import proofs.«122425_j82325933130190_1_alg».proof.Proof.Gen.Kernel
import proofs.«122425_j82325933130190_1_alg».proof.Proof.Gen.Kernel.Skeleton
import proofs.«122425_j82325933130190_1_alg».proof.Proof.Gen.Kernel.Launch
import proofs.«122425_j82325933130190_1_alg».proof.Proof.Gen.Kernel.Points
import proofs.«122425_j82325933130190_1_alg».proof.Proof.Gen.Kernel.Frame
import proofs.«122425_j82325933130190_1_alg».proof.Proof.Gen.KernelIdeal
import proofs.«122425_j82325933130190_1_alg».proof.Proof.Gen.KernelIdeal.Skeleton
import proofs.«122425_j82325933130190_1_alg».proof.Proof.Gen.KernelIdeal.Launch
import proofs.«122425_j82325933130190_1_alg».proof.Proof.Gen.KernelIdeal.Points
import proofs.«122425_j82325933130190_1_alg».proof.Proof.Gen.KernelIdeal.Frame
import proofs.«122425_j82325933130190_1_alg».proof.Proof.Gen.ReferenceIdeal
import proofs.«122425_j82325933130190_1_alg».proof.Proof.Gen.Pre_finite_inputs
import proofs.«122425_j82325933130190_1_alg».proof.Proof.KRun
import proofs.«122425_j82325933130190_1_alg».proof.Proof.KFold
import proofs.«122425_j82325933130190_1_alg».proof.Proof.RefRun
import proofs.«122425_j82325933130190_1_alg».proof.Proof.PreGamma
import Idealize.ShloMosaic.Adequacy
import Idealize.ShloMosaic.Init

set_option maxRecDepth 16384

noncomputable section

namespace Cert.Proof

open Idealize.ShloMosaic Idealize.SL.Sem

section Claims

variable [hPre : Cert.Pre_finite_inputs.Facts]

/-- The word-level kernel runs and leaves its arguments unchanged: its generated frame. -/
theorem frame_k : Cert.frame_Kernel (hKernel := Cert.Kernel.Gen.facts) := fun m ρ _ => Cert.Kernel.Gen.frame m ρ

/-- The idealized kernel runs and leaves its arguments unchanged: its generated frame. -/
theorem frame_ki : Cert.frame_KernelIdeal (hKernelIdeal := Cert.KernelIdeal.Gen.facts) := fun m ρ _ => Cert.KernelIdeal.Gen.frame m ρ

/-- The reference runs and leaves its arguments unchanged: its run, the result dropped. -/
theorem frame_ri : Cert.frame_ReferenceIdeal (hReferenceIdeal := Cert.ReferenceIdeal.Gen.facts) := fun m ρ _ =>
  (θ_run Cert.ReferenceIdeal.defs _ _).mono (fun _ h c => (h c).2) (Cert.ReferenceIdeal.RunP.run m ρ)

/-- From memories agreeing on the arguments both programs end, with the same result: the reference's last stage of
    the argument arrays — the kernel's result read back through its fifteen boundaries, the reference's its run. -/
theorem algebraic : Cert.algebraic_KernelIdeal_ReferenceIdeal (hKernelIdeal := Cert.KernelIdeal.Gen.facts)
    (hReferenceIdeal := Cert.ReferenceIdeal.Gen.facts) := by
  intro m ρ m' ρ' hpre hagree
  refine ⟨fun c => Cert.ReferenceIdeal.ReadP.val_main_v190 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Fold.result m ρ (fun c j => Cert.PreGamma.gamma_real m hpre c j) c), (h c).2⟩)
      (Cert.KernelIdeal.RunVal.run m ρ)
  · refine (θ_run Cert.ReferenceIdeal.defs _ _).mono (fun _ h c => ⟨(h c).1.trans ?_, (h c).2⟩)
      (Cert.ReferenceIdeal.RunP.run m' ρ')
    obtain ⟨h0, h1, h2, h3, h4, h5, h6, h7, h8, h9, h10, h11, h12⟩ := hagree c
    rw [h0, h1, h2, h3, h4, h5, h6, h7, h8, h9, h10, h11, h12]

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
